-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x3 : Shape := ⟨2, ![200000, 3]⟩
abbrev S2x6400000 : Shape := ⟨2, ![2, 6400000]⟩
abbrev S3x6 : Shape := ⟨2, ![3, 6]⟩
abbrev S6 : Shape := ⟨1, ![6]⟩
abbrev S6x12 : Shape := ⟨2, ![6, 12]⟩
abbrev S12 : Shape := ⟨1, ![12]⟩
abbrev S12x24 : Shape := ⟨2, ![12, 24]⟩
abbrev S24 : Shape := ⟨1, ![24]⟩
abbrev S24x13 : Shape := ⟨2, ![24, 13]⟩
abbrev S13 : Shape := ⟨1, ![13]⟩
abbrev S_ : Shape := ⟨0, ![]⟩

class Facts : Prop where
  bcast_S_S200000x3 : S_.BroadcastsInDim S200000x3 (![] : Fin 0 → Fin S200000x3.rank)
  reducesTo_S200000x3_S_d0_1 : S200000x3.ReducesTo [0, 1] S_
  h_S_ : 0 < S_.numel
  bcast_S_S3x6 : S_.BroadcastsInDim S3x6 (![] : Fin 0 → Fin S3x6.rank)
  reducesTo_S3x6_S_d0_1 : S3x6.ReducesTo [0, 1] S_
  bcast_S_S6 : S_.BroadcastsInDim S6 (![] : Fin 0 → Fin S6.rank)
  reducesTo_S6_S_d0 : S6.ReducesTo [0] S_
  bcast_S_S6x12 : S_.BroadcastsInDim S6x12 (![] : Fin 0 → Fin S6x12.rank)
  reducesTo_S6x12_S_d0_1 : S6x12.ReducesTo [0, 1] S_
  bcast_S_S12 : S_.BroadcastsInDim S12 (![] : Fin 0 → Fin S12.rank)
  reducesTo_S12_S_d0 : S12.ReducesTo [0] S_
  bcast_S_S12x24 : S_.BroadcastsInDim S12x24 (![] : Fin 0 → Fin S12x24.rank)
  reducesTo_S12x24_S_d0_1 : S12x24.ReducesTo [0, 1] S_
  bcast_S_S24 : S_.BroadcastsInDim S24 (![] : Fin 0 → Fin S24.rank)
  reducesTo_S24_S_d0 : S24.ReducesTo [0] S_
  bcast_S_S24x13 : S_.BroadcastsInDim S24x13 (![] : Fin 0 → Fin S24x13.rank)
  reducesTo_S24x13_S_d0_1 : S24x13.ReducesTo [0, 1] S_
  bcast_S_S13 : S_.BroadcastsInDim S13 (![] : Fin 0 → Fin S13.rank)
  reducesTo_S13_S_d0 : S13.ReducesTo [0] S_

variable [Facts]

def fn_part2 {F : FTy → Type} [FloatOps F] (main_arg8 : FVec F S24x13 .f32) (main_arg9 : FVec F S13 .f32) (main_v33 : IVec S_ 1) : IVec S_ 1 :=
  let main_v34 : FVec F S24x13 .f32 := Host.absf main_arg8
  let main_cst_12 : FVec F S_ .f32 := constant S_ .f32 0x7F800000#32
  let main_v35 : FVec F S24x13 .f32 := broadcastInDim S24x13 ![] bcast_S_S24x13 main_cst_12
  let main_v36 : IVec S24x13 1 := cmpf .olt main_v34 main_v35
  let main_c_13 : IVec S_ 1 := constantI S_ 1 1#1
  let main_v37 : IVec S_ 1 := (fun x v => Host.reduce IntOp.andi x v reducesTo_S24x13_S_d0_1 h_S_) main_v36 main_c_13
  let main_v38 : IVec S_ 1 := andi main_v33 main_v37
  let main_v39 : FVec F S13 .f32 := Host.absf main_arg9
  let main_cst_14 : FVec F S_ .f32 := constant S_ .f32 0x7F800000#32
  let main_v40 : FVec F S13 .f32 := broadcastInDim S13 ![] bcast_S_S13 main_cst_14
  let main_v41 : IVec S13 1 := cmpf .olt main_v39 main_v40
  let main_c_15 : IVec S_ 1 := constantI S_ 1 1#1
  let main_v42 : IVec S_ 1 := (fun x v => Host.reduce IntOp.andi x v reducesTo_S13_S_d0 h_S_) main_v41 main_c_15
  let main_v43 : IVec S_ 1 := andi main_v38 main_v42
  main_v43

def fn_part1 {F : FTy → Type} [FloatOps F] (main_arg5 : FVec F S12 .f32) (main_arg6 : FVec F S12x24 .f32) (main_arg7 : FVec F S24 .f32) (main_arg8 : FVec F S24x13 .f32) (main_arg9 : FVec F S13 .f32) (main_v13 : IVec S_ 1) (main_v16 : IVec S6x12 1) : IVec S_ 1 :=
  let main_c_5 : IVec S_ 1 := constantI S_ 1 1#1
  let main_v17 : IVec S_ 1 := (fun x v => Host.reduce IntOp.andi x v reducesTo_S6x12_S_d0_1 h_S_) main_v16 main_c_5
  let main_v18 : IVec S_ 1 := andi main_v13 main_v17
  let main_v19 : FVec F S12 .f32 := Host.absf main_arg5
  let main_cst_6 : FVec F S_ .f32 := constant S_ .f32 0x7F800000#32
  let main_v20 : FVec F S12 .f32 := broadcastInDim S12 ![] bcast_S_S12 main_cst_6
  let main_v21 : IVec S12 1 := cmpf .olt main_v19 main_v20
  let main_c_7 : IVec S_ 1 := constantI S_ 1 1#1
  let main_v22 : IVec S_ 1 := (fun x v => Host.reduce IntOp.andi x v reducesTo_S12_S_d0 h_S_) main_v21 main_c_7
  let main_v23 : IVec S_ 1 := andi main_v18 main_v22
  let main_v24 : FVec F S12x24 .f32 := Host.absf main_arg6
  let main_cst_8 : FVec F S_ .f32 := constant S_ .f32 0x7F800000#32
  let main_v25 : FVec F S12x24 .f32 := broadcastInDim S12x24 ![] bcast_S_S12x24 main_cst_8
  let main_v26 : IVec S12x24 1 := cmpf .olt main_v24 main_v25
  let main_c_9 : IVec S_ 1 := constantI S_ 1 1#1
  let main_v27 : IVec S_ 1 := (fun x v => Host.reduce IntOp.andi x v reducesTo_S12x24_S_d0_1 h_S_) main_v26 main_c_9
  let main_v28 : IVec S_ 1 := andi main_v23 main_v27
  let main_v29 : FVec F S24 .f32 := Host.absf main_arg7
  let main_cst_10 : FVec F S_ .f32 := constant S_ .f32 0x7F800000#32
  let main_v30 : FVec F S24 .f32 := broadcastInDim S24 ![] bcast_S_S24 main_cst_10
  let main_v31 : IVec S24 1 := cmpf .olt main_v29 main_v30
  let main_c_11 : IVec S_ 1 := constantI S_ 1 1#1
  let main_v32 : IVec S_ 1 := (fun x v => Host.reduce IntOp.andi x v reducesTo_S24_S_d0 h_S_) main_v31 main_c_11
  let main_v33 : IVec S_ 1 := andi main_v28 main_v32
  fn_part2 (F := F) main_arg8 main_arg9 main_v33

def fn {F : FTy → Type} [FloatOps F] (main_arg0 : FVec F S200000x3 .f32) (main_arg1 : IVec S2x6400000 32) (main_arg2 : FVec F S3x6 .f32) (main_arg3 : FVec F S6 .f32) (main_arg4 : FVec F S6x12 .f32) (main_arg5 : FVec F S12 .f32) (main_arg6 : FVec F S12x24 .f32) (main_arg7 : FVec F S24 .f32) (main_arg8 : FVec F S24x13 .f32) (main_arg9 : FVec F S13 .f32) : IVec S_ 1 :=
  let main_v0 : FVec F S200000x3 .f32 := Host.absf main_arg0
  let main_cst : FVec F S_ .f32 := constant S_ .f32 0x7F800000#32
  let main_v1 : FVec F S200000x3 .f32 := broadcastInDim S200000x3 ![] bcast_S_S200000x3 main_cst
  let main_v2 : IVec S200000x3 1 := cmpf .olt main_v0 main_v1
  let main_c : IVec S_ 1 := constantI S_ 1 1#1
  let main_v3 : IVec S_ 1 := (fun x v => Host.reduce IntOp.andi x v reducesTo_S200000x3_S_d0_1 h_S_) main_v2 main_c
  let main_v4 : FVec F S3x6 .f32 := Host.absf main_arg2
  let main_cst_0 : FVec F S_ .f32 := constant S_ .f32 0x7F800000#32
  let main_v5 : FVec F S3x6 .f32 := broadcastInDim S3x6 ![] bcast_S_S3x6 main_cst_0
  let main_v6 : IVec S3x6 1 := cmpf .olt main_v4 main_v5
  let main_c_1 : IVec S_ 1 := constantI S_ 1 1#1
  let main_v7 : IVec S_ 1 := (fun x v => Host.reduce IntOp.andi x v reducesTo_S3x6_S_d0_1 h_S_) main_v6 main_c_1
  let main_v8 : IVec S_ 1 := andi main_v3 main_v7
  let main_v9 : FVec F S6 .f32 := Host.absf main_arg3
  let main_cst_2 : FVec F S_ .f32 := constant S_ .f32 0x7F800000#32
  let main_v10 : FVec F S6 .f32 := broadcastInDim S6 ![] bcast_S_S6 main_cst_2
  let main_v11 : IVec S6 1 := cmpf .olt main_v9 main_v10
  let main_c_3 : IVec S_ 1 := constantI S_ 1 1#1
  let main_v12 : IVec S_ 1 := (fun x v => Host.reduce IntOp.andi x v reducesTo_S6_S_d0 h_S_) main_v11 main_c_3
  let main_v13 : IVec S_ 1 := andi main_v8 main_v12
  let main_v14 : FVec F S6x12 .f32 := Host.absf main_arg4
  let main_cst_4 : FVec F S_ .f32 := constant S_ .f32 0x7F800000#32
  let main_v15 : FVec F S6x12 .f32 := broadcastInDim S6x12 ![] bcast_S_S6x12 main_cst_4
  let main_v16 : IVec S6x12 1 := cmpf .olt main_v14 main_v15
  fn_part1 (F := F) main_arg5 main_arg6 main_arg7 main_arg8 main_arg9 main_v13 main_v16
-- ==== Kernel.lean ====
abbrev S200000x3 : Shape := ⟨2, ![200000, 3]⟩
abbrev S2x6400000 : Shape := ⟨2, ![2, 6400000]⟩
abbrev S3x6 : Shape := ⟨2, ![3, 6]⟩
abbrev S6 : Shape := ⟨1, ![6]⟩
abbrev S6x12 : Shape := ⟨2, ![6, 12]⟩
abbrev S12 : Shape := ⟨1, ![12]⟩
abbrev S12x24 : Shape := ⟨2, ![12, 24]⟩
abbrev S24 : Shape := ⟨1, ![24]⟩
abbrev S24x13 : Shape := ⟨2, ![24, 13]⟩
abbrev S13 : Shape := ⟨1, ![13]⟩
abbrev S1x6400000 : Shape := ⟨2, ![1, 6400000]⟩
abbrev S6400000 : Shape := ⟨1, ![6400000]⟩
abbrev S200000 : Shape := ⟨1, ![200000]⟩
abbrev S6600000 : Shape := ⟨1, ![6600000]⟩
abbrev S_ : Shape := ⟨0, ![]⟩
abbrev S6600000x1 : Shape := ⟨2, ![6600000, 1]⟩
abbrev S200000x6 : Shape := ⟨2, ![200000, 6]⟩
abbrev S25000x3 : Shape := ⟨2, ![25000, 3]⟩
abbrev S25000x6 : Shape := ⟨2, ![25000, 6]⟩
abbrev S6600000x6 : Shape := ⟨2, ![6600000, 6]⟩
abbrev S1x6 : Shape := ⟨2, ![1, 6]⟩
abbrev S200000x12 : Shape := ⟨2, ![200000, 12]⟩
abbrev S25000x12 : Shape := ⟨2, ![25000, 12]⟩
abbrev S6600000x12 : Shape := ⟨2, ![6600000, 12]⟩
abbrev S1x12 : Shape := ⟨2, ![1, 12]⟩
abbrev S25000 : Shape := ⟨1, ![25000]⟩
abbrev S25000x1 : Shape := ⟨2, ![25000, 1]⟩
abbrev S200000x24 : Shape := ⟨2, ![200000, 24]⟩
abbrev S25000x24 : Shape := ⟨2, ![25000, 24]⟩
abbrev S6600000x24 : Shape := ⟨2, ![6600000, 24]⟩
abbrev S1x24 : Shape := ⟨2, ![1, 24]⟩
abbrev S1x13 : Shape := ⟨2, ![1, 13]⟩
abbrev S200000x13 : Shape := ⟨2, ![200000, 13]⟩
abbrev S25000x13 : Shape := ⟨2, ![25000, 13]⟩

abbrev nBuf : Space → Nat
  | .hbm => 109
  | .vmem => 36
  | .smem => 0
  | _ => 0

abbrev bufTy : (tb : Table) → Fin (tcTables nBuf tb) → BufTy
  | .hbm, ⟨0, _⟩ => ⟨S200000x3, .f32⟩
  | .hbm, ⟨1, _⟩ => ⟨S2x6400000, .i32⟩
  | .hbm, ⟨2, _⟩ => ⟨S3x6, .f32⟩
  | .hbm, ⟨3, _⟩ => ⟨S6, .f32⟩
  | .hbm, ⟨4, _⟩ => ⟨S6x12, .f32⟩
  | .hbm, ⟨5, _⟩ => ⟨S12, .f32⟩
  | .hbm, ⟨6, _⟩ => ⟨S12x24, .f32⟩
  | .hbm, ⟨7, _⟩ => ⟨S24, .f32⟩
  | .hbm, ⟨8, _⟩ => ⟨S24x13, .f32⟩
  | .hbm, ⟨9, _⟩ => ⟨S13, .f32⟩
  | .hbm, ⟨10, _⟩ => ⟨S1x6400000, .i32⟩
  | .hbm, ⟨11, _⟩ => ⟨S6400000, .i32⟩
  | .hbm, ⟨12, _⟩ => ⟨S1x6400000, .i32⟩
  | .hbm, ⟨13, _⟩ => ⟨S6400000, .i32⟩
  | .hbm, ⟨14, _⟩ => ⟨S200000, .i32⟩
  | .hbm, ⟨15, _⟩ => ⟨S6600000, .i32⟩
  | .hbm, ⟨16, _⟩ => ⟨S6600000, .i32⟩
  | .hbm, ⟨17, _⟩ => ⟨S_, .f32⟩
  | .hbm, ⟨18, _⟩ => ⟨S6600000, .f32⟩
  | .hbm, ⟨19, _⟩ => ⟨S_, .f32⟩
  | .hbm, ⟨20, _⟩ => ⟨S200000, .f32⟩
  | .hbm, ⟨21, _⟩ => ⟨S6600000x1, .i32⟩
  | .hbm, ⟨22, _⟩ => ⟨S200000, .f32⟩
  | .hbm, ⟨23, _⟩ => ⟨S_, .f32⟩
  | .hbm, ⟨24, _⟩ => ⟨S200000, .f32⟩
  | .hbm, ⟨25, _⟩ => ⟨S200000, .i1⟩
  | .hbm, ⟨26, _⟩ => ⟨S200000, .f32⟩
  | .hbm, ⟨27, _⟩ => ⟨S_, .f32⟩
  | .hbm, ⟨28, _⟩ => ⟨S_, .f32⟩
  | .hbm, ⟨29, _⟩ => ⟨S200000, .f32⟩
  | .hbm, ⟨30, _⟩ => ⟨S200000, .f32⟩
  | .hbm, ⟨31, _⟩ => ⟨S_, .i32⟩
  | .hbm, ⟨32, _⟩ => ⟨S6600000, .i32⟩
  | .hbm, ⟨33, _⟩ => ⟨S6600000, .i1⟩
  | .hbm, ⟨34, _⟩ => ⟨S_, .i32⟩
  | .hbm, ⟨35, _⟩ => ⟨S6600000, .i32⟩
  | .hbm, ⟨36, _⟩ => ⟨S6600000, .i32⟩
  | .hbm, ⟨37, _⟩ => ⟨S6600000, .i32⟩
  | .hbm, ⟨38, _⟩ => ⟨S6600000x1, .i32⟩
  | .hbm, ⟨39, _⟩ => ⟨S6600000, .f32⟩
  | .hbm, ⟨40, _⟩ => ⟨S_, .i32⟩
  | .hbm, ⟨41, _⟩ => ⟨S6600000, .i32⟩
  | .hbm, ⟨42, _⟩ => ⟨S6600000, .i1⟩
  | .hbm, ⟨43, _⟩ => ⟨S_, .i32⟩
  | .hbm, ⟨44, _⟩ => ⟨S6600000, .i32⟩
  | .hbm, ⟨45, _⟩ => ⟨S6600000, .i32⟩
  | .hbm, ⟨46, _⟩ => ⟨S6600000, .i32⟩
  | .hbm, ⟨47, _⟩ => ⟨S6600000x1, .i32⟩
  | .hbm, ⟨48, _⟩ => ⟨S6600000, .f32⟩
  | .hbm, ⟨49, _⟩ => ⟨S6600000, .f32⟩
  | .hbm, ⟨50, _⟩ => ⟨S200000x6, .f32⟩
  | .hbm, ⟨51, _⟩ => ⟨S6600000x1, .f32⟩
  | .hbm, ⟨52, _⟩ => ⟨S_, .i32⟩
  | .hbm, ⟨53, _⟩ => ⟨S6600000, .i32⟩
  | .hbm, ⟨54, _⟩ => ⟨S6600000, .i1⟩
  | .hbm, ⟨55, _⟩ => ⟨S_, .i32⟩
  | .hbm, ⟨56, _⟩ => ⟨S6600000, .i32⟩
  | .hbm, ⟨57, _⟩ => ⟨S6600000, .i32⟩
  | .hbm, ⟨58, _⟩ => ⟨S6600000, .i32⟩
  | .hbm, ⟨59, _⟩ => ⟨S6600000x1, .i32⟩
  | .hbm, ⟨60, _⟩ => ⟨S6600000x6, .f32⟩
  | .hbm, ⟨61, _⟩ => ⟨S6600000x6, .f32⟩
  | .hbm, ⟨62, _⟩ => ⟨S6600000x6, .f32⟩
  | .hbm, ⟨63, _⟩ => ⟨S_, .f32⟩
  | .hbm, ⟨64, _⟩ => ⟨S200000x6, .f32⟩
  | .hbm, ⟨65, _⟩ => ⟨S6600000x1, .i32⟩
  | .hbm, ⟨66, _⟩ => ⟨S200000x6, .f32⟩
  | .hbm, ⟨67, _⟩ => ⟨S1x6, .f32⟩
  | .hbm, ⟨68, _⟩ => ⟨S200000x6, .f32⟩
  | .hbm, ⟨69, _⟩ => ⟨S200000x12, .f32⟩
  | .hbm, ⟨70, _⟩ => ⟨S6600000x1, .f32⟩
  | .hbm, ⟨71, _⟩ => ⟨S_, .i32⟩
  | .hbm, ⟨72, _⟩ => ⟨S6600000, .i32⟩
  | .hbm, ⟨73, _⟩ => ⟨S6600000, .i1⟩
  | .hbm, ⟨74, _⟩ => ⟨S_, .i32⟩
  | .hbm, ⟨75, _⟩ => ⟨S6600000, .i32⟩
  | .hbm, ⟨76, _⟩ => ⟨S6600000, .i32⟩
  | .hbm, ⟨77, _⟩ => ⟨S6600000, .i32⟩
  | .hbm, ⟨78, _⟩ => ⟨S6600000x1, .i32⟩
  | .hbm, ⟨79, _⟩ => ⟨S6600000x12, .f32⟩
  | .hbm, ⟨80, _⟩ => ⟨S6600000x12, .f32⟩
  | .hbm, ⟨81, _⟩ => ⟨S6600000x12, .f32⟩
  | .hbm, ⟨82, _⟩ => ⟨S_, .f32⟩
  | .hbm, ⟨83, _⟩ => ⟨S200000x12, .f32⟩
  | .hbm, ⟨84, _⟩ => ⟨S6600000x1, .i32⟩
  | .hbm, ⟨85, _⟩ => ⟨S200000x12, .f32⟩
  | .hbm, ⟨86, _⟩ => ⟨S1x12, .f32⟩
  | .hbm, ⟨87, _⟩ => ⟨S200000x12, .f32⟩
  | .hbm, ⟨88, _⟩ => ⟨S200000x24, .f32⟩
  | .hbm, ⟨89, _⟩ => ⟨S6600000x1, .f32⟩
  | .hbm, ⟨90, _⟩ => ⟨S_, .i32⟩
  | .hbm, ⟨91, _⟩ => ⟨S6600000, .i32⟩
  | .hbm, ⟨92, _⟩ => ⟨S6600000, .i1⟩
  | .hbm, ⟨93, _⟩ => ⟨S_, .i32⟩
  | .hbm, ⟨94, _⟩ => ⟨S6600000, .i32⟩
  | .hbm, ⟨95, _⟩ => ⟨S6600000, .i32⟩
  | .hbm, ⟨96, _⟩ => ⟨S6600000, .i32⟩
  | .hbm, ⟨97, _⟩ => ⟨S6600000x1, .i32⟩
  | .hbm, ⟨98, _⟩ => ⟨S6600000x24, .f32⟩
  | .hbm, ⟨99, _⟩ => ⟨S6600000x24, .f32⟩
  | .hbm, ⟨100, _⟩ => ⟨S6600000x24, .f32⟩
  | .hbm, ⟨101, _⟩ => ⟨S_, .f32⟩
  | .hbm, ⟨102, _⟩ => ⟨S200000x24, .f32⟩
  | .hbm, ⟨103, _⟩ => ⟨S6600000x1, .i32⟩
  | .hbm, ⟨104, _⟩ => ⟨S200000x24, .f32⟩
  | .hbm, ⟨105, _⟩ => ⟨S1x24, .f32⟩
  | .hbm, ⟨106, _⟩ => ⟨S200000x24, .f32⟩
  | .hbm, ⟨107, _⟩ => ⟨S1x13, .f32⟩
  | .hbm, ⟨108, _⟩ => ⟨S200000x13, .f32⟩
  | .local _ .vmem, ⟨0, _⟩ => ⟨S25000x3, .f32⟩
  | .local _ .vmem, ⟨1, _⟩ => ⟨S25000x3, .f32⟩
  | .local _ .vmem, ⟨2, _⟩ => ⟨S3x6, .f32⟩
  | .local _ .vmem, ⟨3, _⟩ => ⟨S25000x6, .f32⟩
  | .local _ .vmem, ⟨4, _⟩ => ⟨S25000x6, .f32⟩
  | .local _ .vmem, ⟨5, _⟩ => ⟨S25000x6, .f32⟩
  | .local _ .vmem, ⟨6, _⟩ => ⟨S25000x6, .f32⟩
  | .local _ .vmem, ⟨7, _⟩ => ⟨S1x6, .f32⟩
  | .local _ .vmem, ⟨8, _⟩ => ⟨S25000x6, .f32⟩
  | .local _ .vmem, ⟨9, _⟩ => ⟨S25000x6, .f32⟩
  | .local _ .vmem, ⟨10, _⟩ => ⟨S25000x6, .f32⟩
  | .local _ .vmem, ⟨11, _⟩ => ⟨S25000x6, .f32⟩
  | .local _ .vmem, ⟨12, _⟩ => ⟨S6x12, .f32⟩
  | .local _ .vmem, ⟨13, _⟩ => ⟨S25000x12, .f32⟩
  | .local _ .vmem, ⟨14, _⟩ => ⟨S25000x12, .f32⟩
  | .local _ .vmem, ⟨15, _⟩ => ⟨S25000x12, .f32⟩
  | .local _ .vmem, ⟨16, _⟩ => ⟨S25000x12, .f32⟩
  | .local _ .vmem, ⟨17, _⟩ => ⟨S1x12, .f32⟩
  | .local _ .vmem, ⟨18, _⟩ => ⟨S25000x12, .f32⟩
  | .local _ .vmem, ⟨19, _⟩ => ⟨S25000x12, .f32⟩
  | .local _ .vmem, ⟨20, _⟩ => ⟨S25000x12, .f32⟩
  | .local _ .vmem, ⟨21, _⟩ => ⟨S25000x12, .f32⟩
  | .local _ .vmem, ⟨22, _⟩ => ⟨S12x24, .f32⟩
  | .local _ .vmem, ⟨23, _⟩ => ⟨S25000x24, .f32⟩
  | .local _ .vmem, ⟨24, _⟩ => ⟨S25000x24, .f32⟩
  | .local _ .vmem, ⟨25, _⟩ => ⟨S25000x24, .f32⟩
  | .local _ .vmem, ⟨26, _⟩ => ⟨S25000x24, .f32⟩
  | .local _ .vmem, ⟨27, _⟩ => ⟨S1x24, .f32⟩
  | .local _ .vmem, ⟨28, _⟩ => ⟨S25000x24, .f32⟩
  | .local _ .vmem, ⟨29, _⟩ => ⟨S25000x24, .f32⟩
  | .local _ .vmem, ⟨30, _⟩ => ⟨S25000x24, .f32⟩
  | .local _ .vmem, ⟨31, _⟩ => ⟨S25000x24, .f32⟩
  | .local _ .vmem, ⟨32, _⟩ => ⟨S24x13, .f32⟩
  | .local _ .vmem, ⟨33, _⟩ => ⟨S1x13, .f32⟩
  | .local _ .vmem, ⟨34, _⟩ => ⟨S25000x13, .f32⟩
  | .local _ .vmem, ⟨35, _⟩ => ⟨S25000x13, .f32⟩
  | _, _ => ⟨S200000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_9 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_12 : Ref sig .tc := ⟨.hbm, 90, rfl⟩
abbrev main_v64 : Ref sig .tc := ⟨.hbm, 91, rfl⟩
abbrev main_v65 : Ref sig .tc := ⟨.hbm, 92, rfl⟩
abbrev main_c_13 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_14 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg3_0 : Ref sig .tc := ⟨.vmem, 34, rfl⟩
abbrev cc6_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem3_0 : DmaSem sig := 34
abbrev cc6_sem3_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S25000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S25000x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S25000x6 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x6 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S25000x6 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S25000x6 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S6x12 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S25000x12 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S25000x12 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x12 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S25000x12 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S25000x12 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S12x24 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S25000x24 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S25000x24 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x24 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S25000x24 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S25000x24 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S24x13 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x13 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S25000x13 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  inb_S25000x3_S25000x3_0_0 : ∀ a, (![0, 0] : Fin 2 → Nat) a + S25000x3.size a ≤ S25000x3.size a
  h_S25000x3 : 0 < S25000x3.numel
  inb_S3x6_S3x6_0_0 : ∀ a, (![0, 0] : Fin 2 → Nat) a + S3x6.size a ≤ S3x6.size a
  h_S3x6 : 0 < S3x6.numel
  inb_S25000x6_S25000x6_0_0 : ∀ a, (![0, 0] : Fin 2 → Nat) a + S25000x6.size a ≤ S25000x6.size a
  h_S25000x6 : 0 < S25000x6.numel
  bcast_S6600000x1_S6600000x6_0_1 : S6600000x1.BroadcastsInDim S6600000x6 (![0, 1] : Fin 2 → Fin S6600000x6.rank)
  bcast_S_S200000x6 : S_.BroadcastsInDim S200000x6 (![] : Fin 0 → Fin S200000x6.rank)
  shapeCasts_S6_S1x6 : S6.ShapeCasts S1x6
  shapeCasts_S25000x6_S25000x6 : S25000x6.ShapeCasts S25000x6
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S25000x6 : S1x6.Broadcasts S25000x6
  inb_S6x12_S6x12_0_0 : ∀ a, (![0, 0] : Fin 2 → Nat) a + S6x12.size a ≤ S6x12.size a
  h_S6x12 : 0 < S6x12.numel
  inb_S25000x12_S25000x12_0_0 : ∀ a, (![0, 0] : Fin 2 → Nat) a + S25000x12.size a ≤ S25000x12.size a
  h_S25000x12 : 0 < S25000x12.numel
  bcast_S6600000x1_S6600000x12_0_1 : S6600000x1.BroadcastsInDim S6600000x12 (![0, 1] : Fin 2 → Fin S6600000x12.rank)
  bcast_S_S200000x12 : S_.BroadcastsInDim S200000x12 (![] : Fin 0 → Fin S200000x12.rank)
  shapeCasts_S12_S1x12 : S12.ShapeCasts S1x12
  shapeCasts_S25000x12_S25000x12 : S25000x12.ShapeCasts S25000x12
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S25000x12 : S1x12.Broadcasts S25000x12
  reduces_S25000x12_S25000 : S25000x12.Reduces [1] S25000
  shapeCasts_S25000_S25000x1 : S25000.ShapeCasts S25000x1
  broadcasts_S25000x1_S25000x12 : S25000x1.Broadcasts S25000x12
  inb_S12x24_S12x24_0_0 : ∀ a, (![0, 0] : Fin 2 → Nat) a + S12x24.size a ≤ S12x24.size a
  h_S12x24 : 0 < S12x24.numel
  inb_S25000x24_S25000x24_0_0 : ∀ a, (![0, 0] : Fin 2 → Nat) a + S25000x24.size a ≤ S25000x24.size a
  h_S25000x24 : 0 < S25000x24.numel
  bcast_S6600000x1_S6600000x24_0_1 : S6600000x1.BroadcastsInDim S6600000x24 (![0, 1] : Fin 2 → Fin S6600000x24.rank)
  bcast_S_S200000x24 : S_.BroadcastsInDim S200000x24 (![] : Fin 0 → Fin S200000x24.rank)
  shapeCasts_S24_S1x24 : S24.ShapeCasts S1x24
  shapeCasts_S25000x24_S25000x24 : S25000x24.ShapeCasts S25000x24
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S25000x24 : S1x24.Broadcasts S25000x24
  reduces_S25000x24_S25000 : S25000x24.Reduces [1] S25000
  broadcasts_S25000x1_S25000x24 : S25000x1.Broadcasts S25000x24
  shapeCasts_S13_S1x13 : S13.ShapeCasts S1x13
  inb_S24x13_S24x13_0_0 : ∀ a, (![0, 0] : Fin 2 → Nat) a + S24x13.size a ≤ S24x13.size a
  h_S24x13 : 0 < S24x13.numel
  inb_S1x13_S1x13_0_0 : ∀ a, (![0, 0] : Fin 2 → Nat) a + S1x13.size a ≤ S1x13.size a
  h_S1x13 : 0 < S1x13.numel
  shapeCasts_S1x13_S1x13 : S1x13.ShapeCasts S1x13
  broadcasts_S1x13_S25000x13 : S1x13.Broadcasts S25000x13
  reduces_S25000x13_S25000 : S25000x13.Reduces [1] S25000
  broadcasts_S25000x1_S25000x13 : S25000x1.Broadcasts S25000x13
  inb_S25000x13_S25000x13_0_0 : ∀ a, (![0, 0] : Fin 2 → Nat) a + S25000x13.size a ≤ S25000x13.size a
  h_S25000x13 : 0 < S25000x13.numel
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S25000x3_S3x6_S25000x6_1_0_0_1_n_n_wf : DotDims.WF S25000x3 S3x6 S25000x6 [1] [0] [0] [1] [] []
  gather_S200000x6_S6600000x1_S6600000x6_1_0_n_n_0_1_16_wf : GatherDims.WF S200000x6 S6600000x1 S6600000x6 [1] [0] [] [0] [] 1 ![1, 6]
  scatter_S200000x6_S6600000x1_S6600000x6_1_0_0_1_wf : ScatterDims.WF S200000x6 S6600000x1 S6600000x6 [1] [0] [0] 1
  dot_S25000x6_S6x12_S25000x12_1_0_0_1_n_n_wf : DotDims.WF S25000x6 S6x12 S25000x12 [1] [0] [0] [1] [] []
  gather_S200000x12_S6600000x1_S6600000x12_1_0_n_n_0_1_112_wf : GatherDims.WF S200000x12 S6600000x1 S6600000x12 [1] [0] [] [0] [] 1 ![1, 12]
  scatter_S200000x12_S6600000x1_S6600000x12_1_0_0_1_wf : ScatterDims.WF S200000x12 S6600000x1 S6600000x12 [1] [0] [0] 1
  dot_S25000x12_S12x24_S25000x24_1_0_0_1_n_n_wf : DotDims.WF S25000x12 S12x24 S25000x24 [1] [0] [0] [1] [] []
  gather_S200000x24_S6600000x1_S6600000x24_1_0_n_n_0_1_124_wf : GatherDims.WF S200000x24 S6600000x1 S6600000x24 [1] [0] [] [0] [] 1 ![1, 24]
  scatter_S200000x24_S6600000x1_S6600000x24_1_0_0_1_wf : ScatterDims.WF S200000x24 S6600000x1 S6600000x24 [1] [0] [0] 1
  dot_S25000x24_S24x13_S25000x13_1_0_0_1_n_n_wf : DotDims.WF S25000x24 S24x13 S25000x13 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S25000x3.size a ≤ S200000x3.size a
  hwx0_0 : ∀ i : grid0.Coords, EltTy.bits .f32 = 32 ∨ (Rect.block (s := S200000x3) S25000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x6.size a ≤ S3x6.size a
  hwx0_1 : ∀ i : grid0.Coords, EltTy.bits .f32 = 32 ∨ (Rect.block (s := S3x6) S3x6.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S25000x6.size a ≤ S200000x6.size a
  hwx0_2 : ∀ i : grid0.Coords, EltTy.bits .f32 = 32 ∨ (Rect.block (s := S200000x6) S25000x6.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S25000x6.size a ≤ S200000x6.size a
  hwx1_0 : ∀ i : grid1.Coords, EltTy.bits .f32 = 32 ∨ (Rect.block (s := S200000x6) S25000x6.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x6.size a ≤ S1x6.size a
  hwx1_1 : ∀ i : grid1.Coords, EltTy.bits .f32 = 32 ∨ (Rect.block (s := S1x6) S1x6.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S25000x6.size a ≤ S200000x6.size a
  hwx1_2 : ∀ i : grid1.Coords, EltTy.bits .f32 = 32 ∨ (Rect.block (s := S200000x6) S25000x6.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S25000x6.size a ≤ S200000x6.size a
  hwx2_0 : ∀ i : grid2.Coords, EltTy.bits .f32 = 32 ∨ (Rect.block (s := S200000x6) S25000x6.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S6x12.size a ≤ S6x12.size a
  hwx2_1 : ∀ i : grid2.Coords, EltTy.bits .f32 = 32 ∨ (Rect.block (s := S6x12) S6x12.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S25000x12.size a ≤ S200000x12.size a
  hwx2_2 : ∀ i : grid2.Coords, EltTy.bits .f32 = 32 ∨ (Rect.block (s := S200000x12) S25000x12.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S25000x12.size a ≤ S200000x12.size a
  hwx3_0 : ∀ i : grid3.Coords, EltTy.bits .f32 = 32 ∨ (Rect.block (s := S200000x12) S25000x12.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x12.size a ≤ S1x12.size a
  hwx3_1 : ∀ i : grid3.Coords, EltTy.bits .f32 = 32 ∨ (Rect.block (s := S1x12) S1x12.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S25000x12.size a ≤ S200000x12.size a
  hwx3_2 : ∀ i : grid3.Coords, EltTy.bits .f32 = 32 ∨ (Rect.block (s := S200000x12) S25000x12.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S25000x12.size a ≤ S200000x12.size a
  hwx4_0 : ∀ i : grid4.Coords, EltTy.bits .f32 = 32 ∨ (Rect.block (s := S200000x12) S25000x12.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S12x24.size a ≤ S12x24.size a
  hwx4_1 : ∀ i : grid4.Coords, EltTy.bits .f32 = 32 ∨ (Rect.block (s := S12x24) S12x24.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S25000x24.size a ≤ S200000x24.size a
  hwx4_2 : ∀ i : grid4.Coords, EltTy.bits .f32 = 32 ∨ (Rect.block (s := S200000x24) S25000x24.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S25000x24.size a ≤ S200000x24.size a
  hwx5_0 : ∀ i : grid5.Coords, EltTy.bits .f32 = 32 ∨ (Rect.block (s := S200000x24) S25000x24.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x24.size a ≤ S1x24.size a
  hwx5_1 : ∀ i : grid5.Coords, EltTy.bits .f32 = 32 ∨ (Rect.block (s := S1x24) S1x24.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S25000x24.size a ≤ S200000x24.size a
  hwx5_2 : ∀ i : grid5.Coords, EltTy.bits .f32 = 32 ∨ (Rect.block (s := S200000x24) S25000x24.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S25000x24.size a ≤ S200000x24.size a
  hwx6_0 : ∀ i : grid6.Coords, EltTy.bits .f32 = 32 ∨ (Rect.block (s := S200000x24) S25000x24.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S24x13.size a ≤ S24x13.size a
  hwx6_1 : ∀ i : grid6.Coords, EltTy.bits .f32 = 32 ∨ (Rect.block (s := S24x13) S24x13.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x13.size a ≤ S1x13.size a
  hwx6_2 : ∀ i : grid6.Coords, EltTy.bits .f32 = 32 ∨ (Rect.block (s := S1x13) S1x13.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S25000x13.size a ≤ S200000x13.size a
  hwx6_3 : ∀ i : grid6.Coords, EltTy.bits .f32 = 32 ∨ (Rect.block (s := S200000x13) S25000x13.size (cc6_transform_3 i) (hinb6_3 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S25000x3_S3x6_S25000x6_1_0_0_1_n_n : DotDims S25000x3 S3x6 S25000x6 where
  lhsContracting := [1]
  rhsContracting := [0]
  lhsNonContracting := [0]
  rhsNonContracting := [1]
  lhsBatch := []
  rhsBatch := []
  wf := dot_S25000x3_S3x6_S25000x6_1_0_0_1_n_n_wf
def gather_S200000x6_S6600000x1_S6600000x6_1_0_n_n_0_1_16 : GatherDims S200000x6 S6600000x1 S6600000x6 where
  offsetDims := [1]
  collapsedSliceDims := [0]
  operandBatchingDims := []
  startIndicesBatchingDims := []
  startIndexMap := [0]
  indexVectorDim := 1
  sliceSizes := ![1, 6]
  wf := gather_S200000x6_S6600000x1_S6600000x6_1_0_n_n_0_1_16_wf
def scatter_S200000x6_S6600000x1_S6600000x6_1_0_0_1 : ScatterDims S200000x6 S6600000x1 S6600000x6 where
  updateWindowDims := [1]
  insertedWindowDims := [0]
  scatterDimsToOperandDims := [0]
  indexVectorDim := 1
  wf := scatter_S200000x6_S6600000x1_S6600000x6_1_0_0_1_wf
def dot_S25000x6_S6x12_S25000x12_1_0_0_1_n_n : DotDims S25000x6 S6x12 S25000x12 where
  lhsContracting := [1]
  rhsContracting := [0]
  lhsNonContracting := [0]
  rhsNonContracting := [1]
  lhsBatch := []
  rhsBatch := []
  wf := dot_S25000x6_S6x12_S25000x12_1_0_0_1_n_n_wf
def gather_S200000x12_S6600000x1_S6600000x12_1_0_n_n_0_1_112 : GatherDims S200000x12 S6600000x1 S6600000x12 where
  offsetDims := [1]
  collapsedSliceDims := [0]
  operandBatchingDims := []
  startIndicesBatchingDims := []
  startIndexMap := [0]
  indexVectorDim := 1
  sliceSizes := ![1, 12]
  wf := gather_S200000x12_S6600000x1_S6600000x12_1_0_n_n_0_1_112_wf
def scatter_S200000x12_S6600000x1_S6600000x12_1_0_0_1 : ScatterDims S200000x12 S6600000x1 S6600000x12 where
  updateWindowDims := [1]
  insertedWindowDims := [0]
  scatterDimsToOperandDims := [0]
  indexVectorDim := 1
  wf := scatter_S200000x12_S6600000x1_S6600000x12_1_0_0_1_wf
def dot_S25000x12_S12x24_S25000x24_1_0_0_1_n_n : DotDims S25000x12 S12x24 S25000x24 where
  lhsContracting := [1]
  rhsContracting := [0]
  lhsNonContracting := [0]
  rhsNonContracting := [1]
  lhsBatch := []
  rhsBatch := []
  wf := dot_S25000x12_S12x24_S25000x24_1_0_0_1_n_n_wf
def gather_S200000x24_S6600000x1_S6600000x24_1_0_n_n_0_1_124 : GatherDims S200000x24 S6600000x1 S6600000x24 where
  offsetDims := [1]
  collapsedSliceDims := [0]
  operandBatchingDims := []
  startIndicesBatchingDims := []
  startIndexMap := [0]
  indexVectorDim := 1
  sliceSizes := ![1, 24]
  wf := gather_S200000x24_S6600000x1_S6600000x24_1_0_n_n_0_1_124_wf
def scatter_S200000x24_S6600000x1_S6600000x24_1_0_0_1 : ScatterDims S200000x24 S6600000x1 S6600000x24 where
  updateWindowDims := [1]
  insertedWindowDims := [0]
  scatterDimsToOperandDims := [0]
  indexVectorDim := 1
  wf := scatter_S200000x24_S6600000x1_S6600000x24_1_0_0_1_wf
def dot_S25000x24_S24x13_S25000x13_1_0_0_1_n_n : DotDims S25000x24 S24x13 S25000x13 where
  lhsContracting := [1]
  rhsContracting := [0]
  lhsNonContracting := [0]
  rhsNonContracting := [1]
  lhsBatch := []
  rhsBatch := []
  wf := dot_S25000x24_S24x13_S25000x13_1_0_0_1_n_n_wf

abbrev win0_0 : Pipeline.Window sig grid0 :=
  Pipeline.Window.ofSpec (Memref.whole main_arg0) S25000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x6.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S25000x6.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S25000x6.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x6.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S25000x6.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S25000x6.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S6x12.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S25000x12.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S25000x12.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x12.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S25000x12.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S25000x12.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S12x24.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S25000x24.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S25000x24.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x24.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S25000x24.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v77) S25000x24.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S24x13.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v78) S1x13.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v79) S25000x13.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S200000x3 : Shape := ⟨2, ![200000, 3]⟩
abbrev S2x6400000 : Shape := ⟨2, ![2, 6400000]⟩
abbrev S3x6 : Shape := ⟨2, ![3, 6]⟩
abbrev S6 : Shape := ⟨1, ![6]⟩
abbrev S6x12 : Shape := ⟨2, ![6, 12]⟩
abbrev S12 : Shape := ⟨1, ![12]⟩
abbrev S12x24 : Shape := ⟨2, ![12, 24]⟩
abbrev S24 : Shape := ⟨1, ![24]⟩
abbrev S24x13 : Shape := ⟨2, ![24, 13]⟩
abbrev S13 : Shape := ⟨1, ![13]⟩
abbrev S1x6400000 : Shape := ⟨2, ![1, 6400000]⟩
abbrev S6400000 : Shape := ⟨1, ![6400000]⟩
abbrev S200000 : Shape := ⟨1, ![200000]⟩
abbrev S6600000 : Shape := ⟨1, ![6600000]⟩
abbrev S_ : Shape := ⟨0, ![]⟩
abbrev S6600000x1 : Shape := ⟨2, ![6600000, 1]⟩
abbrev S200000x6 : Shape := ⟨2, ![200000, 6]⟩
abbrev S6600000x6 : Shape := ⟨2, ![6600000, 6]⟩
abbrev S1x6 : Shape := ⟨2, ![1, 6]⟩
abbrev S200000x12 : Shape := ⟨2, ![200000, 12]⟩
abbrev S6600000x12 : Shape := ⟨2, ![6600000, 12]⟩
abbrev S1x12 : Shape := ⟨2, ![1, 12]⟩
abbrev S200000x1 : Shape := ⟨2, ![200000, 1]⟩
abbrev S200000x24 : Shape := ⟨2, ![200000, 24]⟩
abbrev S6600000x24 : Shape := ⟨2, ![6600000, 24]⟩
abbrev S1x24 : Shape := ⟨2, ![1, 24]⟩
abbrev S200000x13 : Shape := ⟨2, ![200000, 13]⟩
abbrev S1x13 : Shape := ⟨2, ![1, 13]⟩

abbrev nBuf : Space → Nat
  | .hbm => 218
  | .vmem => 0
  | .smem => 0
  | _ => 0

abbrev hbmTy0_0 (i : Nat) : BufTy := match i % 128 with
  | 0 => ⟨S200000x3, .f32⟩
  | 1 => ⟨S2x6400000, .i32⟩
  | 2 => ⟨S3x6, .f32⟩
  | 3 => ⟨S6, .f32⟩
  | 4 => ⟨S6x12, .f32⟩
  | 5 => ⟨S12, .f32⟩
  | 6 => ⟨S12x24, .f32⟩
  | 7 => ⟨S24, .f32⟩
  | 8 => ⟨S24x13, .f32⟩
  | 9 => ⟨S13, .f32⟩
  | 10 => ⟨S1x6400000, .i32⟩
  | 11 => ⟨S6400000, .i32⟩
  | 12 => ⟨S1x6400000, .i32⟩
  | 13 => ⟨S6400000, .i32⟩
  | 14 => ⟨S200000, .i32⟩
  | 15 => ⟨S6600000, .i32⟩
  | 16 => ⟨S6600000, .i32⟩
  | 17 => ⟨S_, .f32⟩
  | 18 => ⟨S6600000, .f32⟩
  | 19 => ⟨S_, .f32⟩
  | 20 => ⟨S200000, .f32⟩
  | 21 => ⟨S6600000x1, .i32⟩
  | 22 => ⟨S200000, .f32⟩
  | 23 => ⟨S_, .f32⟩
  | 24 => ⟨S200000, .f32⟩
  | 25 => ⟨S200000, .i1⟩
  | 26 => ⟨S200000, .f32⟩
  | 27 => ⟨S_, .f32⟩
  | 28 => ⟨S_, .f32⟩
  | 29 => ⟨S200000, .f32⟩
  | 30 => ⟨S200000, .f32⟩
  | 31 => ⟨S_, .i32⟩
  | 32 => ⟨S6600000, .i32⟩
  | 33 => ⟨S6600000, .i1⟩
  | 34 => ⟨S_, .i32⟩
  | 35 => ⟨S6600000, .i32⟩
  | 36 => ⟨S6600000, .i32⟩
  | 37 => ⟨S6600000, .i32⟩
  | 38 => ⟨S6600000x1, .i32⟩
  | 39 => ⟨S6600000, .f32⟩
  | 40 => ⟨S_, .i32⟩
  | 41 => ⟨S6600000, .i32⟩
  | 42 => ⟨S6600000, .i1⟩
  | 43 => ⟨S_, .i32⟩
  | 44 => ⟨S6600000, .i32⟩
  | 45 => ⟨S6600000, .i32⟩
  | 46 => ⟨S6600000, .i32⟩
  | 47 => ⟨S6600000x1, .i32⟩
  | 48 => ⟨S6600000, .f32⟩
  | 49 => ⟨S6600000, .f32⟩
  | 50 => ⟨S200000x6, .f32⟩
  | 51 => ⟨S6600000x1, .f32⟩
  | 52 => ⟨S_, .i32⟩
  | 53 => ⟨S6600000, .i32⟩
  | 54 => ⟨S6600000, .i1⟩
  | 55 => ⟨S_, .i32⟩
  | 56 => ⟨S6600000, .i32⟩
  | 57 => ⟨S6600000, .i32⟩
  | 58 => ⟨S6600000, .i32⟩
  | 59 => ⟨S6600000x1, .i32⟩
  | 60 => ⟨S6600000x6, .f32⟩
  | 61 => ⟨S6600000x6, .f32⟩
  | 62 => ⟨S6600000x6, .f32⟩
  | 63 => ⟨S_, .f32⟩
  | 64 => ⟨S200000x6, .f32⟩
  | 65 => ⟨S6600000x1, .i32⟩
  | 66 => ⟨S200000x6, .f32⟩
  | 67 => ⟨S1x6, .f32⟩
  | 68 => ⟨S200000x6, .f32⟩
  | 69 => ⟨S200000x6, .f32⟩
  | 70 => ⟨S200000x6, .f32⟩
  | 71 => ⟨S200000, .i32⟩
  | 72 => ⟨S6600000, .i32⟩
  | 73 => ⟨S6600000, .i32⟩
  | 74 => ⟨S_, .f32⟩
  | 75 => ⟨S6600000, .f32⟩
  | 76 => ⟨S_, .f32⟩
  | 77 => ⟨S200000, .f32⟩
  | 78 => ⟨S6600000x1, .i32⟩
  | 79 => ⟨S200000, .f32⟩
  | 80 => ⟨S_, .f32⟩
  | 81 => ⟨S200000, .f32⟩
  | 82 => ⟨S200000, .i1⟩
  | 83 => ⟨S200000, .f32⟩
  | 84 => ⟨S_, .f32⟩
  | 85 => ⟨S_, .f32⟩
  | 86 => ⟨S200000, .f32⟩
  | 87 => ⟨S200000, .f32⟩
  | 88 => ⟨S_, .i32⟩
  | 89 => ⟨S6600000, .i32⟩
  | 90 => ⟨S6600000, .i1⟩
  | 91 => ⟨S_, .i32⟩
  | 92 => ⟨S6600000, .i32⟩
  | 93 => ⟨S6600000, .i32⟩
  | 94 => ⟨S6600000, .i32⟩
  | 95 => ⟨S6600000x1, .i32⟩
  | 96 => ⟨S6600000, .f32⟩
  | 97 => ⟨S_, .i32⟩
  | 98 => ⟨S6600000, .i32⟩
  | 99 => ⟨S6600000, .i1⟩
  | 100 => ⟨S_, .i32⟩
  | 101 => ⟨S6600000, .i32⟩
  | 102 => ⟨S6600000, .i32⟩
  | 103 => ⟨S6600000, .i32⟩
  | 104 => ⟨S6600000x1, .i32⟩
  | 105 => ⟨S6600000, .f32⟩
  | 106 => ⟨S6600000, .f32⟩
  | 107 => ⟨S200000x12, .f32⟩
  | 108 => ⟨S6600000x1, .f32⟩
  | 109 => ⟨S_, .i32⟩
  | 110 => ⟨S6600000, .i32⟩
  | 111 => ⟨S6600000, .i1⟩
  | 112 => ⟨S_, .i32⟩
  | 113 => ⟨S6600000, .i32⟩
  | 114 => ⟨S6600000, .i32⟩
  | 115 => ⟨S6600000, .i32⟩
  | 116 => ⟨S6600000x1, .i32⟩
  | 117 => ⟨S6600000x12, .f32⟩
  | 118 => ⟨S6600000x12, .f32⟩
  | 119 => ⟨S6600000x12, .f32⟩
  | 120 => ⟨S_, .f32⟩
  | 121 => ⟨S200000x12, .f32⟩
  | 122 => ⟨S6600000x1, .i32⟩
  | 123 => ⟨S200000x12, .f32⟩
  | 124 => ⟨S1x12, .f32⟩
  | 125 => ⟨S200000x12, .f32⟩
  | 126 => ⟨S200000x12, .f32⟩
  | 127 => ⟨S200000x12, .f32⟩
  | _ => ⟨S200000x3, .f32⟩

abbrev hbmTy0_1 (i : Nat) : BufTy := match i % 128 with
  | 0 => ⟨S_, .f32⟩
  | 1 => ⟨S200000, .f32⟩
  | 2 => ⟨S200000x1, .f32⟩
  | 3 => ⟨S200000x1, .f32⟩
  | 4 => ⟨S_, .f32⟩
  | 5 => ⟨S200000x1, .f32⟩
  | 6 => ⟨S200000x1, .f32⟩
  | 7 => ⟨S200000x12, .f32⟩
  | 8 => ⟨S200000x12, .f32⟩
  | 9 => ⟨S200000x12, .f32⟩
  | 10 => ⟨S200000, .i32⟩
  | 11 => ⟨S6600000, .i32⟩
  | 12 => ⟨S6600000, .i32⟩
  | 13 => ⟨S_, .f32⟩
  | 14 => ⟨S6600000, .f32⟩
  | 15 => ⟨S_, .f32⟩
  | 16 => ⟨S200000, .f32⟩
  | 17 => ⟨S6600000x1, .i32⟩
  | 18 => ⟨S200000, .f32⟩
  | 19 => ⟨S_, .f32⟩
  | 20 => ⟨S200000, .f32⟩
  | 21 => ⟨S200000, .i1⟩
  | 22 => ⟨S200000, .f32⟩
  | 23 => ⟨S_, .f32⟩
  | 24 => ⟨S_, .f32⟩
  | 25 => ⟨S200000, .f32⟩
  | 26 => ⟨S200000, .f32⟩
  | 27 => ⟨S_, .i32⟩
  | 28 => ⟨S6600000, .i32⟩
  | 29 => ⟨S6600000, .i1⟩
  | 30 => ⟨S_, .i32⟩
  | 31 => ⟨S6600000, .i32⟩
  | 32 => ⟨S6600000, .i32⟩
  | 33 => ⟨S6600000, .i32⟩
  | 34 => ⟨S6600000x1, .i32⟩
  | 35 => ⟨S6600000, .f32⟩
  | 36 => ⟨S_, .i32⟩
  | 37 => ⟨S6600000, .i32⟩
  | 38 => ⟨S6600000, .i1⟩
  | 39 => ⟨S_, .i32⟩
  | 40 => ⟨S6600000, .i32⟩
  | 41 => ⟨S6600000, .i32⟩
  | 42 => ⟨S6600000, .i32⟩
  | 43 => ⟨S6600000x1, .i32⟩
  | 44 => ⟨S6600000, .f32⟩
  | 45 => ⟨S6600000, .f32⟩
  | 46 => ⟨S200000x24, .f32⟩
  | 47 => ⟨S6600000x1, .f32⟩
  | 48 => ⟨S_, .i32⟩
  | 49 => ⟨S6600000, .i32⟩
  | 50 => ⟨S6600000, .i1⟩
  | 51 => ⟨S_, .i32⟩
  | 52 => ⟨S6600000, .i32⟩
  | 53 => ⟨S6600000, .i32⟩
  | 54 => ⟨S6600000, .i32⟩
  | 55 => ⟨S6600000x1, .i32⟩
  | 56 => ⟨S6600000x24, .f32⟩
  | 57 => ⟨S6600000x24, .f32⟩
  | 58 => ⟨S6600000x24, .f32⟩
  | 59 => ⟨S_, .f32⟩
  | 60 => ⟨S200000x24, .f32⟩
  | 61 => ⟨S6600000x1, .i32⟩
  | 62 => ⟨S200000x24, .f32⟩
  | 63 => ⟨S1x24, .f32⟩
  | 64 => ⟨S200000x24, .f32⟩
  | 65 => ⟨S200000x24, .f32⟩
  | 66 => ⟨S200000x24, .f32⟩
  | 67 => ⟨S_, .f32⟩
  | 68 => ⟨S200000, .f32⟩
  | 69 => ⟨S200000x1, .f32⟩
  | 70 => ⟨S200000x1, .f32⟩
  | 71 => ⟨S_, .f32⟩
  | 72 => ⟨S200000x1, .f32⟩
  | 73 => ⟨S200000x1, .f32⟩
  | 74 => ⟨S200000x24, .f32⟩
  | 75 => ⟨S200000x24, .f32⟩
  | 76 => ⟨S200000x13, .f32⟩
  | 77 => ⟨S1x13, .f32⟩
  | 78 => ⟨S200000x13, .f32⟩
  | 79 => ⟨S200000x13, .f32⟩
  | 80 => ⟨S200000x13, .f32⟩
  | 81 => ⟨S_, .f32⟩
  | 82 => ⟨S200000, .f32⟩
  | 83 => ⟨S200000x1, .f32⟩
  | 84 => ⟨S200000x1, .f32⟩
  | 85 => ⟨S_, .f32⟩
  | 86 => ⟨S200000x1, .f32⟩
  | 87 => ⟨S200000x1, .f32⟩
  | 88 => ⟨S200000x13, .f32⟩
  | 89 => ⟨S200000x13, .f32⟩
  | _ => ⟨S200000x3, .f32⟩

abbrev hbmTy (i : Nat) : BufTy := match i / 128 with
  | 0 => hbmTy0_0 i
  | 1 => hbmTy0_1 i
  | _ => ⟨S200000x3, .f32⟩

abbrev bufTy : (tb : Table) → Fin (tcTables nBuf tb) → BufTy
  | .hbm, ⟨i, _⟩ => hbmTy i
  | _, _ => ⟨S200000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_call1_v0 : Ref sig .tc := ⟨.hbm, 85, rfl⟩
abbrev main_call1_v1 : Ref sig .tc := ⟨.hbm, 86, rfl⟩
abbrev main_v58 : Ref sig .tc := ⟨.hbm, 87, rfl⟩
abbrev main_c_13 : Ref sig .tc := ⟨.hbm, 88, rfl⟩
abbrev main_v59 : Ref sig .tc := ⟨.hbm, 89, rfl⟩
abbrev main_v60 : Ref sig .tc := ⟨.hbm, 90, rfl⟩
abbrev main_c_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_17 : Ref sig .tc := ⟨.hbm, 109, rfl⟩
abbrev main_v76 : Ref sig .tc := ⟨.hbm, 110, rfl⟩
abbrev main_v77 : Ref sig .tc := ⟨.hbm, 111, rfl⟩
abbrev main_c_18 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call2_v0 : Ref sig .tc := ⟨.hbm, 127, rfl⟩
abbrev main_call2_cst : Ref sig .tc := ⟨.hbm, 128, rfl⟩
abbrev main_call2_v1 : Ref sig .tc := ⟨.hbm, 129, rfl⟩
abbrev main_call2_v2 : Ref sig .tc := ⟨.hbm, 130, rfl⟩
abbrev main_v91 : Ref sig .tc := ⟨.hbm, 131, rfl⟩
abbrev main_cst_20 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_21 : Ref sig .tc := ⟨.hbm, 141, rfl⟩
abbrev main_v100 : Ref sig .tc := ⟨.hbm, 142, rfl⟩
abbrev main_cst_22 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_23 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_24 : Ref sig .tc := ⟨.hbm, 151, rfl⟩
abbrev main_call3_v0 : Ref sig .tc := ⟨.hbm, 152, rfl⟩
abbrev main_call3_v1 : Ref sig .tc := ⟨.hbm, 153, rfl⟩
abbrev main_v107 : Ref sig .tc := ⟨.hbm, 154, rfl⟩
abbrev main_c_25 : Ref sig .tc := ⟨.hbm, 155, rfl⟩
abbrev main_v108 : Ref sig .tc := ⟨.hbm, 156, rfl⟩
abbrev main_v109 : Ref sig .tc := ⟨.hbm, 157, rfl⟩
abbrev main_c_26 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_c_27 : Ref sig .tc := ⟨.hbm, 164, rfl⟩
abbrev main_v115 : Ref sig .tc := ⟨.hbm, 165, rfl⟩
abbrev main_v116 : Ref sig .tc := ⟨.hbm, 166, rfl⟩
abbrev main_c_28 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_c_29 : Ref sig .tc := ⟨.hbm, 176, rfl⟩
abbrev main_v125 : Ref sig .tc := ⟨.hbm, 177, rfl⟩
abbrev main_v126 : Ref sig .tc := ⟨.hbm, 178, rfl⟩
abbrev main_c_30 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_cst_31 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_call4_v0 : Ref sig .tc := ⟨.hbm, 194, rfl⟩
abbrev main_call4_cst : Ref sig .tc := ⟨.hbm, 195, rfl⟩
abbrev main_call4_v1 : Ref sig .tc := ⟨.hbm, 196, rfl⟩
abbrev main_call4_v2 : Ref sig .tc := ⟨.hbm, 197, rfl⟩
abbrev main_v140 : Ref sig .tc := ⟨.hbm, 198, rfl⟩
abbrev main_cst_32 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_call5_v0 : Ref sig .tc := ⟨.hbm, 208, rfl⟩
abbrev main_call5_cst : Ref sig .tc := ⟨.hbm, 209, rfl⟩
abbrev main_call5_v1 : Ref sig .tc := ⟨.hbm, 210, rfl⟩
abbrev main_call5_v2 : Ref sig .tc := ⟨.hbm, 211, rfl⟩
abbrev main_v149 : Ref sig .tc := ⟨.hbm, 212, rfl⟩
abbrev main_cst_33 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x6_0_1 : S6600000x1.BroadcastsInDim S6600000x6 (![0, 1] : Fin 2 → Fin S6600000x6.rank)
  bcast_S_S200000x6 : S_.BroadcastsInDim S200000x6 (![] : Fin 0 → Fin S200000x6.rank)
  bcast_S6_S1x6_1 : S6.BroadcastsInDim S1x6 (![1] : Fin 1 → Fin S1x6.rank)
  bcast_S1x6_S200000x6_0_1 : S1x6.BroadcastsInDim S200000x6 (![0, 1] : Fin 2 → Fin S200000x6.rank)
  bcast_S6600000x1_S6600000x12_0_1 : S6600000x1.BroadcastsInDim S6600000x12 (![0, 1] : Fin 2 → Fin S6600000x12.rank)
  bcast_S_S200000x12 : S_.BroadcastsInDim S200000x12 (![] : Fin 0 → Fin S200000x12.rank)
  bcast_S12_S1x12_1 : S12.BroadcastsInDim S1x12 (![1] : Fin 1 → Fin S1x12.rank)
  bcast_S1x12_S200000x12_0_1 : S1x12.BroadcastsInDim S200000x12 (![0, 1] : Fin 2 → Fin S200000x12.rank)
  reducesTo_S200000x12_S200000_d1 : S200000x12.ReducesTo [1] S200000
  h_S_ : 0 < S_.numel
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S200000x1_S200000x12_0_1 : S200000x1.BroadcastsInDim S200000x12 (![0, 1] : Fin 2 → Fin S200000x12.rank)
  bcast_S6600000x1_S6600000x24_0_1 : S6600000x1.BroadcastsInDim S6600000x24 (![0, 1] : Fin 2 → Fin S6600000x24.rank)
  bcast_S_S200000x24 : S_.BroadcastsInDim S200000x24 (![] : Fin 0 → Fin S200000x24.rank)
  bcast_S24_S1x24_1 : S24.BroadcastsInDim S1x24 (![1] : Fin 1 → Fin S1x24.rank)
  bcast_S1x24_S200000x24_0_1 : S1x24.BroadcastsInDim S200000x24 (![0, 1] : Fin 2 → Fin S200000x24.rank)
  reducesTo_S200000x24_S200000_d1 : S200000x24.ReducesTo [1] S200000
  bcast_S200000x1_S200000x24_0_1 : S200000x1.BroadcastsInDim S200000x24 (![0, 1] : Fin 2 → Fin S200000x24.rank)
  bcast_S13_S1x13_1 : S13.BroadcastsInDim S1x13 (![1] : Fin 1 → Fin S1x13.rank)
  bcast_S1x13_S200000x13_0_1 : S1x13.BroadcastsInDim S200000x13 (![0, 1] : Fin 2 → Fin S200000x13.rank)
  reducesTo_S200000x13_S200000_d1 : S200000x13.ReducesTo [1] S200000
  bcast_S200000x1_S200000x13_0_1 : S200000x1.BroadcastsInDim S200000x13 (![0, 1] : Fin 2 → Fin S200000x13.rank)
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S200000x3_S3x6_S200000x6_1_0_0_1_n_n_wf : DotDims.WF S200000x3 S3x6 S200000x6 [1] [0] [0] [1] [] []
  gather_S200000x6_S6600000x1_S6600000x6_1_0_n_n_0_1_16_wf : GatherDims.WF S200000x6 S6600000x1 S6600000x6 [1] [0] [] [0] [] 1 ![1, 6]
  scatter_S200000x6_S6600000x1_S6600000x6_1_0_0_1_wf : ScatterDims.WF S200000x6 S6600000x1 S6600000x6 [1] [0] [0] 1
  dot_S200000x6_S6x12_S200000x12_1_0_0_1_n_n_wf : DotDims.WF S200000x6 S6x12 S200000x12 [1] [0] [0] [1] [] []
  gather_S200000x12_S6600000x1_S6600000x12_1_0_n_n_0_1_112_wf : GatherDims.WF S200000x12 S6600000x1 S6600000x12 [1] [0] [] [0] [] 1 ![1, 12]
  scatter_S200000x12_S6600000x1_S6600000x12_1_0_0_1_wf : ScatterDims.WF S200000x12 S6600000x1 S6600000x12 [1] [0] [0] 1
  dot_S200000x12_S12x24_S200000x24_1_0_0_1_n_n_wf : DotDims.WF S200000x12 S12x24 S200000x24 [1] [0] [0] [1] [] []
  gather_S200000x24_S6600000x1_S6600000x24_1_0_n_n_0_1_124_wf : GatherDims.WF S200000x24 S6600000x1 S6600000x24 [1] [0] [] [0] [] 1 ![1, 24]
  scatter_S200000x24_S6600000x1_S6600000x24_1_0_0_1_wf : ScatterDims.WF S200000x24 S6600000x1 S6600000x24 [1] [0] [0] 1
  dot_S200000x24_S24x13_S200000x13_1_0_0_1_n_n_wf : DotDims.WF S200000x24 S24x13 S200000x13 [1] [0] [0] [1] [] []

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S200000x3_S3x6_S200000x6_1_0_0_1_n_n : DotDims S200000x3 S3x6 S200000x6 where
  lhsContracting := [1]
  rhsContracting := [0]
  lhsNonContracting := [0]
  rhsNonContracting := [1]
  lhsBatch := []
  rhsBatch := []
  wf := dot_S200000x3_S3x6_S200000x6_1_0_0_1_n_n_wf
def gather_S200000x6_S6600000x1_S6600000x6_1_0_n_n_0_1_16 : GatherDims S200000x6 S6600000x1 S6600000x6 where
  offsetDims := [1]
  collapsedSliceDims := [0]
  operandBatchingDims := []
  startIndicesBatchingDims := []
  startIndexMap := [0]
  indexVectorDim := 1
  sliceSizes := ![1, 6]
  wf := gather_S200000x6_S6600000x1_S6600000x6_1_0_n_n_0_1_16_wf
def scatter_S200000x6_S6600000x1_S6600000x6_1_0_0_1 : ScatterDims S200000x6 S6600000x1 S6600000x6 where
  updateWindowDims := [1]
  insertedWindowDims := [0]
  scatterDimsToOperandDims := [0]
  indexVectorDim := 1
  wf := scatter_S200000x6_S6600000x1_S6600000x6_1_0_0_1_wf
def dot_S200000x6_S6x12_S200000x12_1_0_0_1_n_n : DotDims S200000x6 S6x12 S200000x12 where
  lhsContracting := [1]
  rhsContracting := [0]
  lhsNonContracting := [0]
  rhsNonContracting := [1]
  lhsBatch := []
  rhsBatch := []
  wf := dot_S200000x6_S6x12_S200000x12_1_0_0_1_n_n_wf
def gather_S200000x12_S6600000x1_S6600000x12_1_0_n_n_0_1_112 : GatherDims S200000x12 S6600000x1 S6600000x12 where
  offsetDims := [1]
  collapsedSliceDims := [0]
  operandBatchingDims := []
  startIndicesBatchingDims := []
  startIndexMap := [0]
  indexVectorDim := 1
  sliceSizes := ![1, 12]
  wf := gather_S200000x12_S6600000x1_S6600000x12_1_0_n_n_0_1_112_wf
def scatter_S200000x12_S6600000x1_S6600000x12_1_0_0_1 : ScatterDims S200000x12 S6600000x1 S6600000x12 where
  updateWindowDims := [1]
  insertedWindowDims := [0]
  scatterDimsToOperandDims := [0]
  indexVectorDim := 1
  wf := scatter_S200000x12_S6600000x1_S6600000x12_1_0_0_1_wf
def dot_S200000x12_S12x24_S200000x24_1_0_0_1_n_n : DotDims S200000x12 S12x24 S200000x24 where
  lhsContracting := [1]
  rhsContracting := [0]
  lhsNonContracting := [0]
  rhsNonContracting := [1]
  lhsBatch := []
  rhsBatch := []
  wf := dot_S200000x12_S12x24_S200000x24_1_0_0_1_n_n_wf
def gather_S200000x24_S6600000x1_S6600000x24_1_0_n_n_0_1_124 : GatherDims S200000x24 S6600000x1 S6600000x24 where
  offsetDims := [1]
  collapsedSliceDims := [0]
  operandBatchingDims := []
  startIndicesBatchingDims := []
  startIndexMap := [0]
  indexVectorDim := 1
  sliceSizes := ![1, 24]
  wf := gather_S200000x24_S6600000x1_S6600000x24_1_0_n_n_0_1_124_wf
def scatter_S200000x24_S6600000x1_S6600000x24_1_0_0_1 : ScatterDims S200000x24 S6600000x1 S6600000x24 where
  updateWindowDims := [1]
  insertedWindowDims := [0]
  scatterDimsToOperandDims := [0]
  indexVectorDim := 1
  wf := scatter_S200000x24_S6600000x1_S6600000x24_1_0_0_1_wf
def dot_S200000x24_S24x13_S200000x13_1_0_0_1_n_n : DotDims S200000x24 S24x13 S200000x13 where
  lhsContracting := [1]
  rhsContracting := [0]
  lhsNonContracting := [0]
  rhsNonContracting := [1]
  lhsBatch := []
  rhsBatch := []
  wf := dot_S200000x24_S24x13_S200000x13_1_0_0_1_n_n_wf

class Facts : Prop extends Facts₀ where

variable [Facts]
-- ==== Proof.KRun.lean ====
import proofs.«142825_j42417097015629_1_alg».proof.Proof.Gen.KernelIdeal.Frame

/-!
# The kernel program's run, with its result named

The program is seven tiled regions among stretches of host operations. Every weakly fair execution from a
memory `m` terminates, the ten argument arrays end as they were, and the result array ends holding what the
last region leaves in it: the fold `Gen.W14` of the segments' effects over the launch memory, read at the
result buffer. What that fold is, as a function of the arguments, is the subject of the other modules.
-/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents of its buffer and the argument arrays end as launched. The segments and their chaining
    are the frame's; only the reading of the final state is wider: it also reads the result buffer. -/
theorem run : θ_run defs (onTc (τ := τ) (main (F := F))) ⟨m, fun _ => 0, ρ⟩ (fun r => ∀ c : Dev nD,
      r.2.mem ((c.tc : Thread nD τ).loc main_v79) = W14 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v79 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c)⟩)

end Cert.KernelIdeal.Whole

end
-- ==== Proof.Keep.lean ====
import proofs.«142825_j42417097015629_1_alg».proof.Proof.Gen.KernelIdeal.Frame
import proofs.«142825_j42417097015629_1_alg».proof.Proof.RefReadP

/-!
# What the regions and the later host stretches leave alone

The host operations before the first region compute, from the edge list alone, the two endpoint lists (with the
self-loops appended) and the symmetric edge weights; these three arrays and the weight and bias arguments are read
again much later. No region writes them and no later host operation does, so at every later boundary of the program
they hold what they held before the first region: the arguments their launch contents, the edge data the
reference's own terms of the edge-list argument.
-/

set_option maxRecDepth 16384

noncomputable section

namespace Cert.KernelIdeal.Keep

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ### `main_arg0` -/

theorem at3_arg0 : W3 m ρ c (Proc.devRef .tc main_arg0) = (m ((c : Thread nD τ).loc main_arg0)) := by
  dsimp only [W3, W2, W1, hostOps0_2, hostOps0_1, hostOps0]
  after_results_simp <;> rfl

/-! ### `main_arg2` -/

theorem at3_arg2 : W3 m ρ c (Proc.devRef .tc main_arg2) = (m ((c : Thread nD τ).loc main_arg2)) := by
  dsimp only [W3, W2, W1, hostOps0_2, hostOps0_1, hostOps0]
  after_results_simp <;> rfl

/-! ### `main_arg3` -/

theorem at3_arg3 : W3 m ρ c (Proc.devRef .tc main_arg3) = (m ((c : Thread nD τ).loc main_arg3)) := by
  dsimp only [W3, W2, W1, hostOps0_2, hostOps0_1, hostOps0]
  after_results_simp <;> rfl
theorem at4_arg3 : W4 m ρ c (Proc.devRef .tc main_arg3) = (m ((c : Thread nD τ).loc main_arg3)) :=
  (W4_of_ne m ρ c main_arg3 (by decide)).trans (at3_arg3 m ρ c)

/-! ### `main_arg4` -/

theorem at3_arg4 : W3 m ρ c (Proc.devRef .tc main_arg4) = (m ((c : Thread nD τ).loc main_arg4)) := by
  dsimp only [W3, W2, W1, hostOps0_2, hostOps0_1, hostOps0]
  after_results_simp <;> rfl
theorem at4_arg4 : W4 m ρ c (Proc.devRef .tc main_arg4) = (m ((c : Thread nD τ).loc main_arg4)) :=
  (W4_of_ne m ρ c main_arg4 (by decide)).trans (at3_arg4 m ρ c)
theorem at5_arg4 : W5 m ρ c (Proc.devRef .tc main_arg4) = (m ((c : Thread nD τ).loc main_arg4)) := by
  dsimp only [W5, hostOps1]
  after_results_simp
  exact at4_arg4 m ρ c
theorem at6_arg4 : W6 m ρ c (Proc.devRef .tc main_arg4) = (m ((c : Thread nD τ).loc main_arg4)) :=
  (W6_of_ne m ρ c main_arg4 (by decide)).trans (at5_arg4 m ρ c)

/-! ### `main_arg5` -/

theorem at3_arg5 : W3 m ρ c (Proc.devRef .tc main_arg5) = (m ((c : Thread nD τ).loc main_arg5)) := by
  dsimp only [W3, W2, W1, hostOps0_2, hostOps0_1, hostOps0]
  after_results_simp <;> rfl
theorem at4_arg5 : W4 m ρ c (Proc.devRef .tc main_arg5) = (m ((c : Thread nD τ).loc main_arg5)) :=
  (W4_of_ne m ρ c main_arg5 (by decide)).trans (at3_arg5 m ρ c)
theorem at5_arg5 : W5 m ρ c (Proc.devRef .tc main_arg5) = (m ((c : Thread nD τ).loc main_arg5)) := by
  dsimp only [W5, hostOps1]
  after_results_simp
  exact at4_arg5 m ρ c
theorem at6_arg5 : W6 m ρ c (Proc.devRef .tc main_arg5) = (m ((c : Thread nD τ).loc main_arg5)) :=
  (W6_of_ne m ρ c main_arg5 (by decide)).trans (at5_arg5 m ρ c)
theorem at7_arg5 : W7 m ρ c (Proc.devRef .tc main_arg5) = (m ((c : Thread nD τ).loc main_arg5)) :=
  (W7_of_ne m ρ c main_arg5 (by decide)).trans (at6_arg5 m ρ c)

/-! ### `main_arg6` -/

theorem at3_arg6 : W3 m ρ c (Proc.devRef .tc main_arg6) = (m ((c : Thread nD τ).loc main_arg6)) := by
  dsimp only [W3, W2, W1, hostOps0_2, hostOps0_1, hostOps0]
  after_results_simp <;> rfl
theorem at4_arg6 : W4 m ρ c (Proc.devRef .tc main_arg6) = (m ((c : Thread nD τ).loc main_arg6)) :=
  (W4_of_ne m ρ c main_arg6 (by decide)).trans (at3_arg6 m ρ c)
theorem at5_arg6 : W5 m ρ c (Proc.devRef .tc main_arg6) = (m ((c : Thread nD τ).loc main_arg6)) := by
  dsimp only [W5, hostOps1]
  after_results_simp
  exact at4_arg6 m ρ c
theorem at6_arg6 : W6 m ρ c (Proc.devRef .tc main_arg6) = (m ((c : Thread nD τ).loc main_arg6)) :=
  (W6_of_ne m ρ c main_arg6 (by decide)).trans (at5_arg6 m ρ c)
theorem at7_arg6 : W7 m ρ c (Proc.devRef .tc main_arg6) = (m ((c : Thread nD τ).loc main_arg6)) :=
  (W7_of_ne m ρ c main_arg6 (by decide)).trans (at6_arg6 m ρ c)
theorem at8_arg6 : W8 m ρ c (Proc.devRef .tc main_arg6) = (m ((c : Thread nD τ).loc main_arg6)) := by
  dsimp only [W8, hostOps3]
  after_results_simp
  exact at7_arg6 m ρ c
theorem at9_arg6 : W9 m ρ c (Proc.devRef .tc main_arg6) = (m ((c : Thread nD τ).loc main_arg6)) :=
  (W9_of_ne m ρ c main_arg6 (by decide)).trans (at8_arg6 m ρ c)

/-! ### `main_arg7` -/

theorem at3_arg7 : W3 m ρ c (Proc.devRef .tc main_arg7) = (m ((c : Thread nD τ).loc main_arg7)) := by
  dsimp only [W3, W2, W1, hostOps0_2, hostOps0_1, hostOps0]
  after_results_simp <;> rfl
theorem at4_arg7 : W4 m ρ c (Proc.devRef .tc main_arg7) = (m ((c : Thread nD τ).loc main_arg7)) :=
  (W4_of_ne m ρ c main_arg7 (by decide)).trans (at3_arg7 m ρ c)
theorem at5_arg7 : W5 m ρ c (Proc.devRef .tc main_arg7) = (m ((c : Thread nD τ).loc main_arg7)) := by
  dsimp only [W5, hostOps1]
  after_results_simp
  exact at4_arg7 m ρ c
theorem at6_arg7 : W6 m ρ c (Proc.devRef .tc main_arg7) = (m ((c : Thread nD τ).loc main_arg7)) :=
  (W6_of_ne m ρ c main_arg7 (by decide)).trans (at5_arg7 m ρ c)
theorem at7_arg7 : W7 m ρ c (Proc.devRef .tc main_arg7) = (m ((c : Thread nD τ).loc main_arg7)) :=
  (W7_of_ne m ρ c main_arg7 (by decide)).trans (at6_arg7 m ρ c)
theorem at8_arg7 : W8 m ρ c (Proc.devRef .tc main_arg7) = (m ((c : Thread nD τ).loc main_arg7)) := by
  dsimp only [W8, hostOps3]
  after_results_simp
  exact at7_arg7 m ρ c
theorem at9_arg7 : W9 m ρ c (Proc.devRef .tc main_arg7) = (m ((c : Thread nD τ).loc main_arg7)) :=
  (W9_of_ne m ρ c main_arg7 (by decide)).trans (at8_arg7 m ρ c)
theorem at10_arg7 : W10 m ρ c (Proc.devRef .tc main_arg7) = (m ((c : Thread nD τ).loc main_arg7)) :=
  (W10_of_ne m ρ c main_arg7 (by decide)).trans (at9_arg7 m ρ c)

/-! ### `main_arg8` -/

theorem at3_arg8 : W3 m ρ c (Proc.devRef .tc main_arg8) = (m ((c : Thread nD τ).loc main_arg8)) := by
  dsimp only [W3, W2, W1, hostOps0_2, hostOps0_1, hostOps0]
  after_results_simp <;> rfl
theorem at4_arg8 : W4 m ρ c (Proc.devRef .tc main_arg8) = (m ((c : Thread nD τ).loc main_arg8)) :=
  (W4_of_ne m ρ c main_arg8 (by decide)).trans (at3_arg8 m ρ c)
theorem at5_arg8 : W5 m ρ c (Proc.devRef .tc main_arg8) = (m ((c : Thread nD τ).loc main_arg8)) := by
  dsimp only [W5, hostOps1]
  after_results_simp
  exact at4_arg8 m ρ c
theorem at6_arg8 : W6 m ρ c (Proc.devRef .tc main_arg8) = (m ((c : Thread nD τ).loc main_arg8)) :=
  (W6_of_ne m ρ c main_arg8 (by decide)).trans (at5_arg8 m ρ c)
theorem at7_arg8 : W7 m ρ c (Proc.devRef .tc main_arg8) = (m ((c : Thread nD τ).loc main_arg8)) :=
  (W7_of_ne m ρ c main_arg8 (by decide)).trans (at6_arg8 m ρ c)
theorem at8_arg8 : W8 m ρ c (Proc.devRef .tc main_arg8) = (m ((c : Thread nD τ).loc main_arg8)) := by
  dsimp only [W8, hostOps3]
  after_results_simp
  exact at7_arg8 m ρ c
theorem at9_arg8 : W9 m ρ c (Proc.devRef .tc main_arg8) = (m ((c : Thread nD τ).loc main_arg8)) :=
  (W9_of_ne m ρ c main_arg8 (by decide)).trans (at8_arg8 m ρ c)
theorem at10_arg8 : W10 m ρ c (Proc.devRef .tc main_arg8) = (m ((c : Thread nD τ).loc main_arg8)) :=
  (W10_of_ne m ρ c main_arg8 (by decide)).trans (at9_arg8 m ρ c)
theorem at11_arg8 : W11 m ρ c (Proc.devRef .tc main_arg8) = (m ((c : Thread nD τ).loc main_arg8)) := by
  dsimp only [W11, hostOps5]
  after_results_simp
  exact at10_arg8 m ρ c
theorem at12_arg8 : W12 m ρ c (Proc.devRef .tc main_arg8) = (m ((c : Thread nD τ).loc main_arg8)) :=
  (W12_of_ne m ρ c main_arg8 (by decide)).trans (at11_arg8 m ρ c)
theorem at13_arg8 : W13 m ρ c (Proc.devRef .tc main_arg8) = (m ((c : Thread nD τ).loc main_arg8)) := by
  dsimp only [W13, hostOps6]
  after_results_simp
  exact at12_arg8 m ρ c

/-! ### `main_arg9` -/

theorem at3_arg9 : W3 m ρ c (Proc.devRef .tc main_arg9) = (m ((c : Thread nD τ).loc main_arg9)) := by
  dsimp only [W3, W2, W1, hostOps0_2, hostOps0_1, hostOps0]
  after_results_simp <;> rfl
theorem at4_arg9 : W4 m ρ c (Proc.devRef .tc main_arg9) = (m ((c : Thread nD τ).loc main_arg9)) :=
  (W4_of_ne m ρ c main_arg9 (by decide)).trans (at3_arg9 m ρ c)
theorem at5_arg9 : W5 m ρ c (Proc.devRef .tc main_arg9) = (m ((c : Thread nD τ).loc main_arg9)) := by
  dsimp only [W5, hostOps1]
  after_results_simp
  exact at4_arg9 m ρ c
theorem at6_arg9 : W6 m ρ c (Proc.devRef .tc main_arg9) = (m ((c : Thread nD τ).loc main_arg9)) :=
  (W6_of_ne m ρ c main_arg9 (by decide)).trans (at5_arg9 m ρ c)
theorem at7_arg9 : W7 m ρ c (Proc.devRef .tc main_arg9) = (m ((c : Thread nD τ).loc main_arg9)) :=
  (W7_of_ne m ρ c main_arg9 (by decide)).trans (at6_arg9 m ρ c)
theorem at8_arg9 : W8 m ρ c (Proc.devRef .tc main_arg9) = (m ((c : Thread nD τ).loc main_arg9)) := by
  dsimp only [W8, hostOps3]
  after_results_simp
  exact at7_arg9 m ρ c
theorem at9_arg9 : W9 m ρ c (Proc.devRef .tc main_arg9) = (m ((c : Thread nD τ).loc main_arg9)) :=
  (W9_of_ne m ρ c main_arg9 (by decide)).trans (at8_arg9 m ρ c)
theorem at10_arg9 : W10 m ρ c (Proc.devRef .tc main_arg9) = (m ((c : Thread nD τ).loc main_arg9)) :=
  (W10_of_ne m ρ c main_arg9 (by decide)).trans (at9_arg9 m ρ c)
theorem at11_arg9 : W11 m ρ c (Proc.devRef .tc main_arg9) = (m ((c : Thread nD τ).loc main_arg9)) := by
  dsimp only [W11, hostOps5]
  after_results_simp
  exact at10_arg9 m ρ c
theorem at12_arg9 : W12 m ρ c (Proc.devRef .tc main_arg9) = (m ((c : Thread nD τ).loc main_arg9)) :=
  (W12_of_ne m ρ c main_arg9 (by decide)).trans (at11_arg9 m ρ c)

/-! ### The edge data, built up over the three host stretches before the first region -/

set_option maxRecDepth 65536 in
theorem w1_v5 : W1 m ρ c (Proc.devRef .tc main_v5) = Cert.ReferenceIdeal.ReadP.val_main_v5 (F := Ideal) (m ((c : Thread nD τ).loc main_arg1)) := by
  have h1 : W0 m ρ c (Proc.devRef .tc main_arg1) = (m ((c : Thread nD τ).loc main_arg1)) := rfl
  show StableHlo.after hostOps0 (W0 m ρ c) (Proc.devRef .tc main_v5) = _
  generalize W0 m ρ c = V0 at h1 ⊢
  dsimp only [hostOps0]
  after_results
  try rw [h1]
  try rfl

set_option maxRecDepth 65536 in
theorem w1_v6 : W1 m ρ c (Proc.devRef .tc main_v6) = Cert.ReferenceIdeal.ReadP.val_main_v6 (F := Ideal) (m ((c : Thread nD τ).loc main_arg1)) := by
  have h1 : W0 m ρ c (Proc.devRef .tc main_arg1) = (m ((c : Thread nD τ).loc main_arg1)) := rfl
  show StableHlo.after hostOps0 (W0 m ρ c) (Proc.devRef .tc main_v6) = _
  generalize W0 m ρ c = V0 at h1 ⊢
  dsimp only [hostOps0]
  after_results
  try rw [h1]
  try rfl

set_option maxRecDepth 65536 in
theorem w1_v12 : W1 m ρ c (Proc.devRef .tc main_v12) = Cert.ReferenceIdeal.ReadP.val_main_v12 (F := Ideal) (m ((c : Thread nD τ).loc main_arg1)) := by
  have h1 : W0 m ρ c (Proc.devRef .tc main_arg1) = (m ((c : Thread nD τ).loc main_arg1)) := rfl
  show StableHlo.after hostOps0 (W0 m ρ c) (Proc.devRef .tc main_v12) = _
  generalize W0 m ρ c = V0 at h1 ⊢
  dsimp only [hostOps0]
  after_results
  try rw [h1]
  try rfl

set_option maxRecDepth 65536 in
theorem w1_v13 : W1 m ρ c (Proc.devRef .tc main_v13) = Cert.ReferenceIdeal.ReadP.val_main_v13 (F := Ideal) (m ((c : Thread nD τ).loc main_arg1)) := by
  have h1 : W0 m ρ c (Proc.devRef .tc main_arg1) = (m ((c : Thread nD τ).loc main_arg1)) := rfl
  show StableHlo.after hostOps0 (W0 m ρ c) (Proc.devRef .tc main_v13) = _
  generalize W0 m ρ c = V0 at h1 ⊢
  dsimp only [hostOps0]
  after_results
  try rw [h1]
  try rfl

set_option maxRecDepth 65536 in
theorem w1_cst_2 : W1 m ρ c (Proc.devRef .tc main_cst_2) = Cert.ReferenceIdeal.ReadP.val_main_cst_2 (F := Ideal) := by
  have h1 : W0 m ρ c (Proc.devRef .tc main_arg1) = (m ((c : Thread nD τ).loc main_arg1)) := rfl
  show StableHlo.after hostOps0 (W0 m ρ c) (Proc.devRef .tc main_cst_2) = _
  generalize W0 m ρ c = V0 at h1 ⊢
  dsimp only [hostOps0]
  after_results
  try rw [h1]
  try rfl

/-- The outlined `where`: degree positive → inverse square root, else the constant. Over any contents of the three buffers it reads. -/
theorem where_pure (X12 : (⟨S200000, .i1⟩ : BufTy).Contents (Elt Ideal)) (X13 : (⟨S200000, .f32⟩ : BufTy).Contents (Elt Ideal))
    (X0 : (⟨S_, .f32⟩ : BufTy).Contents (Elt Ideal)) (V1 : Valuation τ sig (Elt Ideal))
    (h12 : V1 (Proc.devRef .tc main_v12) = X12) (h13 : V1 (Proc.devRef .tc main_v13) = X13) (hc : V1 (Proc.devRef .tc main_cst_2) = X0) :
    StableHlo.after hostOps0_1 V1 (Proc.devRef .tc main_v14) = select X12 X13 (broadcastInDim S200000 ![] bcast_S_S200000 (id X0)) := by
  dsimp only [hostOps0_1]
  after_results
  rw [h12, h13, hc]
  rfl

/-- The reference's spelling of the same selection. -/
theorem where_ref (x1 : (⟨Cert.ReferenceIdeal.S2x6400000, .i32⟩ : BufTy).Contents (Elt Ideal)) :
    select (Cert.ReferenceIdeal.ReadP.val_main_v12 (F := Ideal) x1) (Cert.ReferenceIdeal.ReadP.val_main_v13 (F := Ideal) x1) (broadcastInDim S200000 ![] bcast_S_S200000 (id (Cert.ReferenceIdeal.ReadP.val_main_cst_2 (F := Ideal))))
      = Cert.ReferenceIdeal.ReadP.val_main_v14 (F := Ideal) x1 := by
  unfold Cert.ReferenceIdeal.ReadP.val_main_v14 Cert.ReferenceIdeal.ReadP.val_main_call0_v1 Cert.ReferenceIdeal.ReadP.val_main_call0_v0
  generalize Cert.ReferenceIdeal.ReadP.val_main_v12 (F := Ideal) _ = X12
  generalize Cert.ReferenceIdeal.ReadP.val_main_v13 (F := Ideal) _ = X13
  generalize Cert.ReferenceIdeal.ReadP.val_main_cst_2 (F := Ideal) = X0
  rfl

theorem w2_v14 : W2 m ρ c (Proc.devRef .tc main_v14) = Cert.ReferenceIdeal.ReadP.val_main_v14 (F := Ideal) (m ((c : Thread nD τ).loc main_arg1)) :=
  (where_pure _ _ _ (W1 m ρ c) (w1_v12 m ρ c) (w1_v13 m ρ c) (w1_cst_2 m ρ c)).trans (where_ref _)

theorem w2_v5 : W2 m ρ c (Proc.devRef .tc main_v5) = Cert.ReferenceIdeal.ReadP.val_main_v5 (F := Ideal) (m ((c : Thread nD τ).loc main_arg1)) := by
  have h := w1_v5 m ρ c
  show StableHlo.after hostOps0_1 (W1 m ρ c) (Proc.devRef .tc main_v5) = _
  generalize W1 m ρ c = V1 at h ⊢
  dsimp only [hostOps0_1]
  after_results
  exact h

theorem w2_v6 : W2 m ρ c (Proc.devRef .tc main_v6) = Cert.ReferenceIdeal.ReadP.val_main_v6 (F := Ideal) (m ((c : Thread nD τ).loc main_arg1)) := by
  have h := w1_v6 m ρ c
  show StableHlo.after hostOps0_1 (W1 m ρ c) (Proc.devRef .tc main_v6) = _
  generalize W1 m ρ c = V1 at h ⊢
  dsimp only [hostOps0_1]
  after_results
  exact h

/-! ### `main_v29` -/

/-- The edge weights, over any contents of the three buffers the last stretch reads. -/
theorem weights_of (V2 : Valuation τ sig (Elt Ideal))
    (h14 : V2 (Proc.devRef .tc main_v14) = Cert.ReferenceIdeal.ReadP.val_main_v14 (F := Ideal) (m ((c : Thread nD τ).loc main_arg1)))
    (h5 : V2 (Proc.devRef .tc main_v5) = Cert.ReferenceIdeal.ReadP.val_main_v5 (F := Ideal) (m ((c : Thread nD τ).loc main_arg1)))
    (h6 : V2 (Proc.devRef .tc main_v6) = Cert.ReferenceIdeal.ReadP.val_main_v6 (F := Ideal) (m ((c : Thread nD τ).loc main_arg1))) :
    StableHlo.after hostOps0_2 V2 (Proc.devRef .tc main_v29) = Cert.ReferenceIdeal.ReadP.val_main_v29 (F := Ideal) (m ((c : Thread nD τ).loc main_arg1)) := by
  dsimp only [hostOps0_2]
  after_results_simp
  rw [h14, h5, h6]
  unfold Cert.ReferenceIdeal.ReadP.val_main_v29 Cert.ReferenceIdeal.ReadP.val_main_v28 Cert.ReferenceIdeal.ReadP.val_main_v27 Cert.ReferenceIdeal.ReadP.val_main_v26 Cert.ReferenceIdeal.ReadP.val_main_v25 Cert.ReferenceIdeal.ReadP.val_main_v24 Cert.ReferenceIdeal.ReadP.val_main_c_5 Cert.ReferenceIdeal.ReadP.val_main_v23 Cert.ReferenceIdeal.ReadP.val_main_v22 Cert.ReferenceIdeal.ReadP.val_main_c_4 Cert.ReferenceIdeal.ReadP.val_main_v21 Cert.ReferenceIdeal.ReadP.val_main_v20 Cert.ReferenceIdeal.ReadP.val_main_v19 Cert.ReferenceIdeal.ReadP.val_main_v18 Cert.ReferenceIdeal.ReadP.val_main_v17 Cert.ReferenceIdeal.ReadP.val_main_c_3 Cert.ReferenceIdeal.ReadP.val_main_v16 Cert.ReferenceIdeal.ReadP.val_main_v15 Cert.ReferenceIdeal.ReadP.val_main_c
  generalize Cert.ReferenceIdeal.ReadP.val_main_v14 (F := Ideal) _ = X14
  generalize Cert.ReferenceIdeal.ReadP.val_main_v5 (F := Ideal) _ = X5
  generalize Cert.ReferenceIdeal.ReadP.val_main_v6 (F := Ideal) _ = X6
  rfl

theorem at3_v29 : W3 m ρ c (Proc.devRef .tc main_v29) = Cert.ReferenceIdeal.ReadP.val_main_v29 (F := Ideal) (m ((c : Thread nD τ).loc main_arg1)) :=
  weights_of m c (W2 m ρ c) (w2_v14 m ρ c) (w2_v5 m ρ c) (w2_v6 m ρ c)
theorem at4_v29 : W4 m ρ c (Proc.devRef .tc main_v29) = Cert.ReferenceIdeal.ReadP.val_main_v29 (F := Ideal) (m ((c : Thread nD τ).loc main_arg1)) :=
  (W4_of_ne m ρ c main_v29 (by decide)).trans (at3_v29 m ρ c)
theorem at5_v29 : W5 m ρ c (Proc.devRef .tc main_v29) = Cert.ReferenceIdeal.ReadP.val_main_v29 (F := Ideal) (m ((c : Thread nD τ).loc main_arg1)) := by
  dsimp only [W5, hostOps1]
  after_results_simp
  exact at4_v29 m ρ c
theorem at6_v29 : W6 m ρ c (Proc.devRef .tc main_v29) = Cert.ReferenceIdeal.ReadP.val_main_v29 (F := Ideal) (m ((c : Thread nD τ).loc main_arg1)) :=
  (W6_of_ne m ρ c main_v29 (by decide)).trans (at5_v29 m ρ c)
theorem at7_v29 : W7 m ρ c (Proc.devRef .tc main_v29) = Cert.ReferenceIdeal.ReadP.val_main_v29 (F := Ideal) (m ((c : Thread nD τ).loc main_arg1)) :=
  (W7_of_ne m ρ c main_v29 (by decide)).trans (at6_v29 m ρ c)
theorem at8_v29 : W8 m ρ c (Proc.devRef .tc main_v29) = Cert.ReferenceIdeal.ReadP.val_main_v29 (F := Ideal) (m ((c : Thread nD τ).loc main_arg1)) := by
  dsimp only [W8, hostOps3]
  after_results_simp
  exact at7_v29 m ρ c
theorem at9_v29 : W9 m ρ c (Proc.devRef .tc main_v29) = Cert.ReferenceIdeal.ReadP.val_main_v29 (F := Ideal) (m ((c : Thread nD τ).loc main_arg1)) :=
  (W9_of_ne m ρ c main_v29 (by decide)).trans (at8_v29 m ρ c)
theorem at10_v29 : W10 m ρ c (Proc.devRef .tc main_v29) = Cert.ReferenceIdeal.ReadP.val_main_v29 (F := Ideal) (m ((c : Thread nD τ).loc main_arg1)) :=
  (W10_of_ne m ρ c main_v29 (by decide)).trans (at9_v29 m ρ c)

/-! ### `main_v5` -/

theorem at3_v5 : W3 m ρ c (Proc.devRef .tc main_v5) = Cert.ReferenceIdeal.ReadP.val_main_v5 (F := Ideal) (m ((c : Thread nD τ).loc main_arg1)) := by
  have h := w2_v5 m ρ c
  show StableHlo.after hostOps0_2 (W2 m ρ c) (Proc.devRef .tc main_v5) = _
  generalize W2 m ρ c = V2 at h ⊢
  dsimp only [hostOps0_2]
  after_results
  exact h
theorem at4_v5 : W4 m ρ c (Proc.devRef .tc main_v5) = Cert.ReferenceIdeal.ReadP.val_main_v5 (F := Ideal) (m ((c : Thread nD τ).loc main_arg1)) :=
  (W4_of_ne m ρ c main_v5 (by decide)).trans (at3_v5 m ρ c)
theorem at5_v5 : W5 m ρ c (Proc.devRef .tc main_v5) = Cert.ReferenceIdeal.ReadP.val_main_v5 (F := Ideal) (m ((c : Thread nD τ).loc main_arg1)) := by
  dsimp only [W5, hostOps1]
  after_results_simp
  exact at4_v5 m ρ c
theorem at6_v5 : W6 m ρ c (Proc.devRef .tc main_v5) = Cert.ReferenceIdeal.ReadP.val_main_v5 (F := Ideal) (m ((c : Thread nD τ).loc main_arg1)) :=
  (W6_of_ne m ρ c main_v5 (by decide)).trans (at5_v5 m ρ c)
theorem at7_v5 : W7 m ρ c (Proc.devRef .tc main_v5) = Cert.ReferenceIdeal.ReadP.val_main_v5 (F := Ideal) (m ((c : Thread nD τ).loc main_arg1)) :=
  (W7_of_ne m ρ c main_v5 (by decide)).trans (at6_v5 m ρ c)
theorem at8_v5 : W8 m ρ c (Proc.devRef .tc main_v5) = Cert.ReferenceIdeal.ReadP.val_main_v5 (F := Ideal) (m ((c : Thread nD τ).loc main_arg1)) := by
  dsimp only [W8, hostOps3]
  after_results_simp
  exact at7_v5 m ρ c
theorem at9_v5 : W9 m ρ c (Proc.devRef .tc main_v5) = Cert.ReferenceIdeal.ReadP.val_main_v5 (F := Ideal) (m ((c : Thread nD τ).loc main_arg1)) :=
  (W9_of_ne m ρ c main_v5 (by decide)).trans (at8_v5 m ρ c)
theorem at10_v5 : W10 m ρ c (Proc.devRef .tc main_v5) = Cert.ReferenceIdeal.ReadP.val_main_v5 (F := Ideal) (m ((c : Thread nD τ).loc main_arg1)) :=
  (W10_of_ne m ρ c main_v5 (by decide)).trans (at9_v5 m ρ c)

/-! ### `main_v6` -/

theorem at3_v6 : W3 m ρ c (Proc.devRef .tc main_v6) = Cert.ReferenceIdeal.ReadP.val_main_v6 (F := Ideal) (m ((c : Thread nD τ).loc main_arg1)) := by
  have h := w2_v6 m ρ c
  show StableHlo.after hostOps0_2 (W2 m ρ c) (Proc.devRef .tc main_v6) = _
  generalize W2 m ρ c = V2 at h ⊢
  dsimp only [hostOps0_2]
  after_results
  exact h
theorem at4_v6 : W4 m ρ c (Proc.devRef .tc main_v6) = Cert.ReferenceIdeal.ReadP.val_main_v6 (F := Ideal) (m ((c : Thread nD τ).loc main_arg1)) :=
  (W4_of_ne m ρ c main_v6 (by decide)).trans (at3_v6 m ρ c)
theorem at5_v6 : W5 m ρ c (Proc.devRef .tc main_v6) = Cert.ReferenceIdeal.ReadP.val_main_v6 (F := Ideal) (m ((c : Thread nD τ).loc main_arg1)) := by
  dsimp only [W5, hostOps1]
  after_results_simp
  exact at4_v6 m ρ c
theorem at6_v6 : W6 m ρ c (Proc.devRef .tc main_v6) = Cert.ReferenceIdeal.ReadP.val_main_v6 (F := Ideal) (m ((c : Thread nD τ).loc main_arg1)) :=
  (W6_of_ne m ρ c main_v6 (by decide)).trans (at5_v6 m ρ c)
theorem at7_v6 : W7 m ρ c (Proc.devRef .tc main_v6) = Cert.ReferenceIdeal.ReadP.val_main_v6 (F := Ideal) (m ((c : Thread nD τ).loc main_arg1)) :=
  (W7_of_ne m ρ c main_v6 (by decide)).trans (at6_v6 m ρ c)
theorem at8_v6 : W8 m ρ c (Proc.devRef .tc main_v6) = Cert.ReferenceIdeal.ReadP.val_main_v6 (F := Ideal) (m ((c : Thread nD τ).loc main_arg1)) := by
  dsimp only [W8, hostOps3]
  after_results_simp
  exact at7_v6 m ρ c
theorem at9_v6 : W9 m ρ c (Proc.devRef .tc main_v6) = Cert.ReferenceIdeal.ReadP.val_main_v6 (F := Ideal) (m ((c : Thread nD τ).loc main_arg1)) :=
  (W9_of_ne m ρ c main_v6 (by decide)).trans (at8_v6 m ρ c)
theorem at10_v6 : W10 m ρ c (Proc.devRef .tc main_v6) = Cert.ReferenceIdeal.ReadP.val_main_v6 (F := Ideal) (m ((c : Thread nD τ).loc main_arg1)) :=
  (W10_of_ne m ρ c main_v6 (by decide)).trans (at9_v6 m ρ c)

end Cert.KernelIdeal.Keep

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibColumn.lean ====
import Idealize.ShloMosaic.Lib.ValueLayout

/-!
# A trailing unit axis

A vector of length `a` laid out as one column `[a, 1]`, and that column repeated along the second axis to `[a, b]`:
read at an index, the column holds the vector's entry of the same row, and the repeated column holds, at `(p, c)`,
the column's entry of row `p` whatever `c` is. Together they say a row-wise scale factor kept as a column reaches
every entry of its row.
-/

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over `b` columns reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibRows.lean ====
import Idealize.ShloMosaic.Lib.ValueIdx
import Idealize.ShloMosaic.Lib.ValueLayout
import Idealize.ShloMosaic.Lib.Pipeline.Value
import Idealize.ShloMosaic.PureOps.Ideal.Laws
import proofs.«142825_j42417097015629_1_alg».proof.Proof.LibPlainDot
import proofs.«142825_j42417097015629_1_alg».proof.Proof.LibColumn

/-!
# Row-wise layers

Every dense stage of the network acts on each row of an `[N, C]` array by itself: a row times a weight matrix, a
bias row added, the row scaled to unit length (divided by the larger of its Euclidean norm and a floor), a
`tanh` of every entry. `mapRows f A` applies a function `f` of one row to every row of `A`. A stage computed on a
tile of rows is therefore the same stage computed on the whole array and read on the tile: the value at row `n`
only sees row `n` of the operand.

The lemmas below read the vector unit's spelling of each stage (a matrix product into a zero accumulator, a
lane sum, a column broadcast) at an index `(p, q)`, over any number of rows.
-/

noncomputable section

namespace Cert.Rows

open Idealize.ShloMosaic Idealize.ShloMosaic.ValueIdx
open scoped BigOperators

abbrev S2 (a b : ℕ) : Shape := ⟨2, ![a, b]⟩
abbrev S1 (a : ℕ) : Shape := ⟨1, ![a]⟩

/-- Apply a function of one row to every row. -/
def mapRows {N Ci C : ℕ} (f : (Fin Ci → EReal) → Fin C → EReal) (A : (S2 N Ci).Idx → EReal) : (S2 N C).Idx → EReal :=
  fun i => f (fun k => A (ix2 (i 0) k)) (i 1)

theorem mapRows_ix2 {N Ci C : ℕ} (f : (Fin Ci → EReal) → Fin C → EReal) (A : (S2 N Ci).Idx → EReal) (n : Fin N) (q : Fin C) :
    mapRows f A (ix2 n q) = f (fun k => A (ix2 n k)) q := rfl

/-- A row times a weight matrix. -/
def lin {Ci C : ℕ} (w : (S2 Ci C).Idx → EReal) (r : Fin Ci → EReal) : Fin C → EReal :=
  fun q => ∑ k : Fin Ci, r k * w (ix2 k q)

/-- A bias row (kept as a one-row matrix) added to a row. -/
def addRow {C : ℕ} (b : (S2 1 C).Idx → EReal) (r : Fin C → EReal) : Fin C → EReal :=
  fun q => r q + b (ix2 (0 : Fin 1) q)

/-- The floor under a row's norm: the single-precision number nearest 1e-12, read exactly. -/
def floorNorm : EReal := Ideal.ofBits .f32 0x2B8CBCCC#32

/-- A row divided by the larger of its Euclidean norm and the floor. -/
def unit {C : ℕ} (r : Fin C → EReal) : Fin C → EReal :=
  fun q => Ideal.div (r q) (max (Ideal.sqrt (∑ k : Fin C, r k * r k)) floorNorm)

/-- `tanh` of every entry of a row. -/
def th {C : ℕ} (r : Fin C → EReal) : Fin C → EReal := fun q => Ideal.tanh (r q)

/-- A tile of rows `o, o+1, …` of `A` goes to the same rows of `mapRows f A`. -/
theorem mapRows_tile {N R Ci C : ℕ} (f : (Fin Ci → EReal) → Fin C → EReal) (A : (S2 N Ci).Idx → EReal)
    (X : (S2 R Ci).Idx → EReal) (o : ℕ) (ho : ∀ p : Fin R, o + p.val < N)
    (hX : ∀ (p : Fin R) (k : Fin Ci), X (ix2 p k) = A (ix2 ⟨o + p.val, ho p⟩ k)) (p : Fin R) (q : Fin C) :
    mapRows f X (ix2 p q) = mapRows f A (ix2 ⟨o + p.val, ho p⟩ q) := by
  rw [mapRows_ix2, mapRows_ix2]
  exact congrArg (fun r => f r q) (funext fun k => hX p k)

/-! ## The vector unit's spellings at an index -/

section Unit

variable {N C : ℕ}

/-- The matrix product of a tile of rows with a weight matrix, into a zero accumulator. -/
theorem matmul_rows {K : ℕ} (d : DotDims (S2 N K) (S2 K C) (S2 N C)) (hd : Cert.LibPlainDot.Plain d)
    (x : FVec Ideal (S2 N K) .f32) (w : FVec Ideal (S2 K C) .f32) :
    matmul d none x w (constant (S2 N C) .f32 0x00000000#32) = mapRows (lin w) x := by
  funext i
  obtain ⟨p, q, rfl⟩ : ∃ (p : Fin N) (q : Fin C), i = ix2 p q := ⟨i 0, i 1, eq_ix2 i⟩
  exact Cert.LibPlainDot.matmul_zero_apply d hd none x w p q

/-- A tile plus a bias row repeated down the tile. -/
theorem addBias_rows (x : FVec Ideal (S2 N C) .f32) (b : FVec Ideal (S2 1 C) .f32)
    (h2 : (S2 1 C).ShapeCasts (S2 1 C)) (h3 : (S2 1 C).Broadcasts (S2 N C)) :
    addf x (broadcastTo (S2 N C) (shapeCast (S2 1 C) b h2) h3) = mapRows (addRow b) x := by
  funext i
  obtain ⟨p, q, rfl⟩ : ∃ (p : Fin N) (q : Fin C), i = ix2 p q := ⟨i 0, i 1, eq_ix2 i⟩
  rw [shapeCast_self, mapRows_ix2]
  show x (ix2 p q) + broadcastTo (S2 N C) b h3 (ix2 p q) = _
  rw [broadcastTo_1b_ab_apply]
  rfl

/-- A tile whose every row is divided by the larger of its norm and the floor: the squares summed along the
    lanes, the sums kept as a column, the column's square root floored and repeated across the row. -/
theorem unit_rows (y : FVec Ideal (S2 N C) .f32) (hr : (S2 N C).Reduces [1] (S1 N)) (hφ : FKind.Formats .f32)
    (hacc : (0x00000000#32 : BitVec 32) = FKind.add.neutral .f32 hφ)
    (hc : (S1 N).ShapeCasts (S2 N 1)) (hb : (S2 N 1).Broadcasts (S2 N C)) :
    divf y (broadcastTo (S2 N C) (maximumf (sqrt (shapeCast (S2 N 1) (multiReduction .add [1] (S1 N) (mulf y y) 0x00000000#32 hr hφ hacc) hc))
      (broadcast (S2 N 1) (Scalar.ofBits .f32 0x2B8CBCCC#32))) hb) = mapRows unit y := by
  funext i
  obtain ⟨p, q, rfl⟩ : ∃ (p : Fin N) (q : Fin C), i = ix2 p q := ⟨i 0, i 1, eq_ix2 i⟩
  rw [mapRows_ix2]
  show Ideal.div (y (ix2 p q)) (broadcastTo (S2 N C) _ hb (ix2 p q)) = _
  rw [Cert.LibColumn.broadcastTo_a1_ab_apply]
  show Ideal.div (y (ix2 p q)) (max (Ideal.sqrt (shapeCast (S2 N 1) _ hc (ix2 p (0 : Fin 1)))) floorNorm) = _
  rw [Cert.LibColumn.shapeCast_a_a1_apply]
  refine congrArg (fun s => Ideal.div (y (ix2 p q)) (max (Ideal.sqrt s) floorNorm)) ?_
  refine (Ideal.multiReduction_add_single (mulf y y) 0x00000000#32 hr hφ hacc (ix1 p)).trans ?_
  refine Finset.sum_congr rfl fun k _ => ?_
  have e : hr.lift (ix1 p) k = ix2 p k := funext fun a => Fin.ext (by
    match a with
    | ⟨0, _⟩ => rfl
    | ⟨1, _⟩ => rfl)
  rw [e]
  rfl

/-- `tanh` of a tile. -/
theorem tanh_rows (y : FVec Ideal (S2 N C) .f32) : tanh y = mapRows (C := C) th y := by
  funext i
  obtain ⟨p, q, rfl⟩ : ∃ (p : Fin N) (q : Fin C), i = ix2 p q := ⟨i 0, i 1, eq_ix2 i⟩
  rfl

/-- One row-wise stage after another is one row-wise stage. -/
theorem mapRows_comp {Ci Cm : ℕ} (g : (Fin Cm → EReal) → Fin C → EReal) (f : (Fin Ci → EReal) → Fin Cm → EReal)
    (A : (S2 N Ci).Idx → EReal) : mapRows g (mapRows f A) = mapRows (fun r => g (f r)) A := rfl

/-! ## The seven tile bodies, as written by the compiler -/

/-- A linear tile whose operand passes through an identity re-shape first. -/
theorem body_lin {K : ℕ} (d : DotDims (S2 N K) (S2 K C) (S2 N C)) (hd : Cert.LibPlainDot.Plain d)
    (x : FVec Ideal (S2 N K) .f32) (w : FVec Ideal (S2 K C) .f32) (h1 : (S2 N K).ShapeCasts (S2 N K)) :
    matmul d none (shapeCast (S2 N K) x h1) w (constant (S2 N C) .f32 0x00000000#32) = mapRows (lin w) x := by
  rw [shapeCast_self]; exact matmul_rows d hd x w

/-- Bias, then `tanh`. -/
theorem body_bias_tanh (x : FVec Ideal (S2 N C) .f32) (b : FVec Ideal (S2 1 C) .f32) (h1 : (S2 N C).ShapeCasts (S2 N C))
    (h2 : (S2 1 C).ShapeCasts (S2 1 C)) (h3 : (S2 1 C).Broadcasts (S2 N C)) :
    tanh (addf (shapeCast (S2 N C) x h1) (broadcastTo (S2 N C) (shapeCast (S2 1 C) b h2) h3))
      = mapRows (fun r => th (addRow b r)) x := by
  rw [shapeCast_self x, addBias_rows, tanh_rows]; rfl

/-- Bias, then unit length. -/
theorem body_bias_unit (x : FVec Ideal (S2 N C) .f32) (b : FVec Ideal (S2 1 C) .f32) (h1 : (S2 N C).ShapeCasts (S2 N C))
    (h2 : (S2 1 C).ShapeCasts (S2 1 C)) (h3 : (S2 1 C).Broadcasts (S2 N C))
    (hr : (S2 N C).Reduces [1] (S1 N)) (hφ : FKind.Formats .f32) (hacc : (0x00000000#32 : BitVec 32) = FKind.add.neutral .f32 hφ)
    (hc : (S1 N).ShapeCasts (S2 N 1)) (hb : (S2 N 1).Broadcasts (S2 N C)) :
    divf (addf (shapeCast (S2 N C) x h1) (broadcastTo (S2 N C) (shapeCast (S2 1 C) b h2) h3))
      (broadcastTo (S2 N C) (maximumf (sqrt (shapeCast (S2 N 1) (multiReduction .add [1] (S1 N)
        (mulf (addf (shapeCast (S2 N C) x h1) (broadcastTo (S2 N C) (shapeCast (S2 1 C) b h2) h3))
          (addf (shapeCast (S2 N C) x h1) (broadcastTo (S2 N C) (shapeCast (S2 1 C) b h2) h3))) 0x00000000#32 hr hφ hacc) hc))
        (broadcast (S2 N 1) (Scalar.ofBits .f32 0x2B8CBCCC#32))) hb)
      = mapRows (fun r => unit (addRow b r)) x := by
  rw [shapeCast_self x, addBias_rows, unit_rows]; rfl

/-- Bias, then unit length, then `tanh`. -/
theorem body_bias_unit_tanh (x : FVec Ideal (S2 N C) .f32) (b : FVec Ideal (S2 1 C) .f32) (h1 : (S2 N C).ShapeCasts (S2 N C))
    (h2 : (S2 1 C).ShapeCasts (S2 1 C)) (h3 : (S2 1 C).Broadcasts (S2 N C))
    (hr : (S2 N C).Reduces [1] (S1 N)) (hφ : FKind.Formats .f32) (hacc : (0x00000000#32 : BitVec 32) = FKind.add.neutral .f32 hφ)
    (hc : (S1 N).ShapeCasts (S2 N 1)) (hb : (S2 N 1).Broadcasts (S2 N C)) :
    tanh (divf (addf (shapeCast (S2 N C) x h1) (broadcastTo (S2 N C) (shapeCast (S2 1 C) b h2) h3))
      (broadcastTo (S2 N C) (maximumf (sqrt (shapeCast (S2 N 1) (multiReduction .add [1] (S1 N)
        (mulf (addf (shapeCast (S2 N C) x h1) (broadcastTo (S2 N C) (shapeCast (S2 1 C) b h2) h3))
          (addf (shapeCast (S2 N C) x h1) (broadcastTo (S2 N C) (shapeCast (S2 1 C) b h2) h3))) 0x00000000#32 hr hφ hacc) hc))
        (broadcast (S2 N 1) (Scalar.ofBits .f32 0x2B8CBCCC#32))) hb))
      = mapRows (fun r => th (unit (addRow b r))) x := by
  rw [body_bias_unit x b h1 h2 h3 hr hφ hacc hc hb, tanh_rows]; rfl

/-- A linear tile, bias, then unit length. -/
theorem body_lin_bias_unit {K : ℕ} (d : DotDims (S2 N K) (S2 K C) (S2 N C)) (hd : Cert.LibPlainDot.Plain d)
    (x : FVec Ideal (S2 N K) .f32) (w : FVec Ideal (S2 K C) .f32) (b : FVec Ideal (S2 1 C) .f32) (h1 : (S2 N K).ShapeCasts (S2 N K))
    (h2 : (S2 1 C).ShapeCasts (S2 1 C)) (h3 : (S2 1 C).Broadcasts (S2 N C))
    (hr : (S2 N C).Reduces [1] (S1 N)) (hφ : FKind.Formats .f32) (hacc : (0x00000000#32 : BitVec 32) = FKind.add.neutral .f32 hφ)
    (hc : (S1 N).ShapeCasts (S2 N 1)) (hb : (S2 N 1).Broadcasts (S2 N C)) :
    divf (addf (matmul d none (shapeCast (S2 N K) x h1) w (constant (S2 N C) .f32 0x00000000#32)) (broadcastTo (S2 N C) (shapeCast (S2 1 C) b h2) h3))
      (broadcastTo (S2 N C) (maximumf (sqrt (shapeCast (S2 N 1) (multiReduction .add [1] (S1 N)
        (mulf (addf (matmul d none (shapeCast (S2 N K) x h1) w (constant (S2 N C) .f32 0x00000000#32)) (broadcastTo (S2 N C) (shapeCast (S2 1 C) b h2) h3))
          (addf (matmul d none (shapeCast (S2 N K) x h1) w (constant (S2 N C) .f32 0x00000000#32)) (broadcastTo (S2 N C) (shapeCast (S2 1 C) b h2) h3))) 0x00000000#32 hr hφ hacc) hc))
        (broadcast (S2 N 1) (Scalar.ofBits .f32 0x2B8CBCCC#32))) hb)
      = mapRows (fun r => unit (addRow b (lin w r))) x := by
  rw [body_lin d hd x w h1, addBias_rows, unit_rows]; rfl

end Unit

end Cert.Rows

end
-- ==== Proof.LibHostRows.lean ====
import proofs.«142825_j42417097015629_1_alg».proof.Proof.LibRows

/-!
# The host's spellings of the row-wise stages

The same stages as in `LibRows`, as a host program writes them on a whole `[N, C]` array: a `dot_general` with
the weights, a bias vector broadcast to one row and then down the rows, a host sum of squares along axis 1 kept as a
column, its square root floored by a broadcast scalar and broadcast back across the row, a host `tanh`. Each is
`mapRows` of the corresponding function of one row, whatever `N` is — so the host's whole-array stage and a
tiled stage agree row by row.
-/

noncomputable section

namespace Cert.Rows

open Idealize.ShloMosaic Idealize.ShloMosaic.ValueIdx
open scoped BigOperators

abbrev S0 : Shape := ⟨0, ![]⟩

variable {N C : ℕ}

/-- The host's product of the whole array with a weight matrix. -/
theorem host_lin {K : ℕ} (d : DotDims (S2 N K) (S2 K C) (S2 N C)) (hd : Cert.LibPlainDot.Plain d)
    (x : FVec Ideal (S2 N K) .f32) (w : FVec Ideal (S2 K C) .f32) :
    Host.dotGeneral d none x w = mapRows (lin w) x := by
  funext i
  obtain ⟨p, q, rfl⟩ : ∃ (p : Fin N) (q : Fin C), i = ix2 p q := ⟨i 0, i 1, eq_ix2 i⟩
  simp only [Host.dotGeneral]
  exact Cert.LibPlainDot.dotGeneral_apply d hd none _ x w p q

/-- The host adds a bias VECTOR, broadcast to one row and then down the rows: the same as adding the vector kept
    as a one-row matrix. -/
theorem host_bias (A : FVec Ideal (S2 N C) .f32) (b : FVec Ideal (S1 C) .f32)
    (h1 : (S1 C).BroadcastsInDim (S2 1 C) ![1]) (h2 : (S2 1 C).BroadcastsInDim (S2 N C) ![0, 1])
    (hc : (S1 C).ShapeCasts (S2 1 C)) :
    addf A (broadcastInDim (S2 N C) ![0, 1] h2 (broadcastInDim (S2 1 C) ![1] h1 b))
      = mapRows (addRow (shapeCast (S2 1 C) b hc)) A := by
  funext i
  obtain ⟨p, q, rfl⟩ : ∃ (p : Fin N) (q : Fin C), i = ix2 p q := ⟨i 0, i 1, eq_ix2 i⟩
  rw [mapRows_ix2]
  show A (ix2 p q) + broadcastInDim (S2 N C) ![0, 1] h2 (broadcastInDim (S2 1 C) ![1] h1 b) (ix2 p q)
    = A (ix2 p q) + shapeCast (S2 1 C) b hc (ix2 (0 : Fin 1) q)
  have hq : q.val = if C = 1 then 0 else q.val := by
    split
    · have := q.isLt; omega
    · rfl
  rw [shapeCast_a_1a_apply,
    broadcastInDim_apply ![0, 1] h2 _ (ix2 p q) (ix2 (0 : Fin 1) q) (fun a => by
      match a with
      | ⟨0, _⟩ => rfl
      | ⟨1, _⟩ => exact hq),
    broadcastInDim_apply ![1] h1 b (ix2 (0 : Fin 1) q) (ix1 q) (fun a => by
      match a with
      | ⟨0, _⟩ => exact hq)]

/-- The host divides every row by the larger of its norm and the floor. -/
theorem host_unit (Y : FVec Ideal (S2 N C) .f32) (hred : (S2 N C).ReducesTo [1] (S1 N)) (hr : (S2 N C).Reduces [1] (S1 N))
    (hu : 0 < S0.numel) (hb0 : (S1 N).BroadcastsInDim (S2 N 1) ![0]) (hbe : S0.BroadcastsInDim (S2 N 1) ![])
    (hb1 : (S2 N 1).BroadcastsInDim (S2 N C) ![0, 1]) :
    Host.divf Y (broadcastInDim (S2 N C) ![0, 1] hb1 (maximumf
      (Host.sqrt (broadcastInDim (S2 N 1) ![0] hb0 (Host.reduceAdd (mulf Y Y) (constant S0 .f32 0x00000000#32) hred hu)))
      (broadcastInDim (S2 N 1) ![] hbe (constant S0 .f32 0x2B8CBCCC#32)))) = mapRows unit Y := by
  funext i
  obtain ⟨p, q, rfl⟩ : ∃ (p : Fin N) (q : Fin C), i = ix2 p q := ⟨i 0, i 1, eq_ix2 i⟩
  rw [mapRows_ix2]
  have hp : p.val = if N = 1 then 0 else p.val := by
    split
    · have := p.isLt; omega
    · rfl
  show Ideal.div (Y (ix2 p q)) (broadcastInDim (s := S2 N 1) (S2 N C) ![0, 1] hb1 _ (ix2 p q)) = _
  rw [broadcastInDim_apply ![0, 1] hb1 _ (ix2 p q) (ix2 p (0 : Fin 1)) (fun a => by
      match a with
      | ⟨0, _⟩ => exact hp
      | ⟨1, _⟩ => rfl)]
  show Ideal.div (Y (ix2 p q)) (max (Ideal.sqrt (broadcastInDim (s := S1 N) (S2 N 1) ![0] hb0 _ (ix2 p (0 : Fin 1))))
    (broadcastInDim (s := S0) (S2 N 1) ![] hbe (constant (F := Ideal) S0 .f32 0x2B8CBCCC#32) (ix2 p (0 : Fin 1)))) = _
  rw [broadcastInDim_apply ![0] hb0 _ (ix2 p (0 : Fin 1)) (ix1 p) (fun a => by
      match a with
      | ⟨0, _⟩ => exact hp),
    broadcastInDim_apply ![] hbe _ (ix2 p (0 : Fin 1)) ix0 (fun a => a.elim0)]
  refine congrArg (fun s => Ideal.div (Y (ix2 p q)) (max (Ideal.sqrt s) floorNorm)) ?_
  show Ideal.hostReduceAdd hred (mulf Y Y) (Ideal.ofBits .f32 0x00000000#32) (ix1 p) = _
  rw [Ideal.hostReduceAdd_single hred hr, Ideal.ofBits_zero_f32, zero_add]
  refine Finset.sum_congr rfl fun k _ => ?_
  have e : hr.lift (ix1 p) k = ix2 p k := funext fun a => Fin.ext (by
    match a with
    | ⟨0, _⟩ => rfl
    | ⟨1, _⟩ => rfl)
  rw [e]
  rfl

/-- The host's `tanh` of the whole array. -/
theorem host_tanh (Y : FVec Ideal (S2 N C) .f32) : Host.tanh Y = mapRows (C := C) th Y := by
  funext i
  obtain ⟨p, q, rfl⟩ : ∃ (p : Fin N) (q : Fin C), i = ix2 p q := ⟨i 0, i 1, eq_ix2 i⟩
  rfl

/-- Three row-wise stages in a row are one. -/
theorem mapRows_comp3 {Ci Ca Cb : ℕ} (h : (Fin Cb → EReal) → Fin C → EReal) (g : (Fin Ca → EReal) → Fin Cb → EReal)
    (f : (Fin Ci → EReal) → Fin Ca → EReal) (A : (S2 N Ci).Idx → EReal) :
    mapRows h (mapRows g (mapRows f A)) = mapRows (fun r => h (g (f r))) A := rfl

end Cert.Rows

end
-- ==== Proof.RefStages.lean ====
import proofs.«142825_j42417097015629_1_alg».proof.Proof.RefReadP
import proofs.«142825_j42417097015629_1_alg».proof.Proof.LibHostRows

/-!
# The reference program's dense stages, row by row

Between two message-passing steps the reference applies, to the whole `[200000, C]` array, a product with a weight
matrix, or a bias followed by some of: scaling every row to unit length, `tanh`. Each of these results is
`mapRows` of a function of one row applied to the stage's operand — the operand itself (an aggregate of messages, or
the previous stage) is left as it is.
-/

set_option maxRecDepth 16384

noncomputable section

namespace Cert.ReferenceIdeal.Stages

open Cert.ReferenceIdeal Cert.ReferenceIdeal.ReadP Idealize.ShloMosaic Idealize.ShloMosaic.ValueIdx
open Cert.Rows

/-- Layer 1's product with the weights. -/
theorem lin1 (x0 : (⟨S200000x3, .f32⟩ : BufTy).Contents (Elt Ideal)) (x2 : (⟨S3x6, .f32⟩ : BufTy).Contents (Elt Ideal)) :
    val_main_v30 (F := Ideal) x0 x2 = mapRows (lin x2) x0 := by
  unfold val_main_v30
  exact host_lin dot_S200000x3_S3x6_S200000x6_1_0_0_1_n_n ⟨rfl, rfl, rfl, rfl, rfl, rfl⟩ x0 x2

/-- Layer 1 closes with the bias and `tanh`. -/
theorem close1 (x0 : (⟨S200000x3, .f32⟩ : BufTy).Contents (Elt Ideal)) (x1 : (⟨S2x6400000, .i32⟩ : BufTy).Contents (Elt Ideal)) (x2 : (⟨S3x6, .f32⟩ : BufTy).Contents (Elt Ideal)) (x3 : (⟨S6, .f32⟩ : BufTy).Contents (Elt Ideal)) (hc : S6.ShapeCasts S1x6) :
    val_main_v47 (F := Ideal) x0 x1 x2 x3
      = mapRows (fun r => th (addRow (shapeCast S1x6 x3 hc) r)) (val_main_v43 (F := Ideal) x0 x1 x2) := by
  unfold val_main_v47 val_main_v46 val_main_v45 val_main_v44
  generalize val_main_v43 (F := Ideal) x0 x1 x2 = Y
  rw [host_bias Y x3 _ _ hc, host_tanh]
  exact mapRows_comp th (addRow (shapeCast S1x6 x3 hc)) Y

/-- Layer 2's product with the weights. -/
theorem lin2 (x0 : (⟨S200000x3, .f32⟩ : BufTy).Contents (Elt Ideal)) (x1 : (⟨S2x6400000, .i32⟩ : BufTy).Contents (Elt Ideal)) (x2 : (⟨S3x6, .f32⟩ : BufTy).Contents (Elt Ideal)) (x3 : (⟨S6, .f32⟩ : BufTy).Contents (Elt Ideal)) (x4 : (⟨S6x12, .f32⟩ : BufTy).Contents (Elt Ideal)) :
    val_main_v74 (F := Ideal) x0 x1 x2 x3 x4 = mapRows (lin x4) (val_main_v47 (F := Ideal) x0 x1 x2 x3) := by
  unfold val_main_v74
  generalize val_main_v47 (F := Ideal) x0 x1 x2 x3 = Y
  exact host_lin dot_S200000x6_S6x12_S200000x12_1_0_0_1_n_n ⟨rfl, rfl, rfl, rfl, rfl, rfl⟩ Y x4

/-- Layer 2 closes with the bias, unit length and `tanh`. -/
theorem close2 (x0 : (⟨S200000x3, .f32⟩ : BufTy).Contents (Elt Ideal)) (x1 : (⟨S2x6400000, .i32⟩ : BufTy).Contents (Elt Ideal)) (x2 : (⟨S3x6, .f32⟩ : BufTy).Contents (Elt Ideal)) (x3 : (⟨S6, .f32⟩ : BufTy).Contents (Elt Ideal)) (x4 : (⟨S6x12, .f32⟩ : BufTy).Contents (Elt Ideal)) (x5 : (⟨S12, .f32⟩ : BufTy).Contents (Elt Ideal)) (hc : S12.ShapeCasts S1x12) :
    val_main_v96 (F := Ideal) x0 x1 x2 x3 x4 x5
      = mapRows (fun r => th (unit (addRow (shapeCast S1x12 x5 hc) r))) (val_main_v87 (F := Ideal) x0 x1 x2 x3 x4) := by
  unfold val_main_v96 val_main_v95 val_main_v94 val_main_v93 val_main_v92 val_main_cst_20 val_main_v91 val_main_call2_v2
    val_main_call2_v1 val_main_call2_cst val_main_call2_v0 val_main_v90 val_main_v89 val_main_v88
  generalize val_main_v87 (F := Ideal) x0 x1 x2 x3 x4 = Y
  rw [host_bias Y x5 _ _ hc, host_unit _ _ (by decide), host_tanh]
  exact mapRows_comp3 th unit (addRow (shapeCast S1x12 x5 hc)) Y

/-- Layer 3's product with the weights. -/
theorem lin3 (x0 : (⟨S200000x3, .f32⟩ : BufTy).Contents (Elt Ideal)) (x1 : (⟨S2x6400000, .i32⟩ : BufTy).Contents (Elt Ideal)) (x2 : (⟨S3x6, .f32⟩ : BufTy).Contents (Elt Ideal)) (x3 : (⟨S6, .f32⟩ : BufTy).Contents (Elt Ideal)) (x4 : (⟨S6x12, .f32⟩ : BufTy).Contents (Elt Ideal)) (x5 : (⟨S12, .f32⟩ : BufTy).Contents (Elt Ideal)) (x6 : (⟨S12x24, .f32⟩ : BufTy).Contents (Elt Ideal)) :
    val_main_v123 (F := Ideal) x0 x1 x2 x3 x4 x5 x6 = mapRows (lin x6) (val_main_v96 (F := Ideal) x0 x1 x2 x3 x4 x5) := by
  unfold val_main_v123
  generalize val_main_v96 (F := Ideal) x0 x1 x2 x3 x4 x5 = Y
  exact host_lin dot_S200000x12_S12x24_S200000x24_1_0_0_1_n_n ⟨rfl, rfl, rfl, rfl, rfl, rfl⟩ Y x6

/-- Layer 3 closes with the bias and unit length. -/
theorem close3 (x0 : (⟨S200000x3, .f32⟩ : BufTy).Contents (Elt Ideal)) (x1 : (⟨S2x6400000, .i32⟩ : BufTy).Contents (Elt Ideal)) (x2 : (⟨S3x6, .f32⟩ : BufTy).Contents (Elt Ideal)) (x3 : (⟨S6, .f32⟩ : BufTy).Contents (Elt Ideal)) (x4 : (⟨S6x12, .f32⟩ : BufTy).Contents (Elt Ideal)) (x5 : (⟨S12, .f32⟩ : BufTy).Contents (Elt Ideal)) (x6 : (⟨S12x24, .f32⟩ : BufTy).Contents (Elt Ideal)) (x7 : (⟨S24, .f32⟩ : BufTy).Contents (Elt Ideal)) (hc : S24.ShapeCasts S1x24) :
    val_main_v144 (F := Ideal) x0 x1 x2 x3 x4 x5 x6 x7
      = mapRows (fun r => unit (addRow (shapeCast S1x24 x7 hc) r)) (val_main_v136 (F := Ideal) x0 x1 x2 x3 x4 x5 x6) := by
  unfold val_main_v144 val_main_v143 val_main_v142 val_main_v141 val_main_cst_32 val_main_v140 val_main_call4_v2
    val_main_call4_v1 val_main_call4_cst val_main_call4_v0 val_main_v139 val_main_v138 val_main_v137
  generalize val_main_v136 (F := Ideal) x0 x1 x2 x3 x4 x5 x6 = Y
  rw [host_bias Y x7 _ _ hc, host_unit _ _ (by decide)]
  exact mapRows_comp unit (addRow (shapeCast S1x24 x7 hc)) Y

/-- The classifier: weights, bias, unit length. -/
theorem classify (x0 : (⟨S200000x3, .f32⟩ : BufTy).Contents (Elt Ideal)) (x1 : (⟨S2x6400000, .i32⟩ : BufTy).Contents (Elt Ideal)) (x2 : (⟨S3x6, .f32⟩ : BufTy).Contents (Elt Ideal)) (x3 : (⟨S6, .f32⟩ : BufTy).Contents (Elt Ideal)) (x4 : (⟨S6x12, .f32⟩ : BufTy).Contents (Elt Ideal)) (x5 : (⟨S12, .f32⟩ : BufTy).Contents (Elt Ideal)) (x6 : (⟨S12x24, .f32⟩ : BufTy).Contents (Elt Ideal)) (x7 : (⟨S24, .f32⟩ : BufTy).Contents (Elt Ideal)) (x8 : (⟨S24x13, .f32⟩ : BufTy).Contents (Elt Ideal)) (x9 : (⟨S13, .f32⟩ : BufTy).Contents (Elt Ideal)) (hc : S13.ShapeCasts S1x13) :
    val_main_v153 (F := Ideal) x0 x1 x2 x3 x4 x5 x6 x7 x8 x9
      = mapRows (fun r => unit (addRow (shapeCast S1x13 x9 hc) (lin x8 r))) (val_main_v144 (F := Ideal) x0 x1 x2 x3 x4 x5 x6 x7) := by
  unfold val_main_v153 val_main_v152 val_main_v151 val_main_v150 val_main_cst_33 val_main_v149 val_main_call5_v2
    val_main_call5_v1 val_main_call5_cst val_main_call5_v0 val_main_v148 val_main_v147 val_main_v146 val_main_v145
  generalize val_main_v144 (F := Ideal) x0 x1 x2 x3 x4 x5 x6 x7 = Y
  rw [host_lin dot_S200000x24_S24x13_S200000x13_1_0_0_1_n_n ⟨rfl, rfl, rfl, rfl, rfl, rfl⟩ Y x8, host_bias _ x9 _ _ hc,
    host_unit _ _ (by decide)]
  exact mapRows_comp3 unit (addRow (shapeCast S1x13 x9 hc)) (lin x8) Y

end Cert.ReferenceIdeal.Stages

end
-- ==== Proof.RefEdges.lean ====
import proofs.«142825_j42417097015629_1_alg».proof.Proof.RefReadP

/-!
# The reference's edge data is the same in every layer

The reference rebuilds, in each of its three layers, the two endpoint lists with the self-loops appended, the
degrees, and the symmetric edge weights, from the edge-list argument alone and by the same operations: the three
copies are the same terms.
-/

set_option maxRecDepth 65536

noncomputable section

namespace Cert.ReferenceIdeal.Stages

open Cert.ReferenceIdeal Cert.ReferenceIdeal.ReadP Idealize.ShloMosaic

/-- The reference recomputes the edge lists and the edge weights in every layer: the same terms each time. -/
theorem src2 (x1 : (⟨S2x6400000, .i32⟩ : BufTy).Contents (Elt Ideal)) : val_main_v49 (F := Ideal) x1 = val_main_v5 (F := Ideal) x1 := rfl
theorem dst2 (x1 : (⟨S2x6400000, .i32⟩ : BufTy).Contents (Elt Ideal)) : val_main_v50 (F := Ideal) x1 = val_main_v6 (F := Ideal) x1 := rfl
theorem src3 (x1 : (⟨S2x6400000, .i32⟩ : BufTy).Contents (Elt Ideal)) : val_main_v98 (F := Ideal) x1 = val_main_v5 (F := Ideal) x1 := rfl
theorem dst3 (x1 : (⟨S2x6400000, .i32⟩ : BufTy).Contents (Elt Ideal)) : val_main_v99 (F := Ideal) x1 = val_main_v6 (F := Ideal) x1 := rfl
theorem wgt2 (x1 : (⟨S2x6400000, .i32⟩ : BufTy).Contents (Elt Ideal)) : val_main_v73 (F := Ideal) x1 = val_main_v29 (F := Ideal) x1 := rfl
theorem wgt3 (x1 : (⟨S2x6400000, .i32⟩ : BufTy).Contents (Elt Ideal)) : val_main_v122 (F := Ideal) x1 = val_main_v29 (F := Ideal) x1 := rfl

end Cert.ReferenceIdeal.Stages

end
-- ==== Proof.Tile0.lean ====
import proofs.«142825_j42417097015629_1_alg».proof.Proof.Gen.KernelIdeal.Frame
import proofs.«142825_j42417097015629_1_alg».proof.Proof.LibRows

/-!
# The first linear region

Eight tiles of 25000 rows of the node features, each multiplied by the 3 × 6 weight matrix: the result array is the
product of the whole feature array with the weights, row by row.
-/

set_option maxRecDepth 16384

noncomputable section

namespace Cert.KernelIdeal.Tile0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Rows

variable (V : (c : Dev nD) → (b : Ref sig .tc) → Buf (Elt Ideal) ((c : Thread nD τ).loc b))

theorem hz : (![0, 0] : Fin 2 → Nat) = fun _ => 0 := funext fun a => by fin_cases a <;> rfl

theorem lt8 (t : Fin cfg0.N) : t.val < 8 := lt_of_lt_of_eq t.isLt N_0

theorem row_lt (t : Fin cfg0.N) (p : Fin 25000) : t.val * 25000 + p.val < 200000 := by
  have := lt8 t; have := p.isLt; omega

/-- The index maps over the grid: the row tiles move with the point, the parameters stay. -/
theorem idx : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The operand tile at point `t` is rows `25000 t …` of the operand array. -/
theorem tile_in (c : Dev nD) (t : Fin cfg0.N) (p : Fin 25000) (q : Fin 3) :
    iblk0 V c 0 t (ix2 p q) = V c main_arg0 (ix2 ⟨t.val * 25000 + p.val, row_lt t p⟩ q) := by
  show V c main_arg0 (((cfg0.win 0).blk t).view.emb (ix2 p q)) = _
  refine congrArg (V c main_arg0) (funext fun a => Fin.ext ?_)
  obtain ⟨e0, e1, e2, e3, e4, e5⟩ := idx t
  match a with
  | ⟨0, _⟩ => show win0_0.index t (0 : Fin 2) * 25000 + 1 * p.val = t.val * 25000 + p.val; rw [e0]; omega
  | ⟨1, _⟩ => show win0_0.index t (1 : Fin 2) * 3 + 1 * q.val = q.val; rw [e1]; omega

/-- Parameter window 1 is its whole array at every point. -/
theorem whole_1 (c : Dev nD) (t : Fin cfg0.N) : iblk0 V c 1 t = V c main_arg2 := by
  funext y
  obtain ⟨p, q, rfl⟩ : ∃ (p : Fin 3) (q : Fin 6), y = ix2 p q := ⟨y 0, y 1, eq_ix2 y⟩
  show V c main_arg2 (((cfg0.win 1).blk t).view.emb (ix2 p q)) = _
  refine congrArg (V c main_arg2) (funext fun a => Fin.ext ?_)
  obtain ⟨e0, e1, e2, e3, e4, e5⟩ := idx t
  match a with
  | ⟨0, _⟩ => show win0_1.index t (0 : Fin 2) * 3 + 1 * p.val = p.val; rw [e2]; omega
  | ⟨1, _⟩ => show win0_1.index t (1 : Fin 2) * 6 + 1 * q.val = q.val; rw [e3]; omega

/-- Where the result tile's entry `(p, q)` sits in the result array. -/
theorem tile_out (t : Fin cfg0.N) (p : Fin 25000) (q : Fin 6) :
    ((cfg0.win 2).blk t).view.emb (ix2 p q) = ix2 ⟨t.val * 25000 + p.val, row_lt t p⟩ q := by
  funext a
  apply Fin.ext
  obtain ⟨e0, e1, e2, e3, e4, e5⟩ := idx t
  match a with
  | ⟨0, _⟩ => show win0_2.index t (0 : Fin 2) * 25000 + 1 * p.val = t.val * 25000 + p.val; rw [e4]; omega
  | ⟨1, _⟩ => show win0_2.index t (1 : Fin 2) * 6 + 1 * q.val = q.val; rw [e5]; omega

/-- The tile body is a row-wise stage. -/
theorem body (x : Vec Ideal S25000x3 .f32) (y1 : Vec Ideal S3x6 .f32) :
    k0_pay1 x y1 = mapRows (lin y1) x := by
  unfold k0_pay1
  exact matmul_rows dot_S25000x3_S3x6_S25000x6_1_0_0_1_n_n ⟨rfl, rfl, rfl, rfl, rfl, rfl⟩ x y1

/-- What point `t` writes back is tile `t` of the stage applied to the whole operand array. -/
theorem flushed_eq (c : Dev nD) (t : Fin cfg0.N) :
    (dat0 V c).flushed 2 t = ((cfg0.win 2).blk t).view.read (Elt Ideal)
      (mapRows (lin (V c main_arg2)) (V c main_arg0)) := by
  show (cfg0.win 2).cut (grid0.coords t) ((dat0 V c).after 2 t) = _
  rw [after0_2]
  unfold out0_2
  rw [View.canon_unit_zero hz]
  simp only [View.ld_unit_zero (S := S25000x3) hz, View.ld_unit_zero (S := S3x6) hz]
  rw [body]
  funext j
  obtain ⟨p, q, rfl⟩ : ∃ (p : Fin 25000) (q : Fin 6), j = ix2 p q := ⟨j 0, j 1, eq_ix2 j⟩
  show mapRows (lin (iblk0 V c 1 t)) (iblk0 V c 0 t) (ix2 p q)
    = mapRows (lin (V c main_arg2)) (V c main_arg0) (((cfg0.win 2).blk t).view.emb (ix2 p q))
  rw [tile_out t p q, whole_1 V c t]
  exact mapRows_tile _ (V c main_arg0) (iblk0 V c 0 t) (t.val * 25000) (row_lt t) (tile_in V c t) p q

/-- Every row of the result array lies in the tile of the point `row / 25000`. -/
theorem cover (i : S200000x6.Idx) : ∃ t : Fin cfg0.N, (cfg0.win 2).flush t = true ∧ i ∈ ((cfg0.win 2).blk t).view.set := by
  have hi0 : (i 0).val < 200000 := (i 0).isLt
  have hi1 : (i 1).val < 6 := (i 1).isLt
  have ht : (i 0).val / 25000 < cfg0.N := lt_of_lt_of_eq (by omega : (i 0).val / 25000 < 8) N_0.symm
  refine ⟨⟨(i 0).val / 25000, ht⟩, flush0_2 _, ?_⟩
  show i ∈ ((View.whole main_v30).slice (win0_2.rect ⟨(i 0).val / 25000, ht⟩)).set
  rw [View.set_slice_whole, Rect.mem_set_unit]
  obtain ⟨e0, e1, e2, e3, e4, e5⟩ := idx ⟨(i 0).val / 25000, ht⟩
  intro a
  match a with
  | ⟨0, _⟩ =>
    show win0_2.index ⟨(i 0).val / 25000, ht⟩ (0 : Fin 2) * 25000 ≤ (i 0).val ∧ (i 0).val < win0_2.index ⟨(i 0).val / 25000, ht⟩ (0 : Fin 2) * 25000 + 25000
    rw [e4]; show (i 0).val / 25000 * 25000 ≤ (i 0).val ∧ (i 0).val < (i 0).val / 25000 * 25000 + 25000; omega
  | ⟨1, _⟩ =>
    show win0_2.index ⟨(i 0).val / 25000, ht⟩ (1 : Fin 2) * 6 ≤ (i 1).val ∧ (i 1).val < win0_2.index ⟨(i 0).val / 25000, ht⟩ (1 : Fin 2) * 6 + 6
    rw [e5]; omega

/-- THE RESULT ARRAY after the region: the stage applied to every row of the operand array as the region found it. -/
theorem final (c : Dev nD) : (dat0 V c).arrAt 2 cfg0.N
    = mapRows (lin (V c main_arg2)) (V c main_arg0) :=
  (dat0 V c).arrAt_eq_of_cover 2 _ (fun t _ => flushed_eq V c t) cover

end Cert.KernelIdeal.Tile0

end
-- ==== Proof.Tile1.lean ====
import proofs.«142825_j42417097015629_1_alg».proof.Proof.Gen.KernelIdeal.Frame
import proofs.«142825_j42417097015629_1_alg».proof.Proof.LibRows

/-!
# The first layer's closing region

Eight tiles of 25000 rows of the aggregated messages; each row gets the bias row added and `tanh` applied entry by
entry. The result array is that stage applied to every row of the aggregate.
-/

set_option maxRecDepth 16384

noncomputable section

namespace Cert.KernelIdeal.Tile1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Rows

variable (V : (c : Dev nD) → (b : Ref sig .tc) → Buf (Elt Ideal) ((c : Thread nD τ).loc b))

theorem hz : (![0, 0] : Fin 2 → Nat) = fun _ => 0 := funext fun a => by fin_cases a <;> rfl

theorem lt8 (t : Fin cfg1.N) : t.val < 8 := lt_of_lt_of_eq t.isLt N_1

theorem row_lt (t : Fin cfg1.N) (p : Fin 25000) : t.val * 25000 + p.val < 200000 := by
  have := lt8 t; have := p.isLt; omega

/-- The index maps over the grid: the row tiles move with the point, the parameters stay. -/
theorem idx : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- The operand tile at point `t` is rows `25000 t …` of the operand array. -/
theorem tile_in (c : Dev nD) (t : Fin cfg1.N) (p : Fin 25000) (q : Fin 6) :
    iblk1 V c 0 t (ix2 p q) = V c main_v43 (ix2 ⟨t.val * 25000 + p.val, row_lt t p⟩ q) := by
  show V c main_v43 (((cfg1.win 0).blk t).view.emb (ix2 p q)) = _
  refine congrArg (V c main_v43) (funext fun a => Fin.ext ?_)
  obtain ⟨e0, e1, e2, e3, e4, e5⟩ := idx t
  match a with
  | ⟨0, _⟩ => show win1_0.index t (0 : Fin 2) * 25000 + 1 * p.val = t.val * 25000 + p.val; rw [e0]; omega
  | ⟨1, _⟩ => show win1_0.index t (1 : Fin 2) * 6 + 1 * q.val = q.val; rw [e1]; omega

/-- Parameter window 1 is its whole array at every point. -/
theorem whole_1 (c : Dev nD) (t : Fin cfg1.N) : iblk1 V c 1 t = V c main_v44 := by
  funext y
  obtain ⟨p, q, rfl⟩ : ∃ (p : Fin 1) (q : Fin 6), y = ix2 p q := ⟨y 0, y 1, eq_ix2 y⟩
  show V c main_v44 (((cfg1.win 1).blk t).view.emb (ix2 p q)) = _
  refine congrArg (V c main_v44) (funext fun a => Fin.ext ?_)
  obtain ⟨e0, e1, e2, e3, e4, e5⟩ := idx t
  match a with
  | ⟨0, _⟩ => show win1_1.index t (0 : Fin 2) * 1 + 1 * p.val = p.val; rw [e2]; omega
  | ⟨1, _⟩ => show win1_1.index t (1 : Fin 2) * 6 + 1 * q.val = q.val; rw [e3]; omega

/-- Where the result tile's entry `(p, q)` sits in the result array. -/
theorem tile_out (t : Fin cfg1.N) (p : Fin 25000) (q : Fin 6) :
    ((cfg1.win 2).blk t).view.emb (ix2 p q) = ix2 ⟨t.val * 25000 + p.val, row_lt t p⟩ q := by
  funext a
  apply Fin.ext
  obtain ⟨e0, e1, e2, e3, e4, e5⟩ := idx t
  match a with
  | ⟨0, _⟩ => show win1_2.index t (0 : Fin 2) * 25000 + 1 * p.val = t.val * 25000 + p.val; rw [e4]; omega
  | ⟨1, _⟩ => show win1_2.index t (1 : Fin 2) * 6 + 1 * q.val = q.val; rw [e5]; omega

/-- The tile body is a row-wise stage. -/
theorem body (x : Vec Ideal S25000x6 .f32) (y1 : Vec Ideal S1x6 .f32) :
    k1_pay1 x y1 = mapRows (fun r => th (addRow y1 r)) x := by
  unfold k1_pay1
  exact body_bias_tanh x y1 _ _ _

/-- What point `t` writes back is tile `t` of the stage applied to the whole operand array. -/
theorem flushed_eq (c : Dev nD) (t : Fin cfg1.N) :
    (dat1 V c).flushed 2 t = ((cfg1.win 2).blk t).view.read (Elt Ideal)
      (mapRows (fun r => th (addRow (V c main_v44) r)) (V c main_v43)) := by
  show (cfg1.win 2).cut (grid1.coords t) ((dat1 V c).after 2 t) = _
  rw [after1_2]
  unfold out1_2
  rw [View.canon_unit_zero hz]
  simp only [View.ld_unit_zero (S := S25000x6) hz, View.ld_unit_zero (S := S1x6) hz]
  rw [body]
  funext j
  obtain ⟨p, q, rfl⟩ : ∃ (p : Fin 25000) (q : Fin 6), j = ix2 p q := ⟨j 0, j 1, eq_ix2 j⟩
  show mapRows (fun r => th (addRow (iblk1 V c 1 t) r)) (iblk1 V c 0 t) (ix2 p q)
    = mapRows (fun r => th (addRow (V c main_v44) r)) (V c main_v43) (((cfg1.win 2).blk t).view.emb (ix2 p q))
  rw [tile_out t p q, whole_1 V c t]
  exact mapRows_tile _ (V c main_v43) (iblk1 V c 0 t) (t.val * 25000) (row_lt t) (tile_in V c t) p q

/-- Every row of the result array lies in the tile of the point `row / 25000`. -/
theorem cover (i : S200000x6.Idx) : ∃ t : Fin cfg1.N, (cfg1.win 2).flush t = true ∧ i ∈ ((cfg1.win 2).blk t).view.set := by
  have hi0 : (i 0).val < 200000 := (i 0).isLt
  have hi1 : (i 1).val < 6 := (i 1).isLt
  have ht : (i 0).val / 25000 < cfg1.N := lt_of_lt_of_eq (by omega : (i 0).val / 25000 < 8) N_1.symm
  refine ⟨⟨(i 0).val / 25000, ht⟩, flush1_2 _, ?_⟩
  show i ∈ ((View.whole main_v45).slice (win1_2.rect ⟨(i 0).val / 25000, ht⟩)).set
  rw [View.set_slice_whole, Rect.mem_set_unit]
  obtain ⟨e0, e1, e2, e3, e4, e5⟩ := idx ⟨(i 0).val / 25000, ht⟩
  intro a
  match a with
  | ⟨0, _⟩ =>
    show win1_2.index ⟨(i 0).val / 25000, ht⟩ (0 : Fin 2) * 25000 ≤ (i 0).val ∧ (i 0).val < win1_2.index ⟨(i 0).val / 25000, ht⟩ (0 : Fin 2) * 25000 + 25000
    rw [e4]; show (i 0).val / 25000 * 25000 ≤ (i 0).val ∧ (i 0).val < (i 0).val / 25000 * 25000 + 25000; omega
  | ⟨1, _⟩ =>
    show win1_2.index ⟨(i 0).val / 25000, ht⟩ (1 : Fin 2) * 6 ≤ (i 1).val ∧ (i 1).val < win1_2.index ⟨(i 0).val / 25000, ht⟩ (1 : Fin 2) * 6 + 6
    rw [e5]; omega

/-- THE RESULT ARRAY after the region: the stage applied to every row of the operand array as the region found it. -/
theorem final (c : Dev nD) : (dat1 V c).arrAt 2 cfg1.N
    = mapRows (fun r => th (addRow (V c main_v44) r)) (V c main_v43) :=
  (dat1 V c).arrAt_eq_of_cover 2 _ (fun t _ => flushed_eq V c t) cover

end Cert.KernelIdeal.Tile1

end
-- ==== Proof.Tile2.lean ====
import proofs.«142825_j42417097015629_1_alg».proof.Proof.Gen.KernelIdeal.Frame
import proofs.«142825_j42417097015629_1_alg».proof.Proof.LibRows

/-!
# The second linear region

Eight tiles of 25000 rows of the first layer's output, each multiplied by the 6 × 12 weight matrix.
-/

set_option maxRecDepth 16384

noncomputable section

namespace Cert.KernelIdeal.Tile2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Rows

variable (V : (c : Dev nD) → (b : Ref sig .tc) → Buf (Elt Ideal) ((c : Thread nD τ).loc b))

theorem hz : (![0, 0] : Fin 2 → Nat) = fun _ => 0 := funext fun a => by fin_cases a <;> rfl

theorem lt8 (t : Fin cfg2.N) : t.val < 8 := lt_of_lt_of_eq t.isLt N_2

theorem row_lt (t : Fin cfg2.N) (p : Fin 25000) : t.val * 25000 + p.val < 200000 := by
  have := lt8 t; have := p.isLt; omega

/-- The index maps over the grid: the row tiles move with the point, the parameters stay. -/
theorem idx : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- The operand tile at point `t` is rows `25000 t …` of the operand array. -/
theorem tile_in (c : Dev nD) (t : Fin cfg2.N) (p : Fin 25000) (q : Fin 6) :
    iblk2 V c 0 t (ix2 p q) = V c main_v45 (ix2 ⟨t.val * 25000 + p.val, row_lt t p⟩ q) := by
  show V c main_v45 (((cfg2.win 0).blk t).view.emb (ix2 p q)) = _
  refine congrArg (V c main_v45) (funext fun a => Fin.ext ?_)
  obtain ⟨e0, e1, e2, e3, e4, e5⟩ := idx t
  match a with
  | ⟨0, _⟩ => show win2_0.index t (0 : Fin 2) * 25000 + 1 * p.val = t.val * 25000 + p.val; rw [e0]; omega
  | ⟨1, _⟩ => show win2_0.index t (1 : Fin 2) * 6 + 1 * q.val = q.val; rw [e1]; omega

/-- Parameter window 1 is its whole array at every point. -/
theorem whole_1 (c : Dev nD) (t : Fin cfg2.N) : iblk2 V c 1 t = V c main_arg4 := by
  funext y
  obtain ⟨p, q, rfl⟩ : ∃ (p : Fin 6) (q : Fin 12), y = ix2 p q := ⟨y 0, y 1, eq_ix2 y⟩
  show V c main_arg4 (((cfg2.win 1).blk t).view.emb (ix2 p q)) = _
  refine congrArg (V c main_arg4) (funext fun a => Fin.ext ?_)
  obtain ⟨e0, e1, e2, e3, e4, e5⟩ := idx t
  match a with
  | ⟨0, _⟩ => show win2_1.index t (0 : Fin 2) * 6 + 1 * p.val = p.val; rw [e2]; omega
  | ⟨1, _⟩ => show win2_1.index t (1 : Fin 2) * 12 + 1 * q.val = q.val; rw [e3]; omega

/-- Where the result tile's entry `(p, q)` sits in the result array. -/
theorem tile_out (t : Fin cfg2.N) (p : Fin 25000) (q : Fin 12) :
    ((cfg2.win 2).blk t).view.emb (ix2 p q) = ix2 ⟨t.val * 25000 + p.val, row_lt t p⟩ q := by
  funext a
  apply Fin.ext
  obtain ⟨e0, e1, e2, e3, e4, e5⟩ := idx t
  match a with
  | ⟨0, _⟩ => show win2_2.index t (0 : Fin 2) * 25000 + 1 * p.val = t.val * 25000 + p.val; rw [e4]; omega
  | ⟨1, _⟩ => show win2_2.index t (1 : Fin 2) * 12 + 1 * q.val = q.val; rw [e5]; omega

/-- The tile body is a row-wise stage. -/
theorem body (x : Vec Ideal S25000x6 .f32) (y1 : Vec Ideal S6x12 .f32) :
    k2_pay1 x y1 = mapRows (lin y1) x := by
  unfold k2_pay1
  exact body_lin dot_S25000x6_S6x12_S25000x12_1_0_0_1_n_n ⟨rfl, rfl, rfl, rfl, rfl, rfl⟩ x y1 _

/-- What point `t` writes back is tile `t` of the stage applied to the whole operand array. -/
theorem flushed_eq (c : Dev nD) (t : Fin cfg2.N) :
    (dat2 V c).flushed 2 t = ((cfg2.win 2).blk t).view.read (Elt Ideal)
      (mapRows (lin (V c main_arg4)) (V c main_v45)) := by
  show (cfg2.win 2).cut (grid2.coords t) ((dat2 V c).after 2 t) = _
  rw [after2_2]
  unfold out2_2
  rw [View.canon_unit_zero hz]
  simp only [View.ld_unit_zero (S := S25000x6) hz, View.ld_unit_zero (S := S6x12) hz]
  rw [body]
  funext j
  obtain ⟨p, q, rfl⟩ : ∃ (p : Fin 25000) (q : Fin 12), j = ix2 p q := ⟨j 0, j 1, eq_ix2 j⟩
  show mapRows (lin (iblk2 V c 1 t)) (iblk2 V c 0 t) (ix2 p q)
    = mapRows (lin (V c main_arg4)) (V c main_v45) (((cfg2.win 2).blk t).view.emb (ix2 p q))
  rw [tile_out t p q, whole_1 V c t]
  exact mapRows_tile _ (V c main_v45) (iblk2 V c 0 t) (t.val * 25000) (row_lt t) (tile_in V c t) p q

/-- Every row of the result array lies in the tile of the point `row / 25000`. -/
theorem cover (i : S200000x12.Idx) : ∃ t : Fin cfg2.N, (cfg2.win 2).flush t = true ∧ i ∈ ((cfg2.win 2).blk t).view.set := by
  have hi0 : (i 0).val < 200000 := (i 0).isLt
  have hi1 : (i 1).val < 12 := (i 1).isLt
  have ht : (i 0).val / 25000 < cfg2.N := lt_of_lt_of_eq (by omega : (i 0).val / 25000 < 8) N_2.symm
  refine ⟨⟨(i 0).val / 25000, ht⟩, flush2_2 _, ?_⟩
  show i ∈ ((View.whole main_v46).slice (win2_2.rect ⟨(i 0).val / 25000, ht⟩)).set
  rw [View.set_slice_whole, Rect.mem_set_unit]
  obtain ⟨e0, e1, e2, e3, e4, e5⟩ := idx ⟨(i 0).val / 25000, ht⟩
  intro a
  match a with
  | ⟨0, _⟩ =>
    show win2_2.index ⟨(i 0).val / 25000, ht⟩ (0 : Fin 2) * 25000 ≤ (i 0).val ∧ (i 0).val < win2_2.index ⟨(i 0).val / 25000, ht⟩ (0 : Fin 2) * 25000 + 25000
    rw [e4]; show (i 0).val / 25000 * 25000 ≤ (i 0).val ∧ (i 0).val < (i 0).val / 25000 * 25000 + 25000; omega
  | ⟨1, _⟩ =>
    show win2_2.index ⟨(i 0).val / 25000, ht⟩ (1 : Fin 2) * 12 ≤ (i 1).val ∧ (i 1).val < win2_2.index ⟨(i 0).val / 25000, ht⟩ (1 : Fin 2) * 12 + 12
    rw [e5]; omega

/-- THE RESULT ARRAY after the region: the stage applied to every row of the operand array as the region found it. -/
theorem final (c : Dev nD) : (dat2 V c).arrAt 2 cfg2.N
    = mapRows (lin (V c main_arg4)) (V c main_v45) :=
  (dat2 V c).arrAt_eq_of_cover 2 _ (fun t _ => flushed_eq V c t) cover

end Cert.KernelIdeal.Tile2

end
-- ==== Proof.Tile3.lean ====
import proofs.«142825_j42417097015629_1_alg».proof.Proof.Gen.KernelIdeal.Frame
import proofs.«142825_j42417097015629_1_alg».proof.Proof.LibRows

/-!
# The second layer's closing region

Each row of the aggregate gets the bias row added, is divided by the larger of its Euclidean norm and the floor, and
goes through `tanh` entry by entry.
-/

set_option maxRecDepth 16384

noncomputable section

namespace Cert.KernelIdeal.Tile3

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Rows

variable (V : (c : Dev nD) → (b : Ref sig .tc) → Buf (Elt Ideal) ((c : Thread nD τ).loc b))

theorem hz : (![0, 0] : Fin 2 → Nat) = fun _ => 0 := funext fun a => by fin_cases a <;> rfl

theorem lt8 (t : Fin cfg3.N) : t.val < 8 := lt_of_lt_of_eq t.isLt N_3

theorem row_lt (t : Fin cfg3.N) (p : Fin 25000) : t.val * 25000 + p.val < 200000 := by
  have := lt8 t; have := p.isLt; omega

/-- The index maps over the grid: the row tiles move with the point, the parameters stay. -/
theorem idx : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- The operand tile at point `t` is rows `25000 t …` of the operand array. -/
theorem tile_in (c : Dev nD) (t : Fin cfg3.N) (p : Fin 25000) (q : Fin 12) :
    iblk3 V c 0 t (ix2 p q) = V c main_v59 (ix2 ⟨t.val * 25000 + p.val, row_lt t p⟩ q) := by
  show V c main_v59 (((cfg3.win 0).blk t).view.emb (ix2 p q)) = _
  refine congrArg (V c main_v59) (funext fun a => Fin.ext ?_)
  obtain ⟨e0, e1, e2, e3, e4, e5⟩ := idx t
  match a with
  | ⟨0, _⟩ => show win3_0.index t (0 : Fin 2) * 25000 + 1 * p.val = t.val * 25000 + p.val; rw [e0]; omega
  | ⟨1, _⟩ => show win3_0.index t (1 : Fin 2) * 12 + 1 * q.val = q.val; rw [e1]; omega

/-- Parameter window 1 is its whole array at every point. -/
theorem whole_1 (c : Dev nD) (t : Fin cfg3.N) : iblk3 V c 1 t = V c main_v60 := by
  funext y
  obtain ⟨p, q, rfl⟩ : ∃ (p : Fin 1) (q : Fin 12), y = ix2 p q := ⟨y 0, y 1, eq_ix2 y⟩
  show V c main_v60 (((cfg3.win 1).blk t).view.emb (ix2 p q)) = _
  refine congrArg (V c main_v60) (funext fun a => Fin.ext ?_)
  obtain ⟨e0, e1, e2, e3, e4, e5⟩ := idx t
  match a with
  | ⟨0, _⟩ => show win3_1.index t (0 : Fin 2) * 1 + 1 * p.val = p.val; rw [e2]; omega
  | ⟨1, _⟩ => show win3_1.index t (1 : Fin 2) * 12 + 1 * q.val = q.val; rw [e3]; omega

/-- Where the result tile's entry `(p, q)` sits in the result array. -/
theorem tile_out (t : Fin cfg3.N) (p : Fin 25000) (q : Fin 12) :
    ((cfg3.win 2).blk t).view.emb (ix2 p q) = ix2 ⟨t.val * 25000 + p.val, row_lt t p⟩ q := by
  funext a
  apply Fin.ext
  obtain ⟨e0, e1, e2, e3, e4, e5⟩ := idx t
  match a with
  | ⟨0, _⟩ => show win3_2.index t (0 : Fin 2) * 25000 + 1 * p.val = t.val * 25000 + p.val; rw [e4]; omega
  | ⟨1, _⟩ => show win3_2.index t (1 : Fin 2) * 12 + 1 * q.val = q.val; rw [e5]; omega

/-- The tile body is a row-wise stage. -/
theorem body (x : Vec Ideal S25000x12 .f32) (y1 : Vec Ideal S1x12 .f32) :
    k3_pay1 x y1 = mapRows (fun r => th (unit (addRow y1 r))) x := by
  unfold k3_pay1
  exact body_bias_unit_tanh x y1 _ _ _ _ _ _ _ _

/-- What point `t` writes back is tile `t` of the stage applied to the whole operand array. -/
theorem flushed_eq (c : Dev nD) (t : Fin cfg3.N) :
    (dat3 V c).flushed 2 t = ((cfg3.win 2).blk t).view.read (Elt Ideal)
      (mapRows (fun r => th (unit (addRow (V c main_v60) r))) (V c main_v59)) := by
  show (cfg3.win 2).cut (grid3.coords t) ((dat3 V c).after 2 t) = _
  rw [after3_2]
  unfold out3_2
  rw [View.canon_unit_zero hz]
  simp only [View.ld_unit_zero (S := S25000x12) hz, View.ld_unit_zero (S := S1x12) hz]
  rw [body]
  funext j
  obtain ⟨p, q, rfl⟩ : ∃ (p : Fin 25000) (q : Fin 12), j = ix2 p q := ⟨j 0, j 1, eq_ix2 j⟩
  show mapRows (fun r => th (unit (addRow (iblk3 V c 1 t) r))) (iblk3 V c 0 t) (ix2 p q)
    = mapRows (fun r => th (unit (addRow (V c main_v60) r))) (V c main_v59) (((cfg3.win 2).blk t).view.emb (ix2 p q))
  rw [tile_out t p q, whole_1 V c t]
  exact mapRows_tile _ (V c main_v59) (iblk3 V c 0 t) (t.val * 25000) (row_lt t) (tile_in V c t) p q

/-- Every row of the result array lies in the tile of the point `row / 25000`. -/
theorem cover (i : S200000x12.Idx) : ∃ t : Fin cfg3.N, (cfg3.win 2).flush t = true ∧ i ∈ ((cfg3.win 2).blk t).view.set := by
  have hi0 : (i 0).val < 200000 := (i 0).isLt
  have hi1 : (i 1).val < 12 := (i 1).isLt
  have ht : (i 0).val / 25000 < cfg3.N := lt_of_lt_of_eq (by omega : (i 0).val / 25000 < 8) N_3.symm
  refine ⟨⟨(i 0).val / 25000, ht⟩, flush3_2 _, ?_⟩
  show i ∈ ((View.whole main_v61).slice (win3_2.rect ⟨(i 0).val / 25000, ht⟩)).set
  rw [View.set_slice_whole, Rect.mem_set_unit]
  obtain ⟨e0, e1, e2, e3, e4, e5⟩ := idx ⟨(i 0).val / 25000, ht⟩
  intro a
  match a with
  | ⟨0, _⟩ =>
    show win3_2.index ⟨(i 0).val / 25000, ht⟩ (0 : Fin 2) * 25000 ≤ (i 0).val ∧ (i 0).val < win3_2.index ⟨(i 0).val / 25000, ht⟩ (0 : Fin 2) * 25000 + 25000
    rw [e4]; show (i 0).val / 25000 * 25000 ≤ (i 0).val ∧ (i 0).val < (i 0).val / 25000 * 25000 + 25000; omega
  | ⟨1, _⟩ =>
    show win3_2.index ⟨(i 0).val / 25000, ht⟩ (1 : Fin 2) * 12 ≤ (i 1).val ∧ (i 1).val < win3_2.index ⟨(i 0).val / 25000, ht⟩ (1 : Fin 2) * 12 + 12
    rw [e5]; omega

/-- THE RESULT ARRAY after the region: the stage applied to every row of the operand array as the region found it. -/
theorem final (c : Dev nD) : (dat3 V c).arrAt 2 cfg3.N
    = mapRows (fun r => th (unit (addRow (V c main_v60) r))) (V c main_v59) :=
  (dat3 V c).arrAt_eq_of_cover 2 _ (fun t _ => flushed_eq V c t) cover

end Cert.KernelIdeal.Tile3

end
-- ==== Proof.Tile4.lean ====
import proofs.«142825_j42417097015629_1_alg».proof.Proof.Gen.KernelIdeal.Frame
import proofs.«142825_j42417097015629_1_alg».proof.Proof.LibRows

/-!
# The third linear region

Eight tiles of 25000 rows of the second layer's output, each multiplied by the 12 × 24 weight matrix.
-/

set_option maxRecDepth 16384

noncomputable section

namespace Cert.KernelIdeal.Tile4

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Rows

variable (V : (c : Dev nD) → (b : Ref sig .tc) → Buf (Elt Ideal) ((c : Thread nD τ).loc b))

theorem hz : (![0, 0] : Fin 2 → Nat) = fun _ => 0 := funext fun a => by fin_cases a <;> rfl

theorem lt8 (t : Fin cfg4.N) : t.val < 8 := lt_of_lt_of_eq t.isLt N_4

theorem row_lt (t : Fin cfg4.N) (p : Fin 25000) : t.val * 25000 + p.val < 200000 := by
  have := lt8 t; have := p.isLt; omega

/-- The index maps over the grid: the row tiles move with the point, the parameters stay. -/
theorem idx : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- The operand tile at point `t` is rows `25000 t …` of the operand array. -/
theorem tile_in (c : Dev nD) (t : Fin cfg4.N) (p : Fin 25000) (q : Fin 12) :
    iblk4 V c 0 t (ix2 p q) = V c main_v61 (ix2 ⟨t.val * 25000 + p.val, row_lt t p⟩ q) := by
  show V c main_v61 (((cfg4.win 0).blk t).view.emb (ix2 p q)) = _
  refine congrArg (V c main_v61) (funext fun a => Fin.ext ?_)
  obtain ⟨e0, e1, e2, e3, e4, e5⟩ := idx t
  match a with
  | ⟨0, _⟩ => show win4_0.index t (0 : Fin 2) * 25000 + 1 * p.val = t.val * 25000 + p.val; rw [e0]; omega
  | ⟨1, _⟩ => show win4_0.index t (1 : Fin 2) * 12 + 1 * q.val = q.val; rw [e1]; omega

/-- Parameter window 1 is its whole array at every point. -/
theorem whole_1 (c : Dev nD) (t : Fin cfg4.N) : iblk4 V c 1 t = V c main_arg6 := by
  funext y
  obtain ⟨p, q, rfl⟩ : ∃ (p : Fin 12) (q : Fin 24), y = ix2 p q := ⟨y 0, y 1, eq_ix2 y⟩
  show V c main_arg6 (((cfg4.win 1).blk t).view.emb (ix2 p q)) = _
  refine congrArg (V c main_arg6) (funext fun a => Fin.ext ?_)
  obtain ⟨e0, e1, e2, e3, e4, e5⟩ := idx t
  match a with
  | ⟨0, _⟩ => show win4_1.index t (0 : Fin 2) * 12 + 1 * p.val = p.val; rw [e2]; omega
  | ⟨1, _⟩ => show win4_1.index t (1 : Fin 2) * 24 + 1 * q.val = q.val; rw [e3]; omega

/-- Where the result tile's entry `(p, q)` sits in the result array. -/
theorem tile_out (t : Fin cfg4.N) (p : Fin 25000) (q : Fin 24) :
    ((cfg4.win 2).blk t).view.emb (ix2 p q) = ix2 ⟨t.val * 25000 + p.val, row_lt t p⟩ q := by
  funext a
  apply Fin.ext
  obtain ⟨e0, e1, e2, e3, e4, e5⟩ := idx t
  match a with
  | ⟨0, _⟩ => show win4_2.index t (0 : Fin 2) * 25000 + 1 * p.val = t.val * 25000 + p.val; rw [e4]; omega
  | ⟨1, _⟩ => show win4_2.index t (1 : Fin 2) * 24 + 1 * q.val = q.val; rw [e5]; omega

/-- The tile body is a row-wise stage. -/
theorem body (x : Vec Ideal S25000x12 .f32) (y1 : Vec Ideal S12x24 .f32) :
    k4_pay1 x y1 = mapRows (lin y1) x := by
  unfold k4_pay1
  exact body_lin dot_S25000x12_S12x24_S25000x24_1_0_0_1_n_n ⟨rfl, rfl, rfl, rfl, rfl, rfl⟩ x y1 _

/-- What point `t` writes back is tile `t` of the stage applied to the whole operand array. -/
theorem flushed_eq (c : Dev nD) (t : Fin cfg4.N) :
    (dat4 V c).flushed 2 t = ((cfg4.win 2).blk t).view.read (Elt Ideal)
      (mapRows (lin (V c main_arg6)) (V c main_v61)) := by
  show (cfg4.win 2).cut (grid4.coords t) ((dat4 V c).after 2 t) = _
  rw [after4_2]
  unfold out4_2
  rw [View.canon_unit_zero hz]
  simp only [View.ld_unit_zero (S := S25000x12) hz, View.ld_unit_zero (S := S12x24) hz]
  rw [body]
  funext j
  obtain ⟨p, q, rfl⟩ : ∃ (p : Fin 25000) (q : Fin 24), j = ix2 p q := ⟨j 0, j 1, eq_ix2 j⟩
  show mapRows (lin (iblk4 V c 1 t)) (iblk4 V c 0 t) (ix2 p q)
    = mapRows (lin (V c main_arg6)) (V c main_v61) (((cfg4.win 2).blk t).view.emb (ix2 p q))
  rw [tile_out t p q, whole_1 V c t]
  exact mapRows_tile _ (V c main_v61) (iblk4 V c 0 t) (t.val * 25000) (row_lt t) (tile_in V c t) p q

/-- Every row of the result array lies in the tile of the point `row / 25000`. -/
theorem cover (i : S200000x24.Idx) : ∃ t : Fin cfg4.N, (cfg4.win 2).flush t = true ∧ i ∈ ((cfg4.win 2).blk t).view.set := by
  have hi0 : (i 0).val < 200000 := (i 0).isLt
  have hi1 : (i 1).val < 24 := (i 1).isLt
  have ht : (i 0).val / 25000 < cfg4.N := lt_of_lt_of_eq (by omega : (i 0).val / 25000 < 8) N_4.symm
  refine ⟨⟨(i 0).val / 25000, ht⟩, flush4_2 _, ?_⟩
  show i ∈ ((View.whole main_v62).slice (win4_2.rect ⟨(i 0).val / 25000, ht⟩)).set
  rw [View.set_slice_whole, Rect.mem_set_unit]
  obtain ⟨e0, e1, e2, e3, e4, e5⟩ := idx ⟨(i 0).val / 25000, ht⟩
  intro a
  match a with
  | ⟨0, _⟩ =>
    show win4_2.index ⟨(i 0).val / 25000, ht⟩ (0 : Fin 2) * 25000 ≤ (i 0).val ∧ (i 0).val < win4_2.index ⟨(i 0).val / 25000, ht⟩ (0 : Fin 2) * 25000 + 25000
    rw [e4]; show (i 0).val / 25000 * 25000 ≤ (i 0).val ∧ (i 0).val < (i 0).val / 25000 * 25000 + 25000; omega
  | ⟨1, _⟩ =>
    show win4_2.index ⟨(i 0).val / 25000, ht⟩ (1 : Fin 2) * 24 ≤ (i 1).val ∧ (i 1).val < win4_2.index ⟨(i 0).val / 25000, ht⟩ (1 : Fin 2) * 24 + 24
    rw [e5]; omega

/-- THE RESULT ARRAY after the region: the stage applied to every row of the operand array as the region found it. -/
theorem final (c : Dev nD) : (dat4 V c).arrAt 2 cfg4.N
    = mapRows (lin (V c main_arg6)) (V c main_v61) :=
  (dat4 V c).arrAt_eq_of_cover 2 _ (fun t _ => flushed_eq V c t) cover

end Cert.KernelIdeal.Tile4

end
-- ==== Proof.Tile5.lean ====
import proofs.«142825_j42417097015629_1_alg».proof.Proof.Gen.KernelIdeal.Frame
import proofs.«142825_j42417097015629_1_alg».proof.Proof.LibRows

/-!
# The third layer's closing region

Each row of the aggregate gets the bias row added and is divided by the larger of its Euclidean norm and the floor.
-/

set_option maxRecDepth 16384

noncomputable section

namespace Cert.KernelIdeal.Tile5

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Rows

variable (V : (c : Dev nD) → (b : Ref sig .tc) → Buf (Elt Ideal) ((c : Thread nD τ).loc b))

theorem hz : (![0, 0] : Fin 2 → Nat) = fun _ => 0 := funext fun a => by fin_cases a <;> rfl

theorem lt8 (t : Fin cfg5.N) : t.val < 8 := lt_of_lt_of_eq t.isLt N_5

theorem row_lt (t : Fin cfg5.N) (p : Fin 25000) : t.val * 25000 + p.val < 200000 := by
  have := lt8 t; have := p.isLt; omega

/-- The index maps over the grid: the row tiles move with the point, the parameters stay. -/
theorem idx : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- The operand tile at point `t` is rows `25000 t …` of the operand array. -/
theorem tile_in (c : Dev nD) (t : Fin cfg5.N) (p : Fin 25000) (q : Fin 24) :
    iblk5 V c 0 t (ix2 p q) = V c main_v75 (ix2 ⟨t.val * 25000 + p.val, row_lt t p⟩ q) := by
  show V c main_v75 (((cfg5.win 0).blk t).view.emb (ix2 p q)) = _
  refine congrArg (V c main_v75) (funext fun a => Fin.ext ?_)
  obtain ⟨e0, e1, e2, e3, e4, e5⟩ := idx t
  match a with
  | ⟨0, _⟩ => show win5_0.index t (0 : Fin 2) * 25000 + 1 * p.val = t.val * 25000 + p.val; rw [e0]; omega
  | ⟨1, _⟩ => show win5_0.index t (1 : Fin 2) * 24 + 1 * q.val = q.val; rw [e1]; omega

/-- Parameter window 1 is its whole array at every point. -/
theorem whole_1 (c : Dev nD) (t : Fin cfg5.N) : iblk5 V c 1 t = V c main_v76 := by
  funext y
  obtain ⟨p, q, rfl⟩ : ∃ (p : Fin 1) (q : Fin 24), y = ix2 p q := ⟨y 0, y 1, eq_ix2 y⟩
  show V c main_v76 (((cfg5.win 1).blk t).view.emb (ix2 p q)) = _
  refine congrArg (V c main_v76) (funext fun a => Fin.ext ?_)
  obtain ⟨e0, e1, e2, e3, e4, e5⟩ := idx t
  match a with
  | ⟨0, _⟩ => show win5_1.index t (0 : Fin 2) * 1 + 1 * p.val = p.val; rw [e2]; omega
  | ⟨1, _⟩ => show win5_1.index t (1 : Fin 2) * 24 + 1 * q.val = q.val; rw [e3]; omega

/-- Where the result tile's entry `(p, q)` sits in the result array. -/
theorem tile_out (t : Fin cfg5.N) (p : Fin 25000) (q : Fin 24) :
    ((cfg5.win 2).blk t).view.emb (ix2 p q) = ix2 ⟨t.val * 25000 + p.val, row_lt t p⟩ q := by
  funext a
  apply Fin.ext
  obtain ⟨e0, e1, e2, e3, e4, e5⟩ := idx t
  match a with
  | ⟨0, _⟩ => show win5_2.index t (0 : Fin 2) * 25000 + 1 * p.val = t.val * 25000 + p.val; rw [e4]; omega
  | ⟨1, _⟩ => show win5_2.index t (1 : Fin 2) * 24 + 1 * q.val = q.val; rw [e5]; omega

/-- The tile body is a row-wise stage. -/
theorem body (x : Vec Ideal S25000x24 .f32) (y1 : Vec Ideal S1x24 .f32) :
    k5_pay1 x y1 = mapRows (fun r => unit (addRow y1 r)) x := by
  unfold k5_pay1
  exact body_bias_unit x y1 _ _ _ _ _ _ _ _

/-- What point `t` writes back is tile `t` of the stage applied to the whole operand array. -/
theorem flushed_eq (c : Dev nD) (t : Fin cfg5.N) :
    (dat5 V c).flushed 2 t = ((cfg5.win 2).blk t).view.read (Elt Ideal)
      (mapRows (fun r => unit (addRow (V c main_v76) r)) (V c main_v75)) := by
  show (cfg5.win 2).cut (grid5.coords t) ((dat5 V c).after 2 t) = _
  rw [after5_2]
  unfold out5_2
  rw [View.canon_unit_zero hz]
  simp only [View.ld_unit_zero (S := S25000x24) hz, View.ld_unit_zero (S := S1x24) hz]
  rw [body]
  funext j
  obtain ⟨p, q, rfl⟩ : ∃ (p : Fin 25000) (q : Fin 24), j = ix2 p q := ⟨j 0, j 1, eq_ix2 j⟩
  show mapRows (fun r => unit (addRow (iblk5 V c 1 t) r)) (iblk5 V c 0 t) (ix2 p q)
    = mapRows (fun r => unit (addRow (V c main_v76) r)) (V c main_v75) (((cfg5.win 2).blk t).view.emb (ix2 p q))
  rw [tile_out t p q, whole_1 V c t]
  exact mapRows_tile _ (V c main_v75) (iblk5 V c 0 t) (t.val * 25000) (row_lt t) (tile_in V c t) p q

/-- Every row of the result array lies in the tile of the point `row / 25000`. -/
theorem cover (i : S200000x24.Idx) : ∃ t : Fin cfg5.N, (cfg5.win 2).flush t = true ∧ i ∈ ((cfg5.win 2).blk t).view.set := by
  have hi0 : (i 0).val < 200000 := (i 0).isLt
  have hi1 : (i 1).val < 24 := (i 1).isLt
  have ht : (i 0).val / 25000 < cfg5.N := lt_of_lt_of_eq (by omega : (i 0).val / 25000 < 8) N_5.symm
  refine ⟨⟨(i 0).val / 25000, ht⟩, flush5_2 _, ?_⟩
  show i ∈ ((View.whole main_v77).slice (win5_2.rect ⟨(i 0).val / 25000, ht⟩)).set
  rw [View.set_slice_whole, Rect.mem_set_unit]
  obtain ⟨e0, e1, e2, e3, e4, e5⟩ := idx ⟨(i 0).val / 25000, ht⟩
  intro a
  match a with
  | ⟨0, _⟩ =>
    show win5_2.index ⟨(i 0).val / 25000, ht⟩ (0 : Fin 2) * 25000 ≤ (i 0).val ∧ (i 0).val < win5_2.index ⟨(i 0).val / 25000, ht⟩ (0 : Fin 2) * 25000 + 25000
    rw [e4]; show (i 0).val / 25000 * 25000 ≤ (i 0).val ∧ (i 0).val < (i 0).val / 25000 * 25000 + 25000; omega
  | ⟨1, _⟩ =>
    show win5_2.index ⟨(i 0).val / 25000, ht⟩ (1 : Fin 2) * 24 ≤ (i 1).val ∧ (i 1).val < win5_2.index ⟨(i 0).val / 25000, ht⟩ (1 : Fin 2) * 24 + 24
    rw [e5]; omega

/-- THE RESULT ARRAY after the region: the stage applied to every row of the operand array as the region found it. -/
theorem final (c : Dev nD) : (dat5 V c).arrAt 2 cfg5.N
    = mapRows (fun r => unit (addRow (V c main_v76) r)) (V c main_v75) :=
  (dat5 V c).arrAt_eq_of_cover 2 _ (fun t _ => flushed_eq V c t) cover

end Cert.KernelIdeal.Tile5

end
-- ==== Proof.Tile6.lean ====
import proofs.«142825_j42417097015629_1_alg».proof.Proof.Gen.KernelIdeal.Frame
import proofs.«142825_j42417097015629_1_alg».proof.Proof.LibRows

/-!
# The classifier region

Each row of the third layer's output is multiplied by the 24 × 13 weight matrix, gets the bias row added, and is
divided by the larger of its Euclidean norm and the floor.
-/

set_option maxRecDepth 16384

noncomputable section

namespace Cert.KernelIdeal.Tile6

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Rows

variable (V : (c : Dev nD) → (b : Ref sig .tc) → Buf (Elt Ideal) ((c : Thread nD τ).loc b))

theorem hz : (![0, 0] : Fin 2 → Nat) = fun _ => 0 := funext fun a => by fin_cases a <;> rfl

theorem lt8 (t : Fin cfg6.N) : t.val < 8 := lt_of_lt_of_eq t.isLt N_6

theorem row_lt (t : Fin cfg6.N) (p : Fin 25000) : t.val * 25000 + p.val < 200000 := by
  have := lt8 t; have := p.isLt; omega

/-- The index maps over the grid: the row tiles move with the point, the parameters stay. -/
theorem idx : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = t.val
    ∧ win6_3.index t (1 : Fin 2) = 0 :=
  (by decide +kernel : ∀ t : Fin grid6.N, _)

/-- The operand tile at point `t` is rows `25000 t …` of the operand array. -/
theorem tile_in (c : Dev nD) (t : Fin cfg6.N) (p : Fin 25000) (q : Fin 24) :
    iblk6 V c 0 t (ix2 p q) = V c main_v77 (ix2 ⟨t.val * 25000 + p.val, row_lt t p⟩ q) := by
  show V c main_v77 (((cfg6.win 0).blk t).view.emb (ix2 p q)) = _
  refine congrArg (V c main_v77) (funext fun a => Fin.ext ?_)
  obtain ⟨e0, e1, e2, e3, e4, e5, e6, e7⟩ := idx t
  match a with
  | ⟨0, _⟩ => show win6_0.index t (0 : Fin 2) * 25000 + 1 * p.val = t.val * 25000 + p.val; rw [e0]; omega
  | ⟨1, _⟩ => show win6_0.index t (1 : Fin 2) * 24 + 1 * q.val = q.val; rw [e1]; omega

/-- Parameter window 1 is its whole array at every point. -/
theorem whole_1 (c : Dev nD) (t : Fin cfg6.N) : iblk6 V c 1 t = V c main_arg8 := by
  funext y
  obtain ⟨p, q, rfl⟩ : ∃ (p : Fin 24) (q : Fin 13), y = ix2 p q := ⟨y 0, y 1, eq_ix2 y⟩
  show V c main_arg8 (((cfg6.win 1).blk t).view.emb (ix2 p q)) = _
  refine congrArg (V c main_arg8) (funext fun a => Fin.ext ?_)
  obtain ⟨e0, e1, e2, e3, e4, e5, e6, e7⟩ := idx t
  match a with
  | ⟨0, _⟩ => show win6_1.index t (0 : Fin 2) * 24 + 1 * p.val = p.val; rw [e2]; omega
  | ⟨1, _⟩ => show win6_1.index t (1 : Fin 2) * 13 + 1 * q.val = q.val; rw [e3]; omega

/-- Parameter window 2 is its whole array at every point. -/
theorem whole_2 (c : Dev nD) (t : Fin cfg6.N) : iblk6 V c 2 t = V c main_v78 := by
  funext y
  obtain ⟨p, q, rfl⟩ : ∃ (p : Fin 1) (q : Fin 13), y = ix2 p q := ⟨y 0, y 1, eq_ix2 y⟩
  show V c main_v78 (((cfg6.win 2).blk t).view.emb (ix2 p q)) = _
  refine congrArg (V c main_v78) (funext fun a => Fin.ext ?_)
  obtain ⟨e0, e1, e2, e3, e4, e5, e6, e7⟩ := idx t
  match a with
  | ⟨0, _⟩ => show win6_2.index t (0 : Fin 2) * 1 + 1 * p.val = p.val; rw [e4]; omega
  | ⟨1, _⟩ => show win6_2.index t (1 : Fin 2) * 13 + 1 * q.val = q.val; rw [e5]; omega

/-- Where the result tile's entry `(p, q)` sits in the result array. -/
theorem tile_out (t : Fin cfg6.N) (p : Fin 25000) (q : Fin 13) :
    ((cfg6.win 3).blk t).view.emb (ix2 p q) = ix2 ⟨t.val * 25000 + p.val, row_lt t p⟩ q := by
  funext a
  apply Fin.ext
  obtain ⟨e0, e1, e2, e3, e4, e5, e6, e7⟩ := idx t
  match a with
  | ⟨0, _⟩ => show win6_3.index t (0 : Fin 2) * 25000 + 1 * p.val = t.val * 25000 + p.val; rw [e6]; omega
  | ⟨1, _⟩ => show win6_3.index t (1 : Fin 2) * 13 + 1 * q.val = q.val; rw [e7]; omega

/-- The tile body is a row-wise stage. -/
theorem body (x : Vec Ideal S25000x24 .f32) (y1 : Vec Ideal S24x13 .f32) (y2 : Vec Ideal S1x13 .f32) :
    k6_pay1 x y1 y2 = mapRows (fun r => unit (addRow y2 (lin y1 r))) x := by
  unfold k6_pay1
  exact body_lin_bias_unit dot_S25000x24_S24x13_S25000x13_1_0_0_1_n_n ⟨rfl, rfl, rfl, rfl, rfl, rfl⟩ x y1 y2 _ _ _ _ _ _ _ _

/-- What point `t` writes back is tile `t` of the stage applied to the whole operand array. -/
theorem flushed_eq (c : Dev nD) (t : Fin cfg6.N) :
    (dat6 V c).flushed 3 t = ((cfg6.win 3).blk t).view.read (Elt Ideal)
      (mapRows (fun r => unit (addRow (V c main_v78) (lin (V c main_arg8) r))) (V c main_v77)) := by
  show (cfg6.win 3).cut (grid6.coords t) ((dat6 V c).after 3 t) = _
  rw [after6_3]
  unfold out6_3
  rw [View.canon_unit_zero hz]
  simp only [View.ld_unit_zero (S := S25000x24) hz, View.ld_unit_zero (S := S24x13) hz, View.ld_unit_zero (S := S1x13) hz]
  rw [body]
  funext j
  obtain ⟨p, q, rfl⟩ : ∃ (p : Fin 25000) (q : Fin 13), j = ix2 p q := ⟨j 0, j 1, eq_ix2 j⟩
  show mapRows (fun r => unit (addRow (iblk6 V c 2 t) (lin (iblk6 V c 1 t) r))) (iblk6 V c 0 t) (ix2 p q)
    = mapRows (fun r => unit (addRow (V c main_v78) (lin (V c main_arg8) r))) (V c main_v77) (((cfg6.win 3).blk t).view.emb (ix2 p q))
  rw [tile_out t p q, whole_1 V c t, whole_2 V c t]
  exact mapRows_tile _ (V c main_v77) (iblk6 V c 0 t) (t.val * 25000) (row_lt t) (tile_in V c t) p q

/-- Every row of the result array lies in the tile of the point `row / 25000`. -/
theorem cover (i : S200000x13.Idx) : ∃ t : Fin cfg6.N, (cfg6.win 3).flush t = true ∧ i ∈ ((cfg6.win 3).blk t).view.set := by
  have hi0 : (i 0).val < 200000 := (i 0).isLt
  have hi1 : (i 1).val < 13 := (i 1).isLt
  have ht : (i 0).val / 25000 < cfg6.N := lt_of_lt_of_eq (by omega : (i 0).val / 25000 < 8) N_6.symm
  refine ⟨⟨(i 0).val / 25000, ht⟩, flush6_3 _, ?_⟩
  show i ∈ ((View.whole main_v79).slice (win6_3.rect ⟨(i 0).val / 25000, ht⟩)).set
  rw [View.set_slice_whole, Rect.mem_set_unit]
  obtain ⟨e0, e1, e2, e3, e4, e5, e6, e7⟩ := idx ⟨(i 0).val / 25000, ht⟩
  intro a
  match a with
  | ⟨0, _⟩ =>
    show win6_3.index ⟨(i 0).val / 25000, ht⟩ (0 : Fin 2) * 25000 ≤ (i 0).val ∧ (i 0).val < win6_3.index ⟨(i 0).val / 25000, ht⟩ (0 : Fin 2) * 25000 + 25000
    rw [e6]; show (i 0).val / 25000 * 25000 ≤ (i 0).val ∧ (i 0).val < (i 0).val / 25000 * 25000 + 25000; omega
  | ⟨1, _⟩ =>
    show win6_3.index ⟨(i 0).val / 25000, ht⟩ (1 : Fin 2) * 13 ≤ (i 1).val ∧ (i 1).val < win6_3.index ⟨(i 0).val / 25000, ht⟩ (1 : Fin 2) * 13 + 13
    rw [e7]; omega

/-- THE RESULT ARRAY after the region: the stage applied to every row of the operand array as the region found it. -/
theorem final (c : Dev nD) : (dat6 V c).arrAt 3 cfg6.N
    = mapRows (fun r => unit (addRow (V c main_v78) (lin (V c main_arg8) r))) (V c main_v77) :=
  (dat6 V c).arrAt_eq_of_cover 3 _ (fun t _ => flushed_eq V c t) cover

end Cert.KernelIdeal.Tile6

end
-- ==== Proof.Chain.lean ====
import proofs.«142825_j42417097015629_1_alg».proof.Proof.Keep
import proofs.«142825_j42417097015629_1_alg».proof.Proof.RefStages
import proofs.«142825_j42417097015629_1_alg».proof.Proof.RefEdges
import proofs.«142825_j42417097015629_1_alg».proof.Proof.Tile0
import proofs.«142825_j42417097015629_1_alg».proof.Proof.Tile1
import proofs.«142825_j42417097015629_1_alg».proof.Proof.Tile2
import proofs.«142825_j42417097015629_1_alg».proof.Proof.Tile3
import proofs.«142825_j42417097015629_1_alg».proof.Proof.Tile4
import proofs.«142825_j42417097015629_1_alg».proof.Proof.Tile5
import proofs.«142825_j42417097015629_1_alg».proof.Proof.Tile6

/-!
# The kernel program's arrays, stage by stage, are the reference's

Walking the program from the first region to the last: after each region the array it wrote, and after each host
stretch the aggregate it scattered together, is the reference's own term of the arguments for the same stage.
A region's result is a row-wise stage of its operand (the tiles modules); the reference's stage is the same
row-wise function of the same operand (`RefStages`); a host stretch between two regions is, operation for
operation, the reference's gather – scale – scatter-add of that layer, applied to the same edge data (`Keep`).
-/

set_option maxRecDepth 16384

noncomputable section

namespace Cert.KernelIdeal.Chain

open Cert.KernelIdeal Cert.KernelIdeal.Gen Cert.KernelIdeal.Keep
open Idealize.ShloMosaic Idealize.ShloMosaic.TcCoe Idealize.SL.Sem Idealize.ShloMosaic.StableHlo
open Cert.Rows

variable (m : (ℓ : Loc nD τ sig) → Buf (Elt Ideal) ℓ) (ρ : Dev nD → PrngReg) (c : Dev nD)

/-! ## Layer 1 -/

theorem lin1 : W4 m ρ c (Proc.devRef .tc main_v30) = Cert.ReferenceIdeal.ReadP.val_main_v30 (F := Ideal) (m ((c : Thread nD τ).loc main_arg0)) (m ((c : Thread nD τ).loc main_arg2)) := by
  refine (W4_arr m ρ c 2).trans ?_
  rw [Cert.KernelIdeal.Tile0.final (V3 m ρ) c]
  show mapRows (lin (W3 m ρ c (Proc.devRef .tc main_arg2))) (W3 m ρ c (Proc.devRef .tc main_arg0)) = _
  rw [at3_arg2 m ρ c, at3_arg0 m ρ c]
  exact (Cert.ReferenceIdeal.Stages.lin1 _ _).symm

theorem agg1 : W5 m ρ c (Proc.devRef .tc main_v43) = Cert.ReferenceIdeal.ReadP.val_main_v43 (F := Ideal) (m ((c : Thread nD τ).loc main_arg0)) (m ((c : Thread nD τ).loc main_arg1)) (m ((c : Thread nD τ).loc main_arg2)) := by
  dsimp only [W5, hostOps1]
  after_results_simp
  rw [at4_v29 m ρ c, at4_v5 m ρ c, at4_v6 m ρ c, lin1 m ρ c]
  unfold Cert.ReferenceIdeal.ReadP.val_main_v43 Cert.ReferenceIdeal.ReadP.val_main_v42 Cert.ReferenceIdeal.ReadP.val_main_v41 Cert.ReferenceIdeal.ReadP.val_main_cst_8 Cert.ReferenceIdeal.ReadP.val_main_v40 Cert.ReferenceIdeal.ReadP.val_main_v39 Cert.ReferenceIdeal.ReadP.val_main_v38 Cert.ReferenceIdeal.ReadP.val_main_v37 Cert.ReferenceIdeal.ReadP.val_main_v36 Cert.ReferenceIdeal.ReadP.val_main_v35 Cert.ReferenceIdeal.ReadP.val_main_v34 Cert.ReferenceIdeal.ReadP.val_main_c_7 Cert.ReferenceIdeal.ReadP.val_main_v33 Cert.ReferenceIdeal.ReadP.val_main_v32 Cert.ReferenceIdeal.ReadP.val_main_c_6 Cert.ReferenceIdeal.ReadP.val_main_v31
  generalize Cert.ReferenceIdeal.ReadP.val_main_v30 (F := Ideal) _ _ = Y0
  generalize Cert.ReferenceIdeal.ReadP.val_main_v29 (F := Ideal) _ = Y1
  generalize Cert.ReferenceIdeal.ReadP.val_main_v5 (F := Ideal) _ = Y2
  generalize Cert.ReferenceIdeal.ReadP.val_main_v6 (F := Ideal) _ = Y3
  rfl

theorem bias1 : W5 m ρ c (Proc.devRef .tc main_v44) = shapeCast S1x6 (m ((c : Thread nD τ).loc main_arg3)) shapeCasts_S6_S1x6 := by
  dsimp only [W5, hostOps1]
  after_results_simp
  rw [at4_arg3 m ρ c]
  rfl

theorem close1 : W6 m ρ c (Proc.devRef .tc main_v45) = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) := by
  refine (W6_arr m ρ c 2).trans ?_
  rw [Cert.KernelIdeal.Tile1.final (V5 m ρ) c]
  show mapRows (fun r => th (addRow (W5 m ρ c (Proc.devRef .tc main_v44)) r)) (W5 m ρ c (Proc.devRef .tc main_v43)) = _
  rw [bias1 m ρ c, agg1 m ρ c]
  exact (Cert.ReferenceIdeal.Stages.close1 _ _ _ _ _).symm

/-! ## Layer 2 -/

theorem lin2 : W7 m ρ c (Proc.devRef .tc main_v46) = Cert.ReferenceIdeal.ReadP.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ?_
  rw [Cert.KernelIdeal.Tile2.final (V6 m ρ) c]
  show mapRows (lin (W6 m ρ c (Proc.devRef .tc main_arg4))) (W6 m ρ c (Proc.devRef .tc main_v45)) = _
  rw [at6_arg4 m ρ c, close1 m ρ c]
  exact (Cert.ReferenceIdeal.Stages.lin2 _ _ _ _ _).symm

theorem agg2 : W8 m ρ c (Proc.devRef .tc main_v59) = Cert.ReferenceIdeal.ReadP.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [W8, hostOps3]
  after_results_simp
  rw [at7_v29 m ρ c, at7_v5 m ρ c, at7_v6 m ρ c, lin2 m ρ c, ← Cert.ReferenceIdeal.Stages.wgt2, ← Cert.ReferenceIdeal.Stages.src2,
    ← Cert.ReferenceIdeal.Stages.dst2]
  unfold Cert.ReferenceIdeal.ReadP.val_main_v87 Cert.ReferenceIdeal.ReadP.val_main_v86 Cert.ReferenceIdeal.ReadP.val_main_v85 Cert.ReferenceIdeal.ReadP.val_main_cst_19 Cert.ReferenceIdeal.ReadP.val_main_v84 Cert.ReferenceIdeal.ReadP.val_main_v83 Cert.ReferenceIdeal.ReadP.val_main_v82 Cert.ReferenceIdeal.ReadP.val_main_v81 Cert.ReferenceIdeal.ReadP.val_main_v80 Cert.ReferenceIdeal.ReadP.val_main_v79 Cert.ReferenceIdeal.ReadP.val_main_v78 Cert.ReferenceIdeal.ReadP.val_main_c_18 Cert.ReferenceIdeal.ReadP.val_main_v77 Cert.ReferenceIdeal.ReadP.val_main_v76 Cert.ReferenceIdeal.ReadP.val_main_c_17 Cert.ReferenceIdeal.ReadP.val_main_v75
  generalize Cert.ReferenceIdeal.ReadP.val_main_v74 (F := Ideal) _ _ _ _ _ = Y0
  generalize Cert.ReferenceIdeal.ReadP.val_main_v73 (F := Ideal) _ = Y1
  generalize Cert.ReferenceIdeal.ReadP.val_main_v49 (F := Ideal) _ = Y2
  generalize Cert.ReferenceIdeal.ReadP.val_main_v50 (F := Ideal) _ = Y3
  rfl

theorem bias2 : W8 m ρ c (Proc.devRef .tc main_v60) = shapeCast S1x12 (m ((c : Thread nD τ).loc main_arg5)) shapeCasts_S12_S1x12 := by
  dsimp only [W8, hostOps3]
  after_results_simp
  rw [at7_arg5 m ρ c]
  rfl

theorem close2 : W9 m ρ c (Proc.devRef .tc main_v61) = Cert.ReferenceIdeal.ReadP.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ?_
  rw [Cert.KernelIdeal.Tile3.final (V8 m ρ) c]
  show mapRows (fun r => th (unit (addRow (W8 m ρ c (Proc.devRef .tc main_v60)) r))) (W8 m ρ c (Proc.devRef .tc main_v59)) = _
  rw [bias2 m ρ c, agg2 m ρ c]
  exact (Cert.ReferenceIdeal.Stages.close2 _ _ _ _ _ _ _).symm

/-! ## Layer 3 -/

theorem lin3 : W10 m ρ c (Proc.devRef .tc main_v62) = Cert.ReferenceIdeal.ReadP.val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W10_arr m ρ c 2).trans ?_
  rw [Cert.KernelIdeal.Tile4.final (V9 m ρ) c]
  show mapRows (lin (W9 m ρ c (Proc.devRef .tc main_arg6))) (W9 m ρ c (Proc.devRef .tc main_v61)) = _
  rw [at9_arg6 m ρ c, close2 m ρ c]
  exact (Cert.ReferenceIdeal.Stages.lin3 _ _ _ _ _ _ _).symm

theorem agg3 : W11 m ρ c (Proc.devRef .tc main_v75) = Cert.ReferenceIdeal.ReadP.val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  dsimp only [W11, hostOps5]
  after_results_simp
  rw [at10_v29 m ρ c, at10_v5 m ρ c, at10_v6 m ρ c, lin3 m ρ c, ← Cert.ReferenceIdeal.Stages.wgt3, ← Cert.ReferenceIdeal.Stages.src3,
    ← Cert.ReferenceIdeal.Stages.dst3]
  unfold Cert.ReferenceIdeal.ReadP.val_main_v136 Cert.ReferenceIdeal.ReadP.val_main_v135 Cert.ReferenceIdeal.ReadP.val_main_v134 Cert.ReferenceIdeal.ReadP.val_main_cst_31 Cert.ReferenceIdeal.ReadP.val_main_v133 Cert.ReferenceIdeal.ReadP.val_main_v132 Cert.ReferenceIdeal.ReadP.val_main_v131 Cert.ReferenceIdeal.ReadP.val_main_v130 Cert.ReferenceIdeal.ReadP.val_main_v129 Cert.ReferenceIdeal.ReadP.val_main_v128 Cert.ReferenceIdeal.ReadP.val_main_v127 Cert.ReferenceIdeal.ReadP.val_main_c_30 Cert.ReferenceIdeal.ReadP.val_main_v126 Cert.ReferenceIdeal.ReadP.val_main_v125 Cert.ReferenceIdeal.ReadP.val_main_c_29 Cert.ReferenceIdeal.ReadP.val_main_v124
  generalize Cert.ReferenceIdeal.ReadP.val_main_v123 (F := Ideal) _ _ _ _ _ _ _ = Y0
  generalize Cert.ReferenceIdeal.ReadP.val_main_v122 (F := Ideal) _ = Y1
  generalize Cert.ReferenceIdeal.ReadP.val_main_v98 (F := Ideal) _ = Y2
  generalize Cert.ReferenceIdeal.ReadP.val_main_v99 (F := Ideal) _ = Y3
  rfl

theorem bias3 : W11 m ρ c (Proc.devRef .tc main_v76) = shapeCast S1x24 (m ((c : Thread nD τ).loc main_arg7)) shapeCasts_S24_S1x24 := by
  dsimp only [W11, hostOps5]
  after_results_simp
  rw [at10_arg7 m ρ c]
  rfl

theorem close3 : W12 m ρ c (Proc.devRef .tc main_v77) = Cert.ReferenceIdeal.ReadP.val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W12_arr m ρ c 2).trans ?_
  rw [Cert.KernelIdeal.Tile5.final (V11 m ρ) c]
  show mapRows (fun r => unit (addRow (W11 m ρ c (Proc.devRef .tc main_v76)) r)) (W11 m ρ c (Proc.devRef .tc main_v75)) = _
  rw [bias3 m ρ c, agg3 m ρ c]
  exact (Cert.ReferenceIdeal.Stages.close3 _ _ _ _ _ _ _ _ _).symm

/-! ## The classifier -/

theorem close3' : W13 m ρ c (Proc.devRef .tc main_v77) = Cert.ReferenceIdeal.ReadP.val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  dsimp only [W13, hostOps6]
  after_results_simp
  exact close3 m ρ c

theorem bias4 : W13 m ρ c (Proc.devRef .tc main_v78) = shapeCast S1x13 (m ((c : Thread nD τ).loc main_arg9)) shapeCasts_S13_S1x13 := by
  dsimp only [W13, hostOps6]
  after_results_simp
  rw [at12_arg9 m ρ c]
  rfl

/-- THE RESULT: what the last boundary holds at the result buffer is the reference's term of the ten arguments. -/
theorem result : W14 m ρ c (Proc.devRef .tc main_v79) = Cert.ReferenceIdeal.ReadP.val_main_v153 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W14_arr m ρ c 3).trans ?_
  rw [Cert.KernelIdeal.Tile6.final (V13 m ρ) c]
  show mapRows (fun r => unit (addRow (W13 m ρ c (Proc.devRef .tc main_v78)) (lin (W13 m ρ c (Proc.devRef .tc main_arg8)) r))) (W13 m ρ c (Proc.devRef .tc main_v77)) = _
  rw [bias4 m ρ c, at13_arg8 m ρ c, close3' m ρ c]
  exact (Cert.ReferenceIdeal.Stages.classify _ _ _ _ _ _ _ _ _ _ _).symm

end Cert.KernelIdeal.Chain

end
-- ==== Proof.lean ====
/-
  The network is three graph-convolution layers and a classifier over 200000 nodes and 6.4 million edges (plus one
  self-loop per node). A layer multiplies the node rows by a weight matrix, gathers the products at each edge's source,
  scales them by the symmetric edge weight (the product of the inverse square roots of the two endpoint degrees),
  scatter-adds them at each edge's target, adds a bias and closes with some of: scaling each row to unit length,
  `tanh`. The classifier multiplies by a last weight matrix, adds a bias and scales each row to unit length.

  The kernel program runs every dense stage — the four products and the four closings — as a tiled region of eight
  tiles of 25000 rows, and leaves the gathers and scatter-adds to the host; the reference runs everything on the host.
  Over the extended reals the two agree because (a) every dense stage acts on each row by itself, so the stage
  computed tile by tile is the stage computed on the whole array (modules `LibRows`, `LibHostRows`, `Tile0` … `Tile6`,
  `RefStages`): a matrix product into a zero accumulator and the host's `dot_general` are the same sum, a lane
  sum and the host's sum from a zero initial value are the same sum, and the bias, the square root, the maximum
  with the floor, the division and `tanh` are entry by entry the same operations; and (b) the host operations between
  the regions are, one for one, the reference's own operations of that layer, applied to the same edge data — which
  the reference recomputes in each layer and the kernel program computes once (modules `Keep`, `Chain`). No
  algebraic law beyond re-indexing a finite sum is used, so the precondition (finite inputs) is not needed for
  the equality.

  The frames of the two kernel programs are the generated ones; the reference's frame is its run with the result
  dropped; the idealization changed no operation, so `preserves` is `True`.
-/
import proofs.«142825_j42417097015629_1_alg».proof.Defs
import proofs.«142825_j42417097015629_1_alg».proof.Proof.Gen.Kernel
import proofs.«142825_j42417097015629_1_alg».proof.Proof.Gen.Kernel.Skeleton
import proofs.«142825_j42417097015629_1_alg».proof.Proof.Gen.Kernel.Launch
import proofs.«142825_j42417097015629_1_alg».proof.Proof.Gen.Kernel.Points
import proofs.«142825_j42417097015629_1_alg».proof.Proof.Gen.Kernel.Frame
import proofs.«142825_j42417097015629_1_alg».proof.Proof.Gen.KernelIdeal
import proofs.«142825_j42417097015629_1_alg».proof.Proof.Gen.KernelIdeal.Skeleton
import proofs.«142825_j42417097015629_1_alg».proof.Proof.Gen.KernelIdeal.Launch
import proofs.«142825_j42417097015629_1_alg».proof.Proof.Gen.KernelIdeal.Points
import proofs.«142825_j42417097015629_1_alg».proof.Proof.Gen.KernelIdeal.Frame
import proofs.«142825_j42417097015629_1_alg».proof.Proof.Gen.ReferenceIdeal
import proofs.«142825_j42417097015629_1_alg».proof.Proof.Gen.Pre_finite_inputs
import proofs.«142825_j42417097015629_1_alg».proof.Proof.KRun
import proofs.«142825_j42417097015629_1_alg».proof.Proof.Chain
import proofs.«142825_j42417097015629_1_alg».proof.Proof.RefReadP
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the same result array: the kernel program's last boundary at the result buffer is the
    reference's term of the arguments (`Chain.result`), and the two memories agree on the arguments. -/
theorem algebraic : Cert.algebraic_KernelIdeal_ReferenceIdeal := by
  intro m ρ m' ρ' _ hagree
  refine ⟨fun c => Cert.KernelIdeal.Gen.W14 m ρ c (Proc.devRef .tc Cert.KernelIdeal.main_v79),
    Cert.KernelIdeal.Whole.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9⟩ := hagree c
  rw [Cert.ReferenceIdeal.ReadP.val_main_v153_eq m' c, a0, a1, a2, a3, a4, a5, a6, a7, a8, a9]
  exact (Cert.KernelIdeal.Chain.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
